-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41A00000#32 ((268435456 / 13421773 : ℝ) : EReal)
  ∧ IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x768 : Shape := ⟨2, ![256, 768]⟩
abbrev S64x1024x768 : Shape := ⟨3, ![64, 1024, 768]⟩
abbrev S_ : Shape := ⟨0, ![]⟩

class Facts : Prop where
  bcast_S_S256x768 : S_.BroadcastsInDim S256x768 (![] : Fin 0 → Fin S256x768.rank)
  reducesTo_S256x768_S_d0_1 : S256x768.ReducesTo [0, 1] S_
  h_S_ : 0 < S_.numel
  bcast_S_S64x1024x768 : S_.BroadcastsInDim S64x1024x768 (![] : Fin 0 → Fin S64x1024x768.rank)
  reducesTo_S64x1024x768_S_d0_1_2 : S64x1024x768.ReducesTo [0, 1, 2] S_

variable [Facts]

def fn {F : FTy → Type} [FloatOps F] (main_arg0 : FVec F S256x768 .f32) (main_arg1 : FVec F S256x768 .f32) (main_arg2 : FVec F S64x1024x768 .f32) : IVec S_ 1 :=
  let main_v0 : FVec F S256x768 .f32 := Host.absf main_arg0
  let main_cst : FVec F S_ .f32 := constant S_ .f32 0x7F800000#32
  let main_v1 : FVec F S256x768 .f32 := broadcastInDim S256x768 ![] bcast_S_S256x768 main_cst
  let main_v2 : IVec S256x768 1 := cmpf .olt main_v0 main_v1
  let main_c : IVec S_ 1 := constantI S_ 1 1#1
  let main_v3 : IVec S_ 1 := (fun x v => Host.reduce IntOp.andi x v reducesTo_S256x768_S_d0_1 h_S_) main_v2 main_c
  let main_v4 : FVec F S256x768 .f32 := Host.absf main_arg1
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S64x1024x768 .f32 := Host.absf main_arg2
  let main_cst_2 : FVec F S_ .f32 := constant S_ .f32 0x7F800000#32
  let main_v10 : FVec F S64x1024x768 .f32 := broadcastInDim S64x1024x768 ![] bcast_S_S64x1024x768 main_cst_2
  let main_v11 : IVec S64x1024x768 1 := cmpf .olt main_v9 main_v10
  let main_c_3 : IVec S_ 1 := constantI S_ 1 1#1
  let main_v12 : IVec S_ 1 := (fun x v => Host.reduce IntOp.andi x v reducesTo_S64x1024x768_S_d0_1_2 h_S_) main_v11 main_c_3
  let main_v13 : IVec S_ 1 := andi main_v8 main_v12
  main_v13
-- ==== Kernel.lean ====
abbrev S256x768 : Shape := ⟨2, ![256, 768]⟩
abbrev S64x1024x768 : Shape := ⟨3, ![64, 1024, 768]⟩
abbrev S65536x768 : Shape := ⟨2, ![65536, 768]⟩
abbrev S256x1 : Shape := ⟨2, ![256, 1]⟩
abbrev S256 : Shape := ⟨1, ![256]⟩
abbrev S768x256 : Shape := ⟨2, ![768, 256]⟩
abbrev S256x256 : Shape := ⟨2, ![256, 256]⟩
abbrev S2x256x1 : Shape := ⟨3, ![2, 256, 1]⟩
abbrev S2048x768 : Shape := ⟨2, ![2048, 768]⟩
abbrev S1x256x1 : Shape := ⟨3, ![1, 256, 1]⟩
abbrev S2048 : Shape := ⟨1, ![2048]⟩
abbrev S2048x1 : Shape := ⟨2, ![2048, 1]⟩
abbrev S768x2048 : Shape := ⟨2, ![768, 2048]⟩
abbrev S256x2048 : Shape := ⟨2, ![256, 2048]⟩
abbrev S_ : Shape := ⟨0, ![]⟩

abbrev nBuf : Space → Nat
  | .hbm => 38
  | .vmem => 15
  | .smem => 0
  | _ => 0

abbrev bufTy : (tb : Table) → Fin (tcTables nBuf tb) → BufTy
  | .hbm, ⟨0, _⟩ => ⟨S256x768, .f32⟩
  | .hbm, ⟨1, _⟩ => ⟨S256x768, .f32⟩
  | .hbm, ⟨2, _⟩ => ⟨S64x1024x768, .f32⟩
  | .hbm, ⟨3, _⟩ => ⟨S65536x768, .f32⟩
  | .hbm, ⟨4, _⟩ => ⟨S256x768, .bf16⟩
  | .hbm, ⟨5, _⟩ => ⟨S256x1, .f32⟩
  | .hbm, ⟨6, _⟩ => ⟨S256x1, .f32⟩
  | .hbm, ⟨7, _⟩ => ⟨S256x1, .f32⟩
  | .hbm, ⟨8, _⟩ => ⟨S2x256x1, .f32⟩
  | .hbm, ⟨9, _⟩ => ⟨S2x256x1, .f32⟩
  | .hbm, ⟨10, _⟩ => ⟨S1x256x1, .f32⟩
  | .hbm, ⟨11, _⟩ => ⟨S256x1, .f32⟩
  | .hbm, ⟨12, _⟩ => ⟨S1x256x1, .f32⟩
  | .hbm, ⟨13, _⟩ => ⟨S256x1, .f32⟩
  | .hbm, ⟨14, _⟩ => ⟨S1x256x1, .f32⟩
  | .hbm, ⟨15, _⟩ => ⟨S256x1, .f32⟩
  | .hbm, ⟨16, _⟩ => ⟨S1x256x1, .f32⟩
  | .hbm, ⟨17, _⟩ => ⟨S256x1, .f32⟩
  | .hbm, ⟨18, _⟩ => ⟨S256x1, .f32⟩
  | .hbm, ⟨19, _⟩ => ⟨S256x1, .f32⟩
  | .hbm, ⟨20, _⟩ => ⟨S256x1, .f32⟩
  | .hbm, ⟨21, _⟩ => ⟨S256x1, .f32⟩
  | .hbm, ⟨22, _⟩ => ⟨S256x1, .f32⟩
  | .hbm, ⟨23, _⟩ => ⟨S256x1, .f32⟩
  | .hbm, ⟨24, _⟩ => ⟨S256x1, .f32⟩
  | .hbm, ⟨25, _⟩ => ⟨S256x1, .f32⟩
  | .hbm, ⟨26, _⟩ => ⟨S256x1, .f32⟩
  | .hbm, ⟨27, _⟩ => ⟨S256x1, .f32⟩
  | .hbm, ⟨28, _⟩ => ⟨S256x1, .f32⟩
  | .hbm, ⟨29, _⟩ => ⟨S256x1, .f32⟩
  | .hbm, ⟨30, _⟩ => ⟨S256x1, .f32⟩
  | .hbm, ⟨31, _⟩ => ⟨S256x1, .f32⟩
  | .hbm, ⟨32, _⟩ => ⟨S256x1, .f32⟩
  | .hbm, ⟨33, _⟩ => ⟨S256x1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S256x768, .f32⟩
  | .local _ .vmem, ⟨1, _⟩ => ⟨S256x768, .f32⟩
  | .local _ .vmem, ⟨2, _⟩ => ⟨S256x768, .bf16⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x768, .bf16⟩
  | .local _ .vmem, ⟨7, _⟩ => ⟨S2048x768, .f32⟩
  | .local _ .vmem, ⟨8, _⟩ => ⟨S2048x768, .f32⟩
  | .local _ .vmem, ⟨9, _⟩ => ⟨S1x256x1, .f32⟩
  | .local _ .vmem, ⟨10, _⟩ => ⟨S1x256x1, .f32⟩
  | .local _ .vmem, ⟨11, _⟩ => ⟨S1x256x1, .f32⟩
  | .local _ .vmem, ⟨12, _⟩ => ⟨S1x256x1, .f32⟩
  | .local _ .vmem, ⟨13, _⟩ => ⟨S256x1, .f32⟩
  | .local _ .vmem, ⟨14, _⟩ => ⟨S256x1, .f32⟩
  | _, _ => ⟨S256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst : Ref sig .tc := ⟨.hbm, 34, rfl⟩
abbrev main_v27 : Ref sig .tc := ⟨.hbm, 35, rfl⟩
abbrev main_cst_0 : Ref sig .tc := ⟨.hbm, 36, rfl⟩
abbrev main_v28 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![2, 16], ![false, false]⟩

def k1_cond2 (i : grid1.Coords) : BitVec 1 :=
  let arg1 : BitVec 32 := BitVec.ofNat 32 (i 1).val
  let c15_i32 : BitVec 32 := 15#32
  let v40 : BitVec 1 := Scalar.cmpi .eq arg1 c15_i32
  let v41 : BitVec 32 := Scalar.extui v40
  let c0_i32_17 : BitVec 32 := 0#32
  let v42 : BitVec 1 := Scalar.cmpi .ne v41 c0_i32_17
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S256x768 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S2048x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S64x1024x768_S65536x768 : S64x1024x768.ShapeCasts S65536x768
  inb_S256x768_S256x768_0_0 : ∀ a, (![0, 0] : Fin 2 → Nat) a + S256x768.size a ≤ S256x768.size a
  h_S256x768 : 0 < S256x768.numel
  reduces_S256x768_S256 : S256x768.Reduces [1] S256
  shapeCasts_S256_S256x1 : S256.ShapeCasts S256x1
  broadcasts_S256x1_S256x768 : S256x1.Broadcasts S256x768
  bitsLt_bf16_f32 : FTy.bits .bf16 < FTy.bits .f32
  transposes_S256x768_p1_0_S768x256 : S256x768.Transposes [1, 0] S768x256
  iota_S256x256_d0_w32 : S256x256.Iotas .tc 32 [0]
  iota_S256x256_d1_w32 : S256x256.Iotas .tc 32 [1]
  reduces_S256x256_S256 : S256x256.Reduces [1] S256
  broadcasts_S256x1_S256x256 : S256x1.Broadcasts S256x256
  packedbf16_S256x768_S256x768_0_0 : (Rect.unit (s := S256x768) ![0, 0] S256x768.size inb_S256x768_S256x768_0_0).PackedRows (EltTy.packing .bf16)
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S256x768_S256x768 : S256x768.ShapeCasts S256x768
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  reduces_S2048x768_S2048 : S2048x768.Reduces [1] S2048
  shapeCasts_S2048_S2048x1 : S2048.ShapeCasts S2048x1
  broadcasts_S2048x1_S2048x768 : S2048x1.Broadcasts S2048x768
  transposes_S2048x768_p1_0_S768x2048 : S2048x768.Transposes [1, 0] S768x2048
  reduces_S256x2048_S256 : S256x2048.Reduces [1] S256
  broadcasts_S256x1_S256x2048 : S256x1.Broadcasts S256x2048
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  slices_S2x256x1_S1x256x1_0_0_0 : S2x256x1.Slices ![0, 0, 0] S1x256x1
  slices_S2x256x1_S1x256x1_1_0_0 : S2x256x1.Slices ![1, 0, 0] S1x256x1
  reducesTo_S256x1_S_d0_1 : S256x1.ReducesTo [0, 1] S_
  h_S_ : 0 < S_.numel
  dot_S256x768_S768x256_S256x256_1_0_0_1_n_n_wf : DotDims.WF S256x768 S768x256 S256x256 [1] [0] [0] [1] [] []
  dot_S256x768_S768x2048_S256x2048_1_0_0_1_n_n_wf : DotDims.WF S256x768 S768x2048 S256x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S256x768.size a
  hwx0_0 : ∀ i : grid0.Coords, EltTy.bits .f32 = 32 ∨ (Rect.block (s := S256x768) S256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .f32 = 32 ∨ (Rect.block (s := S256x768) S256x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x768.size a ≤ S256x768.size a
  hwx0_2 : ∀ i : grid0.Coords, EltTy.bits .bf16 = 32 ∨ (Rect.block (s := S256x768) S256x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x768.size a ≤ S256x768.size a
  hwx1_0 : ∀ i : grid1.Coords, EltTy.bits .bf16 = 32 ∨ (Rect.block (s := S256x768) S256x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x768.size a ≤ S65536x768.size a
  hwx1_1 : ∀ i : grid1.Coords, EltTy.bits .f32 = 32 ∨ (Rect.block (s := S65536x768) S2048x768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1.size a ≤ S2x256x1.size a
  hwx1_2 : ∀ i : grid1.Coords, EltTy.bits .f32 = 32 ∨ (Rect.block (s := S2x256x1) S1x256x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1.size a ≤ S2x256x1.size a
  hwx1_3 : ∀ i : grid1.Coords, EltTy.bits .f32 = 32 ∨ (Rect.block (s := S2x256x1) S1x256x1.size (cc1_transform_3 i) (hinb1_3 i)).WholeWords (EltTy.packing .f32)

variable [Facts₀]

def dot_S256x768_S768x256_S256x256_1_0_0_1_n_n : DotDims S256x768 S768x256 S256x256 where
  lhsContracting := [1]
  rhsContracting := [0]
  lhsNonContracting := [0]
  rhsNonContracting := [1]
  lhsBatch := []
  rhsBatch := []
  wf := dot_S256x768_S768x256_S256x256_1_0_0_1_n_n_wf
def dot_S256x768_S768x2048_S256x2048_1_0_0_1_n_n : DotDims S256x768 S768x2048 S256x2048 where
  lhsContracting := [1]
  rhsContracting := [0]
  lhsNonContracting := [0]
  rhsNonContracting := [1]
  lhsBatch := []
  rhsBatch := []
  wf := dot_S256x768_S768x2048_S256x2048_1_0_0_1_n_n_wf

abbrev win0_0 : Pipeline.Window sig grid0 :=
  Pipeline.Window.ofSpec (Memref.whole main_arg0) S256x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S256x768.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S256x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S256x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_3) S256x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1_0) S256x768.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S1x256x1.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S1x256x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

class Facts : Prop extends Facts₀ where

variable [Facts]
-- ==== ReferenceIdeal.lean ====
abbrev S256x768 : Shape := ⟨2, ![256, 768]⟩
abbrev S64x1024x768 : Shape := ⟨3, ![64, 1024, 768]⟩
abbrev S_ : Shape := ⟨0, ![]⟩
abbrev S256 : Shape := ⟨1, ![256]⟩
abbrev S256x1 : Shape := ⟨2, ![256, 1]⟩
abbrev S65536x768 : Shape := ⟨2, ![65536, 768]⟩
abbrev S65536 : Shape := ⟨1, ![65536]⟩
abbrev S65536x1 : Shape := ⟨2, ![65536, 1]⟩
abbrev S256x256 : Shape := ⟨2, ![256, 256]⟩
abbrev S256x65536 : Shape := ⟨2, ![256, 65536]⟩
abbrev S256x65792 : Shape := ⟨2, ![256, 65792]⟩
abbrev S256x2 : Shape := ⟨2, ![256, 2]⟩

abbrev nBuf : Space → Nat
  | .hbm => 80
  | .vmem => 0
  | .smem => 0
  | _ => 0

abbrev bufTy : (tb : Table) → Fin (tcTables nBuf tb) → BufTy
  | .hbm, ⟨0, _⟩ => ⟨S256x768, .f32⟩
  | .hbm, ⟨1, _⟩ => ⟨S256x768, .f32⟩
  | .hbm, ⟨2, _⟩ => ⟨S64x1024x768, .f32⟩
  | .hbm, ⟨3, _⟩ => ⟨S256x768, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S256x768, .f32⟩
  | .hbm, ⟨12, _⟩ => ⟨S256x768, .f32⟩
  | .hbm, ⟨13, _⟩ => ⟨S256x768, .f32⟩
  | .hbm, ⟨14, _⟩ => ⟨S_, .f32⟩
  | .hbm, ⟨15, _⟩ => ⟨S256, .f32⟩
  | .hbm, ⟨16, _⟩ => ⟨S256x1, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S256x768, .f32⟩
  | .hbm, ⟨22, _⟩ => ⟨S256x768, .f32⟩
  | .hbm, ⟨23, _⟩ => ⟨S65536x768, .f32⟩
  | .hbm, ⟨24, _⟩ => ⟨S65536x768, .f32⟩
  | .hbm, ⟨25, _⟩ => ⟨S_, .f32⟩
  | .hbm, ⟨26, _⟩ => ⟨S65536, .f32⟩
  | .hbm, ⟨27, _⟩ => ⟨S65536x1, .f32⟩
  | .hbm, ⟨28, _⟩ => ⟨S65536x1, .f32⟩
  | .hbm, ⟨29, _⟩ => ⟨S_, .f32⟩
  | .hbm, ⟨30, _⟩ => ⟨S65536x1, .f32⟩
  | .hbm, ⟨31, _⟩ => ⟨S65536x1, .f32⟩
  | .hbm, ⟨32, _⟩ => ⟨S65536x768, .f32⟩
  | .hbm, ⟨33, _⟩ => ⟨S65536x768, .f32⟩
  | .hbm, ⟨34, _⟩ => ⟨S256x256, .f32⟩
  | .hbm, ⟨35, _⟩ => ⟨S256x65536, .f32⟩
  | .hbm, ⟨36, _⟩ => ⟨S256x65792, .f32⟩
  | .hbm, ⟨37, _⟩ => ⟨S_, .f32⟩
  | .hbm, ⟨38, _⟩ => ⟨S256x65792, .f32⟩
  | .hbm, ⟨39, _⟩ => ⟨S256x65792, .f32⟩
  | .hbm, ⟨40, _⟩ => ⟨S256, .i32⟩
  | .hbm, ⟨41, _⟩ => ⟨S_, .f32⟩
  | .hbm, ⟨42, _⟩ => ⟨S256, .f32⟩
  | .hbm, ⟨43, _⟩ => ⟨S_, .f32⟩
  | .hbm, ⟨44, _⟩ => ⟨S256, .f32⟩
  | .hbm, ⟨45, _⟩ => ⟨S256, .f32⟩
  | .hbm, ⟨46, _⟩ => ⟨S256x1, .f32⟩
  | .hbm, ⟨47, _⟩ => ⟨S256x65792, .f32⟩
  | .hbm, ⟨48, _⟩ => ⟨S256x65792, .f32⟩
  | .hbm, ⟨49, _⟩ => ⟨S256x65792, .f32⟩
  | .hbm, ⟨50, _⟩ => ⟨S_, .f32⟩
  | .hbm, ⟨51, _⟩ => ⟨S256, .f32⟩
  | .hbm, ⟨52, _⟩ => ⟨S256x1, .f32⟩
  | .hbm, ⟨53, _⟩ => ⟨S256x1, .f32⟩
  | .hbm, ⟨54, _⟩ => ⟨S256x65792, .f32⟩
  | .hbm, ⟨55, _⟩ => ⟨S256x65792, .f32⟩
  | .hbm, ⟨56, _⟩ => ⟨S256, .i32⟩
  | .hbm, ⟨57, _⟩ => ⟨S_, .i32⟩
  | .hbm, ⟨58, _⟩ => ⟨S256, .i32⟩
  | .hbm, ⟨59, _⟩ => ⟨S256, .i1⟩
  | .hbm, ⟨60, _⟩ => ⟨S_, .i32⟩
  | .hbm, ⟨61, _⟩ => ⟨S256, .i32⟩
  | .hbm, ⟨62, _⟩ => ⟨S256, .i32⟩
  | .hbm, ⟨63, _⟩ => ⟨S256, .i32⟩
  | .hbm, ⟨64, _⟩ => ⟨S_, .i32⟩
  | .hbm, ⟨65, _⟩ => ⟨S256, .i32⟩
  | .hbm, ⟨66, _⟩ => ⟨S256, .i1⟩
  | .hbm, ⟨67, _⟩ => ⟨S_, .i32⟩
  | .hbm, ⟨68, _⟩ => ⟨S256, .i32⟩
  | .hbm, ⟨69, _⟩ => ⟨S256, .i32⟩
  | .hbm, ⟨70, _⟩ => ⟨S256, .i32⟩
  | .hbm, ⟨71, _⟩ => ⟨S256x1, .i32⟩
  | .hbm, ⟨72, _⟩ => ⟨S256x1, .i32⟩
  | .hbm, ⟨73, _⟩ => ⟨S256x2, .i32⟩
  | .hbm, ⟨74, _⟩ => ⟨S256, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_cst : Ref sig .tc := ⟨.hbm, 41, rfl⟩
abbrev main_call0_v0 : Ref sig .tc := ⟨.hbm, 42, rfl⟩
abbrev main_call0_cst_0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_cst_1 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_v31 : Ref sig .tc := ⟨.hbm, 55, rfl⟩
abbrev main_v32 : Ref sig .tc := ⟨.hbm, 56, rfl⟩
abbrev main_c : Ref sig .tc := ⟨.hbm, 57, rfl⟩
abbrev main_v33 : Ref sig .tc := ⟨.hbm, 58, rfl⟩
abbrev main_v34 : Ref sig .tc := ⟨.hbm, 59, rfl⟩
abbrev main_c_6 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_7 : Ref sig .tc := ⟨.hbm, 64, rfl⟩
abbrev main_v38 : Ref sig .tc := ⟨.hbm, 65, rfl⟩
abbrev main_v39 : Ref sig .tc := ⟨.hbm, 66, rfl⟩
abbrev main_c_8 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_cst_10 : Ref sig .tc := ⟨.hbm, 77, rfl⟩
abbrev main_v48 : Ref sig .tc := ⟨.hbm, 78, rfl⟩
abbrev main_v49 : Ref sig .tc := ⟨.hbm, 79, rfl⟩

abbrev nD : Nat := 1
abbrev τ : Topo := Topo.v7x

variable {F : FTy → Type} [FloatOps F]

class Facts₀ : Prop where
  reducesTo_S256x768_S256_d1 : S256x768.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x768_0_1 : S256x1.BroadcastsInDim S256x768 (![0, 1] : Fin 2 → Fin S256x768.rank)
  shapeCasts_S64x1024x768_S65536x768 : S64x1024x768.ShapeCasts S65536x768
  reducesTo_S65536x768_S65536_d1 : S65536x768.ReducesTo [1] S65536
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x768_0_1 : S65536x1.BroadcastsInDim S65536x768 (![0, 1] : Fin 2 → Fin S65536x768.rank)
  concatenates_S256x256_S256x65536_S256x65792_d1 : Shape.Concatenates [S256x256, S256x65536] S256x65792 1
  bcast_S_S256x65792 : S_.BroadcastsInDim S256x65792 (![] : Fin 0 → Fin S256x65792.rank)
  reducesTo_S256x65792_S256_d1 : S256x65792.ReducesTo [1] S256
  bcast_S_S256 : S_.BroadcastsInDim S256 (![] : Fin 0 → Fin S256.rank)
  bcast_S256x1_S256x65792_0_1 : S256x1.BroadcastsInDim S256x65792 (![0, 1] : Fin 2 → Fin S256x65792.rank)
  concatenates_S256x1_S256x1_S256x2_d1 : Shape.Concatenates [S256x1, S256x1] S256x2 1
  reducesTo_S256_S_d0 : S256.ReducesTo [0] S_
  dot_S256x768_S256x768_S256x256_1_1_0_0_n_n_wf : DotDims.WF S256x768 S256x768 S256x256 [1] [1] [0] [0] [] []
  dot_S256x768_S65536x768_S256x65536_1_1_0_0_n_n_wf : DotDims.WF S256x768 S65536x768 S256x65536 [1] [1] [0] [0] [] []
  gather_S256x65792_S256x2_S256_n_01_n_n_01_1_11_wf : GatherDims.WF S256x65792 S256x2 S256 [] [0, 1] [] [0, 1] [] 1 ![1, 1]

variable [Facts₀]

def dot_S256x768_S256x768_S256x256_1_1_0_0_n_n : DotDims S256x768 S256x768 S256x256 where
  lhsContracting := [1]
  rhsContracting := [1]
  lhsNonContracting := [0]
  rhsNonContracting := [0]
  lhsBatch := []
  rhsBatch := []
  wf := dot_S256x768_S256x768_S256x256_1_1_0_0_n_n_wf
def dot_S256x768_S65536x768_S256x65536_1_1_0_0_n_n : DotDims S256x768 S65536x768 S256x65536 where
  lhsContracting := [1]
  rhsContracting := [1]
  lhsNonContracting := [0]
  rhsNonContracting := [0]
  lhsBatch := []
  rhsBatch := []
  wf := dot_S256x768_S65536x768_S256x65536_1_1_0_0_n_n_wf
def gather_S256x65792_S256x2_S256_n_01_n_n_01_1_11 : GatherDims S256x65792 S256x2 S256 where
  offsetDims := []
  collapsedSliceDims := [0, 1]
  operandBatchingDims := []
  startIndicesBatchingDims := []
  startIndexMap := [0, 1]
  indexVectorDim := 1
  sliceSizes := ![1, 1]
  wf := gather_S256x65792_S256x2_S256_n_01_n_n_01_1_11_wf

class Facts : Prop extends Facts₀ where

variable [Facts]
-- ==== Proof.K.R0.lean ====
/-
  The first kernel region (the normalising kernel, one grid point), at any float instance: what its body leaves
  in each of its four output buffers as a function of the two input blocks, the body's triple, and the
  proof data the pipeline's launch theorems take. The region is entered at buffer contents V (a parameter).

  The body loads the two [256,768] blocks whole; it stores the normalised query block, the row maxima of the
  scaled similarity matrix, the row sums of exponentials shifted by those maxima, and the diagonal of the
  similarity matrix, each by one store covering its buffer.
-/
import proofs.«156728_j4595615006903_2_alg».proof.Proof.Gen.Kernel.Launch
import proofs.«156728_j4595615006903_2_alg».proof.Proof.Gen.Kernel.Skeleton
import proofs.«156728_j4595615006903_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole [256,768] rectangle and the whole [256,1] rectangle: the body's only accesses. -/
abbrev rA : Rect S256x768 := Rect.unit (s := S256x768) ![0, 0] S256x768.size inb_S256x768_S256x768_0_0
abbrev rB : Rect S256x1 := Rect.unit (s := S256x1) ![0, 0] S256x1.size inb_S256x1_S256x1_0_0

/-- The normalised query block. -/
def out0_2 (x0 : Vec F S256x768 .f32) : Vec F S256x768 .bf16 :=
  View.canon [⟨rA, k0_pay1 (View.ld x0 rA)⟩]
/-- The row maxima of the scaled similarities. -/
def out0_3 (x0 x1 : Vec F S256x768 .f32) : Vec F S256x1 .f32 :=
  View.canon [⟨rB, k0_pay4 (View.ld x0 rA) (View.ld x1 rA)⟩]
/-- The row sums of exponentials. -/
def out0_4 (x0 x1 : Vec F S256x768 .f32) : Vec F S256x1 .f32 :=
  View.canon [⟨rB, k0_pay5 (View.ld x0 rA) (View.ld x1 rA)⟩]
/-- The diagonal of the scaled similarities. -/
def out0_5 (x0 x1 : Vec F S256x768 .f32) : Vec F S256x1 .f32 :=
  View.canon [⟨rB, k0_pay3 (View.ld x0 rA) (View.ld x1 rA)⟩]

theorem coverA (p0 : Vec F S256x768 .bf16) (y : S256x768.Idx) :
    ∃ pc ∈ ([⟨rA, p0⟩] : List (View.Piece (Elt F) S256x768 .bf16)), y ∈ pc.1.set :=
  View.cover_of_tiled [⟨rA, p0⟩] S256x768.size (by rfl) y
theorem coverB (p0 : Vec F S256x1 .f32) (y : S256x1.Idx) :
    ∃ pc ∈ ([⟨rB, p0⟩] : List (View.Piece (Elt F) S256x1 .f32)), y ∈ pc.1.set :=
  View.cover_of_tiled [⟨rB, p0⟩] S256x1.size (by rfl) y

set_option maxHeartbeats 2000000 in
/-- The body on whole staging memrefs: the inputs come back as they were, each output at its function of the inputs. -/
theorem sound_kernel0 (c : Dev nD) (E : Set ℕ) (i : grid0.Coords)
    (arg1 : Memref sig .tc .vmem S256x768 .f32) (harg1 : arg1.IsWhole) (arg2 : Memref sig .tc .vmem S256x768 .f32) (harg2 : arg2.IsWhole)
    (arg3 : Memref sig .tc .vmem S256x768 .bf16) (harg3 : arg3.IsWhole) (arg4 : Memref sig .tc .vmem S256x1 .f32) (harg4 : arg4.IsWhole)
    (arg5 : Memref sig .tc .vmem S256x1 .f32) (harg5 : arg5.IsWhole) (arg6 : Memref sig .tc .vmem S256x1 .f32) (harg6 : arg6.IsWhole)
    (x0 x1 : Vec F S256x768 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x0 x1)
            ∗ owns (c : Thread nD τ) arg5 fullShare (out0_4 x0 x1) ∗ owns (c : Thread nD τ) arg6 fullShare (out0_5 x0 x1)) -∗ K ⟨⟩))
      ⊢ wp frame (wpE (defs₀ (F := F)) Variants.none c none) E (cc0__prep_kernel i arg1 harg1 arg2 harg2 arg3 harg3 arg4 harg4 arg5 harg5 arg6 harg6) K := by
  simp only [cc0__prep_kernel_eq_skeleton]; unfold cc0__prep_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    exact View.read_writes_eq_canon _ _ _ (coverA _)
  isplitl [H3]
  · iexists _; isplitr
    swap; · iexact H3
    ipureintro
    try dsimp only
    exact View.read_writes_eq_canon _ _ _ (coverB _)
  isplitl [H4]
  · iexists _; isplitr
    swap; · iexact H4
    ipureintro
    try dsimp only
    exact View.read_writes_eq_canon _ _ _ (coverB _)
  iexists _; isplitr
  swap; · iexact H5
  ipureintro
  try dsimp only
  exact View.read_writes_eq_canon _ _ _ (coverB _)

/-- The proof data of the first pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 0 t) (iblk0 V c 1 t)
    | ⟨4, _⟩ => out0_4 (iblk0 V c 0 t) (iblk0 V c 1 t)
    | ⟨5, _⟩ => out0_5 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.R1Runs.lean ====
/-
  The second kernel region (the streaming kernel, a 2 x 16 grid), at any float instance: the conditions of its
  two conditionals in closed form over the grid, where its two output windows are idle, and the body's triple
  in each of the three cases a grid point can be in — the first step of a half (the running pair is seeded,
  then updated), a middle step (updated), the last step of a half (updated, then copied to the outputs).
  The running maximum and running sum live in two scratch buffers carried from one grid point to the next.
-/
import proofs.«156728_j4595615006903_2_alg».proof.Proof.Gen.Kernel.Launch
import proofs.«156728_j4595615006903_2_alg».proof.Proof.Gen.Kernel.Skeleton
import proofs.«156728_j4595615006903_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's condition (the inner coordinate is 0), from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- The second conditional's condition (the inner coordinate is 15). -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

/-- One staging buffer of each output window, through which its contents are stated. -/
abbrev VO1_2 : View sig .tc .vmem S1x256x1 .f32 := (Memref.whole cc1_stg2_0 : Memref sig .tc .vmem S1x256x1 .f32).view
abbrev VO1_3 : View sig .tc .vmem S1x256x1 .f32 := (Memref.whole cc1_stg3_0 : Memref sig .tc .vmem S1x256x1 .f32).view
/-- Each window's current staging memref at point t, as the pipeline passes it. -/
abbrev ms1_0 (t : Fin cfg1.N) : Memref sig .tc .vmem S256x768 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x768 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x1 .f32 := win1_3.stage (cfg1.slots t 3)
abbrev hs1_3 (t : Fin cfg1.N) : (ms1_3 t).IsWhole := hstage1_3 ((cfg1.slots t 3).cast nbuf1_3)
/-- The two scratch operands: the running maximum and the running sum. -/
abbrev scM1_0 : Memref sig .tc .vmem S256x1 .f32 := Memref.whole cc1_scratch0
abbrev scM1_1 : Memref sig .tc .vmem S256x1 .f32 := Memref.whole cc1_scratch1
abbrev VS1_0 : View sig .tc .vmem S256x1 .f32 := scM1_0.view
abbrev VS1_1 : View sig .tc .vmem S256x1 .f32 := scM1_1.view

set_option maxHeartbeats 4000000 in
/-- FIRST STEP OF A HALF: both scratch buffers at anything; the outputs handed back untouched. -/
noncomputable def kernelRun1_A (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : cond1_0 i) (hc1 : ¬cond1_1 i)
    (x0 : Vec F S256x768 .bf16) (x1 : Vec F S2048x768 .f32) :
    Σ' (L2 : List (View.Piece (Elt F) S1x256x1 .f32)) (L3 : List (View.Piece (Elt F) S1x256x1 .f32)) (LS0 : List (View.Piece (Elt F) S256x1 .f32)), { LS1 : List (View.Piece (Elt F) S256x1 .f32) //
      ∀ (xi2 xi3 : Vec F S1x256x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stream_kernel i arg2 harg2 arg3 harg3 arg4 harg4 arg5 harg5 arg6 harg6 arg7 harg7) K } := by
  refine ⟨[], [], ?_, ?_, fun xi2 xi3 E K => ?run⟩
  case run =>
    simp only [cc1__stream_kernel_eq_skeleton]; unfold cc1__stream_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- A MIDDLE STEP: the scratch buffers at what the step before left; the outputs handed back untouched. -/
noncomputable def kernelRun1_B (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : ¬cond1_1 i)
    (x0 : Vec F S256x768 .bf16) (x1 : Vec F S2048x768 .f32) (xs0 xs1 : Vec F S256x1 .f32) :
    Σ' (L2 : List (View.Piece (Elt F) S1x256x1 .f32)) (L3 : List (View.Piece (Elt F) S1x256x1 .f32)) (LS0 : List (View.Piece (Elt F) S256x1 .f32)), { LS1 : List (View.Piece (Elt F) S256x1 .f32) //
      ∀ (xi2 xi3 : Vec F S1x256x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stream_kernel i arg2 harg2 arg3 harg3 arg4 harg4 arg5 harg5 arg6 harg6 arg7 harg7) K } := by
  refine ⟨[], [], ?_, ?_, fun xi2 xi3 E K => ?run⟩
  case run =>
    simp only [cc1__stream_kernel_eq_skeleton]; unfold cc1__stream_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- THE LAST STEP OF A HALF: the scratch buffers at what the step before left; the outputs at anything, stored whole. -/
noncomputable def kernelRun1_C (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : cond1_1 i)
    (x0 : Vec F S256x768 .bf16) (x1 : Vec F S2048x768 .f32) (xs0 xs1 : Vec F S256x1 .f32) :
    Σ' (L2 : List (View.Piece (Elt F) S1x256x1 .f32)) (L3 : List (View.Piece (Elt F) S1x256x1 .f32)) (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stream_kernel i arg2 harg2 arg3 harg3 arg4 harg4 arg5 harg5 arg6 harg6 arg7 harg7) K } := by
  refine ⟨?_, ?_, ?_, ?_, fun E K => ?run⟩
  case run =>
    simp only [cc1__stream_kernel_eq_skeleton]; unfold cc1__stream_kernel_skel
    simp only [k1_part1_eq_skeleton]; unfold k1_part1_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Fr

end
-- ==== Proof.K.R1Cases.lean ====
/-
  The second kernel region, continued: per case, that the stores into each scratch buffer (and, at the last
  step of a half, into each output buffer) cover it, and what they leave there.
-/
import proofs.«156728_j4595615006903_2_alg».proof.Proof.K.R1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem scover1_A_0 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : cond1_0 i) (hc1 : ¬cond1_1 i) (x0 : Vec F S256x768 .bf16) (x1 : Vec F S2048x768 .f32) (y : S256x1.Idx) : ∃ pc ∈ (kernelRun1_A c i arg2 harg2 arg3 harg3 arg4 harg4 arg5 harg5 arg6 harg6 arg7 harg7 hc0 hc1 x0 x1).2.2.1, y ∈ pc.1.set :=
  View.cover_of_wholeMem _ (by sl_whole_mem) y
theorem scover1_A_1 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : cond1_0 i) (hc1 : ¬cond1_1 i) (x0 : Vec F S256x768 .bf16) (x1 : Vec F S2048x768 .f32) (y : S256x1.Idx) : ∃ pc ∈ (kernelRun1_A c i arg2 harg2 arg3 harg3 arg4 harg4 arg5 harg5 arg6 harg6 arg7 harg7 hc0 hc1 x0 x1).2.2.2.1, y ∈ pc.1.set :=
  View.cover_of_wholeMem _ (by sl_whole_mem) y
/-- What the case leaves in the running-maximum scratch. -/
def sout1_A_0 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : cond1_0 i) (hc1 : ¬cond1_1 i) (x0 : Vec F S256x768 .bf16) (x1 : Vec F S2048x768 .f32) : Vec F S256x1 .f32 :=
  VS1_0.read (Elt F) (VS1_0.writes (Elt F) VS1_0.junk (kernelRun1_A c i arg2 harg2 arg3 harg3 arg4 harg4 arg5 harg5 arg6 harg6 arg7 harg7 hc0 hc1 x0 x1).2.2.1)
/-- What the case leaves in the running-sum scratch. -/
def sout1_A_1 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : cond1_0 i) (hc1 : ¬cond1_1 i) (x0 : Vec F S256x768 .bf16) (x1 : Vec F S2048x768 .f32) : Vec F S256x1 .f32 :=
  VS1_1.read (Elt F) (VS1_1.writes (Elt F) VS1_1.junk (kernelRun1_A c i arg2 harg2 arg3 harg3 arg4 harg4 arg5 harg5 arg6 harg6 arg7 harg7 hc0 hc1 x0 x1).2.2.2.1)
/-- What the case leaves in the two output buffers (nothing is stored there unless the case is the last step of a half). -/
def out1_A_2 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : cond1_0 i) (hc1 : ¬cond1_1 i) (x0 : Vec F S256x768 .bf16) (x1 : Vec F S2048x768 .f32) : Vec F S1x256x1 .f32 :=
  VO1_2.read (Elt F) (VO1_2.writes (Elt F) VO1_2.junk (kernelRun1_A c i arg2 harg2 arg3 harg3 arg4 harg4 arg5 harg5 arg6 harg6 arg7 harg7 hc0 hc1 x0 x1).1)
def out1_A_3 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : cond1_0 i) (hc1 : ¬cond1_1 i) (x0 : Vec F S256x768 .bf16) (x1 : Vec F S2048x768 .f32) : Vec F S1x256x1 .f32 :=
  VO1_3.read (Elt F) (VO1_3.writes (Elt F) VO1_3.junk (kernelRun1_A c i arg2 harg2 arg3 harg3 arg4 harg4 arg5 harg5 arg6 harg6 arg7 harg7 hc0 hc1 x0 x1).2.1)

theorem scover1_B_0 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : ¬cond1_1 i) (x0 : Vec F S256x768 .bf16) (x1 : Vec F S2048x768 .f32) (xs0 xs1 : Vec F S256x1 .f32) (y : S256x1.Idx) : ∃ pc ∈ (kernelRun1_B c i arg2 harg2 arg3 harg3 arg4 harg4 arg5 harg5 arg6 harg6 arg7 harg7 hc0 hc1 x0 x1 xs0 xs1).2.2.1, y ∈ pc.1.set :=
  View.cover_of_wholeMem _ (by sl_whole_mem) y
theorem scover1_B_1 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : ¬cond1_1 i) (x0 : Vec F S256x768 .bf16) (x1 : Vec F S2048x768 .f32) (xs0 xs1 : Vec F S256x1 .f32) (y : S256x1.Idx) : ∃ pc ∈ (kernelRun1_B c i arg2 harg2 arg3 harg3 arg4 harg4 arg5 harg5 arg6 harg6 arg7 harg7 hc0 hc1 x0 x1 xs0 xs1).2.2.2.1, y ∈ pc.1.set :=
  View.cover_of_wholeMem _ (by sl_whole_mem) y
/-- What the case leaves in the running-maximum scratch. -/
def sout1_B_0 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : ¬cond1_1 i) (x0 : Vec F S256x768 .bf16) (x1 : Vec F S2048x768 .f32) (xs0 xs1 : Vec F S256x1 .f32) : Vec F S256x1 .f32 :=
  VS1_0.read (Elt F) (VS1_0.writes (Elt F) VS1_0.junk (kernelRun1_B c i arg2 harg2 arg3 harg3 arg4 harg4 arg5 harg5 arg6 harg6 arg7 harg7 hc0 hc1 x0 x1 xs0 xs1).2.2.1)
/-- What the case leaves in the running-sum scratch. -/
def sout1_B_1 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : ¬cond1_1 i) (x0 : Vec F S256x768 .bf16) (x1 : Vec F S2048x768 .f32) (xs0 xs1 : Vec F S256x1 .f32) : Vec F S256x1 .f32 :=
  VS1_1.read (Elt F) (VS1_1.writes (Elt F) VS1_1.junk (kernelRun1_B c i arg2 harg2 arg3 harg3 arg4 harg4 arg5 harg5 arg6 harg6 arg7 harg7 hc0 hc1 x0 x1 xs0 xs1).2.2.2.1)
/-- What the case leaves in the two output buffers (nothing is stored there unless the case is the last step of a half). -/
def out1_B_2 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : ¬cond1_1 i) (x0 : Vec F S256x768 .bf16) (x1 : Vec F S2048x768 .f32) (xs0 xs1 : Vec F S256x1 .f32) : Vec F S1x256x1 .f32 :=
  VO1_2.read (Elt F) (VO1_2.writes (Elt F) VO1_2.junk (kernelRun1_B c i arg2 harg2 arg3 harg3 arg4 harg4 arg5 harg5 arg6 harg6 arg7 harg7 hc0 hc1 x0 x1 xs0 xs1).1)
def out1_B_3 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : ¬cond1_1 i) (x0 : Vec F S256x768 .bf16) (x1 : Vec F S2048x768 .f32) (xs0 xs1 : Vec F S256x1 .f32) : Vec F S1x256x1 .f32 :=
  VO1_3.read (Elt F) (VO1_3.writes (Elt F) VO1_3.junk (kernelRun1_B c i arg2 harg2 arg3 harg3 arg4 harg4 arg5 harg5 arg6 harg6 arg7 harg7 hc0 hc1 x0 x1 xs0 xs1).2.1)

theorem scover1_C_0 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : cond1_1 i) (x0 : Vec F S256x768 .bf16) (x1 : Vec F S2048x768 .f32) (xs0 xs1 : Vec F S256x1 .f32) (y : S256x1.Idx) : ∃ pc ∈ (kernelRun1_C c i arg2 harg2 arg3 harg3 arg4 harg4 arg5 harg5 arg6 harg6 arg7 harg7 hc0 hc1 x0 x1 xs0 xs1).2.2.1, y ∈ pc.1.set :=
  View.cover_of_wholeMem _ (by sl_whole_mem) y
theorem scover1_C_1 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : cond1_1 i) (x0 : Vec F S256x768 .bf16) (x1 : Vec F S2048x768 .f32) (xs0 xs1 : Vec F S256x1 .f32) (y : S256x1.Idx) : ∃ pc ∈ (kernelRun1_C c i arg2 harg2 arg3 harg3 arg4 harg4 arg5 harg5 arg6 harg6 arg7 harg7 hc0 hc1 x0 x1 xs0 xs1).2.2.2.1, y ∈ pc.1.set :=
  View.cover_of_wholeMem _ (by sl_whole_mem) y
/-- What the case leaves in the running-maximum scratch. -/
def sout1_C_0 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : cond1_1 i) (x0 : Vec F S256x768 .bf16) (x1 : Vec F S2048x768 .f32) (xs0 xs1 : Vec F S256x1 .f32) : Vec F S256x1 .f32 :=
  VS1_0.read (Elt F) (VS1_0.writes (Elt F) VS1_0.junk (kernelRun1_C c i arg2 harg2 arg3 harg3 arg4 harg4 arg5 harg5 arg6 harg6 arg7 harg7 hc0 hc1 x0 x1 xs0 xs1).2.2.1)
/-- What the case leaves in the running-sum scratch. -/
def sout1_C_1 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : cond1_1 i) (x0 : Vec F S256x768 .bf16) (x1 : Vec F S2048x768 .f32) (xs0 xs1 : Vec F S256x1 .f32) : Vec F S256x1 .f32 :=
  VS1_1.read (Elt F) (VS1_1.writes (Elt F) VS1_1.junk (kernelRun1_C c i arg2 harg2 arg3 harg3 arg4 harg4 arg5 harg5 arg6 harg6 arg7 harg7 hc0 hc1 x0 x1 xs0 xs1).2.2.2.1)
/-- What the case leaves in the two output buffers (nothing is stored there unless the case is the last step of a half). -/
def out1_C_2 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : cond1_1 i) (x0 : Vec F S256x768 .bf16) (x1 : Vec F S2048x768 .f32) (xs0 xs1 : Vec F S256x1 .f32) : Vec F S1x256x1 .f32 :=
  VO1_2.read (Elt F) (VO1_2.writes (Elt F) VO1_2.junk (kernelRun1_C c i arg2 harg2 arg3 harg3 arg4 harg4 arg5 harg5 arg6 harg6 arg7 harg7 hc0 hc1 x0 x1 xs0 xs1).1)
def out1_C_3 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : cond1_1 i) (x0 : Vec F S256x768 .bf16) (x1 : Vec F S2048x768 .f32) (xs0 xs1 : Vec F S256x1 .f32) : Vec F S1x256x1 .f32 :=
  VO1_3.read (Elt F) (VO1_3.writes (Elt F) VO1_3.junk (kernelRun1_C c i arg2 harg2 arg3 harg3 arg4 harg4 arg5 harg5 arg6 harg6 arg7 harg7 hc0 hc1 x0 x1 xs0 xs1).2.1)

theorem cover1_C_2 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : cond1_1 i) (x0 : Vec F S256x768 .bf16) (x1 : Vec F S2048x768 .f32) (xs0 xs1 : Vec F S256x1 .f32) (y : S1x256x1.Idx) :
    ∃ pc ∈ (kernelRun1_C c i arg2 harg2 arg3 harg3 arg4 harg4 arg5 harg5 arg6 harg6 arg7 harg7 hc0 hc1 x0 x1 xs0 xs1).1, y ∈ pc.1.set :=
  View.cover_of_wholeMem _ (by sl_whole_mem) y
theorem cover1_C_3 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : cond1_1 i) (x0 : Vec F S256x768 .bf16) (x1 : Vec F S2048x768 .f32) (xs0 xs1 : Vec F S256x1 .f32) (y : S1x256x1.Idx) :
    ∃ pc ∈ (kernelRun1_C c i arg2 harg2 arg3 harg3 arg4 harg4 arg5 harg5 arg6 harg6 arg7 harg7 hc0 hc1 x0 x1 xs0 xs1).2.1, y ∈ pc.1.set :=
  View.cover_of_wholeMem _ (by sl_whole_mem) y

end Cert.Kernel.Fr

end
-- ==== Proof.K.R1.lean ====
/-
  The second kernel region, concluded: what the two output buffers and the two scratch buffers hold after each
  grid point (by recursion on the point: the first step of a half seeds the running pair, every other step
  updates what the step before left), the region invariant that carries the scratch contents from one point to
  the next, the proof data, and the body obligation at every point.
-/
import proofs.«156728_j4595615006903_2_alg».proof.Proof.K.R1Cases
import Idealize.ShloMosaic.Lib.Pipeline.RegionsLoop
import Idealize.ShloMosaic.Lib.Pipeline.FrameSuffix

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The two output buffers, then the running-maximum and running-sum scratch buffers. -/
abbrev Outs1 : Type := Vec F S1x256x1 .f32 × Vec F S1x256x1 .f32 × Vec F S256x1 .f32 × Vec F S256x1 .f32

/-- The four buffers after the body at a point of this case. -/
def caseA (c : Dev nD) (t : Fin cfg1.N) (h0 : t.val % 16 = 0) (h1 : ¬t.val % 16 = 15) : Outs1 (F := F) :=
  (out1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t),
   out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t),
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t))

/-- The four buffers after the body at a point of this case. -/
def caseB (c : Dev nD) (t : Fin cfg1.N) (h0 : ¬t.val % 16 = 0) (h1 : ¬t.val % 16 = 15) (xs0 xs1 : Vec F S256x1 .f32) : Outs1 (F := F) :=
  (out1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) xs0 xs1,
   out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) xs0 xs1,
   sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) xs0 xs1,
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) xs0 xs1)

/-- The four buffers after the body at a point of this case. -/
def caseC (c : Dev nD) (t : Fin cfg1.N) (h0 : ¬t.val % 16 = 0) (h1 : t.val % 16 = 15) (xs0 xs1 : Vec F S256x1 .f32) : Outs1 (F := F) :=
  (out1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) xs0 xs1,
   out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) xs0 xs1,
   sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) xs0 xs1,
   sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) xs0 xs1)

/-- THE ACCUMULATION: the four buffers after the body at position n. -/
def outsAt1 (c : Dev nD) : (n : ℕ) → n < cfg1.N → Outs1 (F := F)
  | 0, hn => caseA V c ⟨0, hn⟩ (Nat.zero_mod _) (by show ¬(0 % 16 = 15); decide)
  | n + 1, hn =>
    if h0 : (n + 1) % 16 = 0 then
      if h1 : (n + 1) % 16 = 15 then False.elim (by omega)
      else caseA V c ⟨n + 1, hn⟩ h0 h1
    else
      if h1 : (n + 1) % 16 = 15 then
        caseC V c ⟨n + 1, hn⟩ h0 h1 (outsAt1 c n (Nat.lt_of_succ_lt hn)).2.2.1 (outsAt1 c n (Nat.lt_of_succ_lt hn)).2.2.2
      else
        caseB V c ⟨n + 1, hn⟩ h0 h1 (outsAt1 c n (Nat.lt_of_succ_lt hn)).2.2.1 (outsAt1 c n (Nat.lt_of_succ_lt hn)).2.2.2

theorem outsAt1_A (c : Dev nD) (t : Fin cfg1.N) (h0 : t.val % 16 = 0) (h1 : ¬t.val % 16 = 15) :
    outsAt1 V c t.val t.isLt = caseA V c t h0 h1 := by
  obtain ⟨n, hn⟩ := t
  cases n with
  | zero => rfl
  | succ n => exact (dif_pos h0).trans (dif_neg h1)

theorem outsAt1_B (c : Dev nD) (t : Fin cfg1.N) (h0 : ¬t.val % 16 = 0) (h1 : ¬t.val % 16 = 15) :
    outsAt1 V c t.val t.isLt = caseB V c t h0 h1 (outsAt1 V c (t.val - 1) (Nat.lt_of_le_of_lt (Nat.sub_le _ _) t.isLt)).2.2.1
      (outsAt1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 16 = 0) (h1 : t.val % 16 = 15) :
    outsAt1 V c t.val t.isLt = caseC V c t h0 h1 (outsAt1 V c (t.val - 1) (Nat.lt_of_le_of_lt (Nat.sub_le _ _) t.isLt)).2.2.1
      (outsAt1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-- The core's scoped buffers that no window of this region stages — the first region's six staging buffers at
    anything, the two scratch buffers as stated — beside the generator register at some state. -/
def rest1 (c : Dev nD) (S0 S1 : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ S0 ∗ S1) ∗ (∃ r, prngReg c r))

theorem PhiA1_eq (c : Dev nD) :
    (Pipeline.ΦA spec1 c : sProp 𝕄) = rest1 c (iprop(∃ d, owns (c : Thread nD τ) scM1_0 fullShare d)) (iprop(∃ d, owns (c : Thread nD τ) scM1_1 fullShare d)) := by
  unfold Pipeline.ΦA rest1; rw [scopedRest1_eq]; simp only [scM1_0, scM1_1, owns_whole]; try rfl

/-- The region invariant before position n: before the first point every scratch at anything; afterwards the two
    scratch buffers at what the point before left in them. -/
def PhiS (c : Dev nD) : (n : ℕ) → n ≤ cfg1.N → sProp 𝕄
  | 0, _ => Pipeline.ΦA spec1 c
  | n + 1, hn => rest1 c (owns (c : Thread nD τ) scM1_0 fullShare (outsAt1 V c n hn).2.2.1) (owns (c : Thread nD τ) scM1_1 fullShare (outsAt1 V c n hn).2.2.2)

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = rest1 c (owns (c : Thread nD τ) scM1_0 fullShare (outsAt1 V c n hn).2.2.1) (owns (c : Thread nD τ) scM1_1 fullShare (outsAt1 V c n hn).2.2.2) := rfl
theorem PhiS_pos (c : Dev nD) (n : ℕ) (h : n ≤ cfg1.N) (hz : n ≠ 0) :
    PhiS V c n h = rest1 c (owns (c : Thread nD τ) scM1_0 fullShare (outsAt1 V c (n - 1) (by omega)).2.2.1) (owns (c : Thread nD τ) scM1_1 fullShare (outsAt1 V c (n - 1) (by omega)).2.2.2) := by
  cases n with
  | zero => exact absurd rfl hz
  | succ n => rfl

/-- The proof data of the second pipeline on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the case is read off the point's position in its half; the invariant hands the body the
    scratch buffers at what the point before left and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  by_cases h0 : t.val % 16 = 0
  · have h1 : ¬t.val % 16 = 15 := by omega
    rw [Dat.leavesExact_idle (dat1 V c) 2 t (idleAt1_2 t (fun h => h1 ((hcond1_1 t).mp h))) (noFlush1_2 t (fun h => h1 ((hcond1_1 t).mp h)))]
    rw [Dat.leavesExact_idle (dat1 V c) 3 t (idleAt1_3 t (fun h => h1 ((hcond1_1 t).mp h))) (noFlush1_3 t (fun h => h1 ((hcond1_1 t).mp h)))]
    rw [outsAt1_A V c t h0 h1]
    unfold caseA sout1_A_0 sout1_A_1; (try dsimp only)
    unfold rest1
    by_cases hz : t.val = 0
    · rw [PhiS_castSucc V c t, PhiS_zero V c _ _ hz, PhiA1_eq]; unfold rest1
      iintro ⟨⟨⟨A0, A1, A2, A3, A4, A5, HS0, HS1⟩, Hg⟩, Ho, ⟨%d0, H0⟩, ⟨%d1, H1⟩, ⟨%d2, H2⟩, ⟨%d3, H3⟩⟩
      iapply ((kernelRun1_A c (grid1.coords t) _ _ _ _ _ _ _ _ _ _ _ _ ((hcond1_0 t).mpr h0) (fun h => h1 ((hcond1_1 t).mp h)) (iblk1 V c 0 t) (iblk1 V c 1 t)).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg A0 A1 A2 A3 A4 A5]
      · isplitr [Hg]
        · isplitl [A0]; · iexact A0
          isplitl [A1]; · iexact A1
          isplitl [A2]; · iexact A2
          isplitl [A3]; · iexact A3
          isplitl [A4]; · iexact A4
          isplitl [A5]; · iexact A5
          isplitl [HS0]
          · unfold owns; iexists _; isplitr
            swap; · iexact HS0
            ipureintro; exact View.read_writes_of_cover _ _ _ _ _ (scover1_A_0 c _ _ _ _ _ _ _ _ _ _ _ _ _ _ _ _ _ )
          unfold owns; iexists _; isplitr
          swap; · iexact HS1
          ipureintro; exact View.read_writes_of_cover _ _ _ _ _ (scover1_A_1 c _ _ _ _ _ _ _ _ _ _ _ _ _ _ _ _ _ )
        iexact Hg
      isplitl [Ho]; · iexact Ho
      isplitl [H0]; · iexact H0
      isplitl [H1]; · iexact H1
      isplitl [H2]; · iexists _; iexact H2
      iexists _; iexact H3
    · rw [PhiS_castSucc V c t, PhiS_pos V c _ _ hz]; unfold rest1
      iintro ⟨⟨⟨A0, A1, A2, A3, A4, A5, HS0, HS1⟩, Hg⟩, Ho, ⟨%d0, H0⟩, ⟨%d1, H1⟩, ⟨%d2, H2⟩, ⟨%d3, H3⟩⟩
      iapply ((kernelRun1_A c (grid1.coords t) _ _ _ _ _ _ _ _ _ _ _ _ ((hcond1_0 t).mpr h0) (fun h => h1 ((hcond1_1 t).mp h)) (iblk1 V c 0 t) (iblk1 V c 1 t)).2.2.2.2 _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hg A0 A1 A2 A3 A4 A5]
      · isplitr [Hg]
        · isplitl [A0]; · iexact A0
          isplitl [A1]; · iexact A1
          isplitl [A2]; · iexact A2
          isplitl [A3]; · iexact A3
          isplitl [A4]; · iexact A4
          isplitl [A5]; · iexact A5
          isplitl [HS0]
          · unfold owns; iexists _; isplitr
            swap; · iexact HS0
            ipureintro; exact View.read_writes_of_cover _ _ _ _ _ (scover1_A_0 c _ _ _ _ _ _ _ _ _ _ _ _ _ _ _ _ _ )
          unfold owns; iexists _; isplitr
          swap; · iexact HS1
          ipureintro; exact View.read_writes_of_cover _ _ _ _ _ (scover1_A_1 c _ _ _ _ _ _ _ _ _ _ _ _ _ _ _ _ _ )
        iexact Hg
      isplitl [Ho]; · iexact Ho
      isplitl [H0]; · iexact H0
      isplitl [H1]; · iexact H1
      isplitl [H2]; · iexists _; iexact H2
      iexists _; iexact H3
  · have hz : t.val ≠ 0 := fun e => h0 (by rw [e])
    by_cases h1 : t.val % 16 = 15
    · rw [show (dat1 V c).leavesExact 2 t = owns (c : Thread nD τ) (ms1_2 t) fullShare ((dat1 V c).after 2 t) from by
          unfold Dat.leavesExact; rw [liveAt1_2 t ((hcond1_1 t).mpr h1)], after1_2]
      rw [show (dat1 V c).leavesExact 3 t = owns (c : Thread nD τ) (ms1_3 t) fullShare ((dat1 V c).after 3 t) from by
          unfold Dat.leavesExact; rw [liveAt1_3 t ((hcond1_1 t).mpr h1)], after1_3]
      rw [outsAt1_C V c t h0 h1]
      unfold caseC out1_C_2 out1_C_3 sout1_C_0 sout1_C_1; (try dsimp only)
      unfold rest1
      rw [PhiS_castSucc V c t, PhiS_pos V c _ _ hz]; unfold rest1
      iintro ⟨⟨⟨A0, A1, A2, A3, A4, A5, HS0, HS1⟩, Hg⟩, Ho, ⟨%d0, H0⟩, ⟨%d1, H1⟩, ⟨%d2, H2⟩, ⟨%d3, H3⟩⟩
      iapply ((kernelRun1_C c (grid1.coords t) _ _ _ _ _ _ _ _ _ _ _ _ (fun h => h0 ((hcond1_0 t).mp h)) ((hcond1_1 t).mpr h1) (iblk1 V c 0 t) (iblk1 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hg A0 A1 A2 A3 A4 A5]
      · isplitr [Hg]
        · isplitl [A0]; · iexact A0
          isplitl [A1]; · iexact A1
          isplitl [A2]; · iexact A2
          isplitl [A3]; · iexact A3
          isplitl [A4]; · iexact A4
          isplitl [A5]; · iexact A5
          isplitl [HS0]
          · unfold owns; iexists _; isplitr
            swap; · iexact HS0
            ipureintro; exact View.read_writes_of_cover _ _ _ _ _ (scover1_C_0 c _ _ _ _ _ _ _ _ _ _ _ _ _ _ _ _ _ _ _ )
          unfold owns; iexists _; isplitr
          swap; · iexact HS1
          ipureintro; exact View.read_writes_of_cover _ _ _ _ _ (scover1_C_1 c _ _ _ _ _ _ _ _ _ _ _ _ _ _ _ _ _ _ _ )
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 c _ _ _ _ _ _ _ _ _ _ _ _ _ _ _ _ _ _ _ )
      unfold owns; iexists _; isplitr
      swap; · iexact H3
      ipureintro; exact View.read_writes_of_cover _ _ _ _ _ (cover1_C_3 c _ _ _ _ _ _ _ _ _ _ _ _ _ _ _ _ _ _ _ )
    · rw [Dat.leavesExact_idle (dat1 V c) 2 t (idleAt1_2 t (fun h => h1 ((hcond1_1 t).mp h))) (noFlush1_2 t (fun h => h1 ((hcond1_1 t).mp h)))]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold caseB sout1_B_0 sout1_B_1; (try dsimp only)
      unfold rest1
      rw [PhiS_castSucc V c t, PhiS_pos V c _ _ hz]; unfold rest1
      iintro ⟨⟨⟨A0, A1, A2, A3, A4, A5, HS0, HS1⟩, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg A0 A1 A2 A3 A4 A5]
      · isplitr [Hg]
        · isplitl [A0]; · iexact A0
          isplitl [A1]; · iexact A1
          isplitl [A2]; · iexact A2
          isplitl [A3]; · iexact A3
          isplitl [A4]; · iexact A4
          isplitl [A5]; · iexact A5
          isplitl [HS0]
          · unfold owns; iexists _; isplitr
            swap; · iexact HS0
            ipureintro; exact View.read_writes_of_cover _ _ _ _ _ (scover1_B_0 c _ _ _ _ _ _ _ _ _ _ _ _ _ _ _ _ _ _ _ )
          unfold owns; iexists _; isplitr
          swap; · iexact HS1
          ipureintro; exact View.read_writes_of_cover _ _ _ _ _ (scover1_B_1 c _ _ _ _ _ _ _ _ _ _ _ _ _ _ _ _ _ _ _ )
        iexact Hg
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  unfold rest1
  iintro ⟨⟨A0, A1, A2, A3, A4, A5, HS0, HS1⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [HS0]; · iexists _; iexact HS0
    iexists _; iexact HS1
  iexact Hg

end Cert.Kernel.Fr

end
-- ==== Proof.K.Run.lean ====
/-
  The whole program's run, at any float instance: the buffer contents at each boundary between the items of the
  main function (a reshape of the queue; the normalising kernel; the streaming kernel; the merge of the three
  (max, sum) pairs and the mean), the two kernel regions as segments of the run, and the run itself: every
  weakly fair execution terminates and every final memory holds each unscoped buffer at the last boundary's
  contents. The frame claim (the arguments end unchanged) and the result's value are read off it.
-/
import proofs.«156728_j4595615006903_2_alg».proof.Proof.K.R0
import proofs.«156728_j4595615006903_2_alg».proof.Proof.K.R1
import proofs.«156728_j4595615006903_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the reshape (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit (it is entered where the first was left). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the merge and the mean: the end. -/
abbrev W4 : Dev nD → Valuation τ sig (Elt F) := fun c => StableHlo.after hostOps2 (W3 m ρ c)

/-- A buffer no host operation of the last stretch writes is as the second region left it; likewise the reshape. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of m ρ c main_arg1 (by decide)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last contents, the generator register. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- The first region over the thread state. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: the invariant with the carried scratch opens from and closes to the class's. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    refine (show (pdats m ρ 1 c).Φ (Fin.last _) ⊢ Pipeline.ΦA spec1 c from hout1 (V2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The main function's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of the main function terminates, nothing
    faulting, and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      (show iprop(StableHlo.held (c : Thread nD τ) (Pipeline.ucRefs τ sig) (W4 m ρ c) ∗ R c)
          ⊢ iprop(Tₙ m ρ c ∗ ∃ W, owes (c : Thread nD τ) (0 : CellTallies nD τ sig Unit) W) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.Kernel.Fr

end
-- ==== Proof.KI.R0.lean ====
/-
  The first kernel region (the normalising kernel, one grid point), at any float instance: what its body leaves
  in each of its four output buffers as a function of the two input blocks, the body's triple, and the
  proof data the pipeline's launch theorems take. The region is entered at buffer contents V (a parameter).

  The body loads the two [256,768] blocks whole; it stores the normalised query block, the row maxima of the
  scaled similarity matrix, the row sums of exponentials shifted by those maxima, and the diagonal of the
  similarity matrix, each by one store covering its buffer.
-/
import proofs.«156728_j4595615006903_2_alg».proof.Proof.Gen.KernelIdeal.Launch
import proofs.«156728_j4595615006903_2_alg».proof.Proof.Gen.KernelIdeal.Skeleton
import proofs.«156728_j4595615006903_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole [256,768] rectangle and the whole [256,1] rectangle: the body's only accesses. -/
abbrev rA : Rect S256x768 := Rect.unit (s := S256x768) ![0, 0] S256x768.size inb_S256x768_S256x768_0_0
abbrev rB : Rect S256x1 := Rect.unit (s := S256x1) ![0, 0] S256x1.size inb_S256x1_S256x1_0_0

/-- The normalised query block. -/
def out0_2 (x0 : Vec F S256x768 .f32) : Vec F S256x768 .bf16 :=
  View.canon [⟨rA, k0_pay1 (View.ld x0 rA)⟩]
/-- The row maxima of the scaled similarities. -/
def out0_3 (x0 x1 : Vec F S256x768 .f32) : Vec F S256x1 .f32 :=
  View.canon [⟨rB, k0_pay4 (View.ld x0 rA) (View.ld x1 rA)⟩]
/-- The row sums of exponentials. -/
def out0_4 (x0 x1 : Vec F S256x768 .f32) : Vec F S256x1 .f32 :=
  View.canon [⟨rB, k0_pay5 (View.ld x0 rA) (View.ld x1 rA)⟩]
/-- The diagonal of the scaled similarities. -/
def out0_5 (x0 x1 : Vec F S256x768 .f32) : Vec F S256x1 .f32 :=
  View.canon [⟨rB, k0_pay3 (View.ld x0 rA) (View.ld x1 rA)⟩]

theorem coverA (p0 : Vec F S256x768 .bf16) (y : S256x768.Idx) :
    ∃ pc ∈ ([⟨rA, p0⟩] : List (View.Piece (Elt F) S256x768 .bf16)), y ∈ pc.1.set :=
  View.cover_of_tiled [⟨rA, p0⟩] S256x768.size (by rfl) y
theorem coverB (p0 : Vec F S256x1 .f32) (y : S256x1.Idx) :
    ∃ pc ∈ ([⟨rB, p0⟩] : List (View.Piece (Elt F) S256x1 .f32)), y ∈ pc.1.set :=
  View.cover_of_tiled [⟨rB, p0⟩] S256x1.size (by rfl) y

set_option maxHeartbeats 2000000 in
/-- The body on whole staging memrefs: the inputs come back as they were, each output at its function of the inputs. -/
theorem sound_kernel0 (c : Dev nD) (E : Set ℕ) (i : grid0.Coords)
    (arg1 : Memref sig .tc .vmem S256x768 .f32) (harg1 : arg1.IsWhole) (arg2 : Memref sig .tc .vmem S256x768 .f32) (harg2 : arg2.IsWhole)
    (arg3 : Memref sig .tc .vmem S256x768 .bf16) (harg3 : arg3.IsWhole) (arg4 : Memref sig .tc .vmem S256x1 .f32) (harg4 : arg4.IsWhole)
    (arg5 : Memref sig .tc .vmem S256x1 .f32) (harg5 : arg5.IsWhole) (arg6 : Memref sig .tc .vmem S256x1 .f32) (harg6 : arg6.IsWhole)
    (x0 x1 : Vec F S256x768 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x0 x1)
            ∗ owns (c : Thread nD τ) arg5 fullShare (out0_4 x0 x1) ∗ owns (c : Thread nD τ) arg6 fullShare (out0_5 x0 x1)) -∗ K ⟨⟩))
      ⊢ wp frame (wpE (defs₀ (F := F)) Variants.none c none) E (cc0__prep_kernel i arg1 harg1 arg2 harg2 arg3 harg3 arg4 harg4 arg5 harg5 arg6 harg6) K := by
  simp only [cc0__prep_kernel_eq_skeleton]; unfold cc0__prep_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    exact View.read_writes_eq_canon _ _ _ (coverA _)
  isplitl [H3]
  · iexists _; isplitr
    swap; · iexact H3
    ipureintro
    try dsimp only
    exact View.read_writes_eq_canon _ _ _ (coverB _)
  isplitl [H4]
  · iexists _; isplitr
    swap; · iexact H4
    ipureintro
    try dsimp only
    exact View.read_writes_eq_canon _ _ _ (coverB _)
  iexists _; isplitr
  swap; · iexact H5
  ipureintro
  try dsimp only
  exact View.read_writes_eq_canon _ _ _ (coverB _)

/-- The proof data of the first pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 0 t) (iblk0 V c 1 t)
    | ⟨4, _⟩ => out0_4 (iblk0 V c 0 t) (iblk0 V c 1 t)
    | ⟨5, _⟩ => out0_5 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.R1Runs.lean ====
/-
  The second kernel region (the streaming kernel, a 2 x 16 grid), at any float instance: the conditions of its
  two conditionals in closed form over the grid, where its two output windows are idle, and the body's triple
  in each of the three cases a grid point can be in — the first step of a half (the running pair is seeded,
  then updated), a middle step (updated), the last step of a half (updated, then copied to the outputs).
  The running maximum and running sum live in two scratch buffers carried from one grid point to the next.
-/
import proofs.«156728_j4595615006903_2_alg».proof.Proof.Gen.KernelIdeal.Launch
import proofs.«156728_j4595615006903_2_alg».proof.Proof.Gen.KernelIdeal.Skeleton
import proofs.«156728_j4595615006903_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first conditional's condition (the inner coordinate is 0), from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- The second conditional's condition (the inner coordinate is 15). -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

/-- One staging buffer of each output window, through which its contents are stated. -/
abbrev VO1_2 : View sig .tc .vmem S1x256x1 .f32 := (Memref.whole cc1_stg2_0 : Memref sig .tc .vmem S1x256x1 .f32).view
abbrev VO1_3 : View sig .tc .vmem S1x256x1 .f32 := (Memref.whole cc1_stg3_0 : Memref sig .tc .vmem S1x256x1 .f32).view
/-- Each window's current staging memref at point t, as the pipeline passes it. -/
abbrev ms1_0 (t : Fin cfg1.N) : Memref sig .tc .vmem S256x768 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x768 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x1 .f32 := win1_3.stage (cfg1.slots t 3)
abbrev hs1_3 (t : Fin cfg1.N) : (ms1_3 t).IsWhole := hstage1_3 ((cfg1.slots t 3).cast nbuf1_3)
/-- The two scratch operands: the running maximum and the running sum. -/
abbrev scM1_0 : Memref sig .tc .vmem S256x1 .f32 := Memref.whole cc1_scratch0
abbrev scM1_1 : Memref sig .tc .vmem S256x1 .f32 := Memref.whole cc1_scratch1
abbrev VS1_0 : View sig .tc .vmem S256x1 .f32 := scM1_0.view
abbrev VS1_1 : View sig .tc .vmem S256x1 .f32 := scM1_1.view

set_option maxHeartbeats 4000000 in
/-- FIRST STEP OF A HALF: both scratch buffers at anything; the outputs handed back untouched. -/
noncomputable def kernelRun1_A (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : cond1_0 i) (hc1 : ¬cond1_1 i)
    (x0 : Vec F S256x768 .bf16) (x1 : Vec F S2048x768 .f32) :
    Σ' (L2 : List (View.Piece (Elt F) S1x256x1 .f32)) (L3 : List (View.Piece (Elt F) S1x256x1 .f32)) (LS0 : List (View.Piece (Elt F) S256x1 .f32)), { LS1 : List (View.Piece (Elt F) S256x1 .f32) //
      ∀ (xi2 xi3 : Vec F S1x256x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stream_kernel i arg2 harg2 arg3 harg3 arg4 harg4 arg5 harg5 arg6 harg6 arg7 harg7) K } := by
  refine ⟨[], [], ?_, ?_, fun xi2 xi3 E K => ?run⟩
  case run =>
    simp only [cc1__stream_kernel_eq_skeleton]; unfold cc1__stream_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- A MIDDLE STEP: the scratch buffers at what the step before left; the outputs handed back untouched. -/
noncomputable def kernelRun1_B (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : ¬cond1_1 i)
    (x0 : Vec F S256x768 .bf16) (x1 : Vec F S2048x768 .f32) (xs0 xs1 : Vec F S256x1 .f32) :
    Σ' (L2 : List (View.Piece (Elt F) S1x256x1 .f32)) (L3 : List (View.Piece (Elt F) S1x256x1 .f32)) (LS0 : List (View.Piece (Elt F) S256x1 .f32)), { LS1 : List (View.Piece (Elt F) S256x1 .f32) //
      ∀ (xi2 xi3 : Vec F S1x256x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stream_kernel i arg2 harg2 arg3 harg3 arg4 harg4 arg5 harg5 arg6 harg6 arg7 harg7) K } := by
  refine ⟨[], [], ?_, ?_, fun xi2 xi3 E K => ?run⟩
  case run =>
    simp only [cc1__stream_kernel_eq_skeleton]; unfold cc1__stream_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- THE LAST STEP OF A HALF: the scratch buffers at what the step before left; the outputs at anything, stored whole. -/
noncomputable def kernelRun1_C (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : cond1_1 i)
    (x0 : Vec F S256x768 .bf16) (x1 : Vec F S2048x768 .f32) (xs0 xs1 : Vec F S256x1 .f32) :
    Σ' (L2 : List (View.Piece (Elt F) S1x256x1 .f32)) (L3 : List (View.Piece (Elt F) S1x256x1 .f32)) (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__stream_kernel i arg2 harg2 arg3 harg3 arg4 harg4 arg5 harg5 arg6 harg6 arg7 harg7) K } := by
  refine ⟨?_, ?_, ?_, ?_, fun E K => ?run⟩
  case run =>
    simp only [cc1__stream_kernel_eq_skeleton]; unfold cc1__stream_kernel_skel
    simp only [k1_part1_eq_skeleton]; unfold k1_part1_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Fr

end
-- ==== Proof.KI.R1Cases.lean ====
/-
  The second kernel region, continued: per case, that the stores into each scratch buffer (and, at the last
  step of a half, into each output buffer) cover it, and what they leave there.
-/
import proofs.«156728_j4595615006903_2_alg».proof.Proof.KI.R1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem scover1_A_0 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : cond1_0 i) (hc1 : ¬cond1_1 i) (x0 : Vec F S256x768 .bf16) (x1 : Vec F S2048x768 .f32) (y : S256x1.Idx) : ∃ pc ∈ (kernelRun1_A c i arg2 harg2 arg3 harg3 arg4 harg4 arg5 harg5 arg6 harg6 arg7 harg7 hc0 hc1 x0 x1).2.2.1, y ∈ pc.1.set :=
  View.cover_of_wholeMem _ (by sl_whole_mem) y
theorem scover1_A_1 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : cond1_0 i) (hc1 : ¬cond1_1 i) (x0 : Vec F S256x768 .bf16) (x1 : Vec F S2048x768 .f32) (y : S256x1.Idx) : ∃ pc ∈ (kernelRun1_A c i arg2 harg2 arg3 harg3 arg4 harg4 arg5 harg5 arg6 harg6 arg7 harg7 hc0 hc1 x0 x1).2.2.2.1, y ∈ pc.1.set :=
  View.cover_of_wholeMem _ (by sl_whole_mem) y
/-- What the case leaves in the running-maximum scratch. -/
def sout1_A_0 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : cond1_0 i) (hc1 : ¬cond1_1 i) (x0 : Vec F S256x768 .bf16) (x1 : Vec F S2048x768 .f32) : Vec F S256x1 .f32 :=
  VS1_0.read (Elt F) (VS1_0.writes (Elt F) VS1_0.junk (kernelRun1_A c i arg2 harg2 arg3 harg3 arg4 harg4 arg5 harg5 arg6 harg6 arg7 harg7 hc0 hc1 x0 x1).2.2.1)
/-- What the case leaves in the running-sum scratch. -/
def sout1_A_1 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : cond1_0 i) (hc1 : ¬cond1_1 i) (x0 : Vec F S256x768 .bf16) (x1 : Vec F S2048x768 .f32) : Vec F S256x1 .f32 :=
  VS1_1.read (Elt F) (VS1_1.writes (Elt F) VS1_1.junk (kernelRun1_A c i arg2 harg2 arg3 harg3 arg4 harg4 arg5 harg5 arg6 harg6 arg7 harg7 hc0 hc1 x0 x1).2.2.2.1)
/-- What the case leaves in the two output buffers (nothing is stored there unless the case is the last step of a half). -/
def out1_A_2 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : cond1_0 i) (hc1 : ¬cond1_1 i) (x0 : Vec F S256x768 .bf16) (x1 : Vec F S2048x768 .f32) : Vec F S1x256x1 .f32 :=
  VO1_2.read (Elt F) (VO1_2.writes (Elt F) VO1_2.junk (kernelRun1_A c i arg2 harg2 arg3 harg3 arg4 harg4 arg5 harg5 arg6 harg6 arg7 harg7 hc0 hc1 x0 x1).1)
def out1_A_3 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : cond1_0 i) (hc1 : ¬cond1_1 i) (x0 : Vec F S256x768 .bf16) (x1 : Vec F S2048x768 .f32) : Vec F S1x256x1 .f32 :=
  VO1_3.read (Elt F) (VO1_3.writes (Elt F) VO1_3.junk (kernelRun1_A c i arg2 harg2 arg3 harg3 arg4 harg4 arg5 harg5 arg6 harg6 arg7 harg7 hc0 hc1 x0 x1).2.1)

theorem scover1_B_0 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : ¬cond1_1 i) (x0 : Vec F S256x768 .bf16) (x1 : Vec F S2048x768 .f32) (xs0 xs1 : Vec F S256x1 .f32) (y : S256x1.Idx) : ∃ pc ∈ (kernelRun1_B c i arg2 harg2 arg3 harg3 arg4 harg4 arg5 harg5 arg6 harg6 arg7 harg7 hc0 hc1 x0 x1 xs0 xs1).2.2.1, y ∈ pc.1.set :=
  View.cover_of_wholeMem _ (by sl_whole_mem) y
theorem scover1_B_1 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : ¬cond1_1 i) (x0 : Vec F S256x768 .bf16) (x1 : Vec F S2048x768 .f32) (xs0 xs1 : Vec F S256x1 .f32) (y : S256x1.Idx) : ∃ pc ∈ (kernelRun1_B c i arg2 harg2 arg3 harg3 arg4 harg4 arg5 harg5 arg6 harg6 arg7 harg7 hc0 hc1 x0 x1 xs0 xs1).2.2.2.1, y ∈ pc.1.set :=
  View.cover_of_wholeMem _ (by sl_whole_mem) y
/-- What the case leaves in the running-maximum scratch. -/
def sout1_B_0 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : ¬cond1_1 i) (x0 : Vec F S256x768 .bf16) (x1 : Vec F S2048x768 .f32) (xs0 xs1 : Vec F S256x1 .f32) : Vec F S256x1 .f32 :=
  VS1_0.read (Elt F) (VS1_0.writes (Elt F) VS1_0.junk (kernelRun1_B c i arg2 harg2 arg3 harg3 arg4 harg4 arg5 harg5 arg6 harg6 arg7 harg7 hc0 hc1 x0 x1 xs0 xs1).2.2.1)
/-- What the case leaves in the running-sum scratch. -/
def sout1_B_1 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : ¬cond1_1 i) (x0 : Vec F S256x768 .bf16) (x1 : Vec F S2048x768 .f32) (xs0 xs1 : Vec F S256x1 .f32) : Vec F S256x1 .f32 :=
  VS1_1.read (Elt F) (VS1_1.writes (Elt F) VS1_1.junk (kernelRun1_B c i arg2 harg2 arg3 harg3 arg4 harg4 arg5 harg5 arg6 harg6 arg7 harg7 hc0 hc1 x0 x1 xs0 xs1).2.2.2.1)
/-- What the case leaves in the two output buffers (nothing is stored there unless the case is the last step of a half). -/
def out1_B_2 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : ¬cond1_1 i) (x0 : Vec F S256x768 .bf16) (x1 : Vec F S2048x768 .f32) (xs0 xs1 : Vec F S256x1 .f32) : Vec F S1x256x1 .f32 :=
  VO1_2.read (Elt F) (VO1_2.writes (Elt F) VO1_2.junk (kernelRun1_B c i arg2 harg2 arg3 harg3 arg4 harg4 arg5 harg5 arg6 harg6 arg7 harg7 hc0 hc1 x0 x1 xs0 xs1).1)
def out1_B_3 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : ¬cond1_1 i) (x0 : Vec F S256x768 .bf16) (x1 : Vec F S2048x768 .f32) (xs0 xs1 : Vec F S256x1 .f32) : Vec F S1x256x1 .f32 :=
  VO1_3.read (Elt F) (VO1_3.writes (Elt F) VO1_3.junk (kernelRun1_B c i arg2 harg2 arg3 harg3 arg4 harg4 arg5 harg5 arg6 harg6 arg7 harg7 hc0 hc1 x0 x1 xs0 xs1).2.1)

theorem scover1_C_0 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : cond1_1 i) (x0 : Vec F S256x768 .bf16) (x1 : Vec F S2048x768 .f32) (xs0 xs1 : Vec F S256x1 .f32) (y : S256x1.Idx) : ∃ pc ∈ (kernelRun1_C c i arg2 harg2 arg3 harg3 arg4 harg4 arg5 harg5 arg6 harg6 arg7 harg7 hc0 hc1 x0 x1 xs0 xs1).2.2.1, y ∈ pc.1.set :=
  View.cover_of_wholeMem _ (by sl_whole_mem) y
theorem scover1_C_1 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : cond1_1 i) (x0 : Vec F S256x768 .bf16) (x1 : Vec F S2048x768 .f32) (xs0 xs1 : Vec F S256x1 .f32) (y : S256x1.Idx) : ∃ pc ∈ (kernelRun1_C c i arg2 harg2 arg3 harg3 arg4 harg4 arg5 harg5 arg6 harg6 arg7 harg7 hc0 hc1 x0 x1 xs0 xs1).2.2.2.1, y ∈ pc.1.set :=
  View.cover_of_wholeMem _ (by sl_whole_mem) y
/-- What the case leaves in the running-maximum scratch. -/
def sout1_C_0 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : cond1_1 i) (x0 : Vec F S256x768 .bf16) (x1 : Vec F S2048x768 .f32) (xs0 xs1 : Vec F S256x1 .f32) : Vec F S256x1 .f32 :=
  VS1_0.read (Elt F) (VS1_0.writes (Elt F) VS1_0.junk (kernelRun1_C c i arg2 harg2 arg3 harg3 arg4 harg4 arg5 harg5 arg6 harg6 arg7 harg7 hc0 hc1 x0 x1 xs0 xs1).2.2.1)
/-- What the case leaves in the running-sum scratch. -/
def sout1_C_1 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : cond1_1 i) (x0 : Vec F S256x768 .bf16) (x1 : Vec F S2048x768 .f32) (xs0 xs1 : Vec F S256x1 .f32) : Vec F S256x1 .f32 :=
  VS1_1.read (Elt F) (VS1_1.writes (Elt F) VS1_1.junk (kernelRun1_C c i arg2 harg2 arg3 harg3 arg4 harg4 arg5 harg5 arg6 harg6 arg7 harg7 hc0 hc1 x0 x1 xs0 xs1).2.2.2.1)
/-- What the case leaves in the two output buffers (nothing is stored there unless the case is the last step of a half). -/
def out1_C_2 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : cond1_1 i) (x0 : Vec F S256x768 .bf16) (x1 : Vec F S2048x768 .f32) (xs0 xs1 : Vec F S256x1 .f32) : Vec F S1x256x1 .f32 :=
  VO1_2.read (Elt F) (VO1_2.writes (Elt F) VO1_2.junk (kernelRun1_C c i arg2 harg2 arg3 harg3 arg4 harg4 arg5 harg5 arg6 harg6 arg7 harg7 hc0 hc1 x0 x1 xs0 xs1).1)
def out1_C_3 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : cond1_1 i) (x0 : Vec F S256x768 .bf16) (x1 : Vec F S2048x768 .f32) (xs0 xs1 : Vec F S256x1 .f32) : Vec F S1x256x1 .f32 :=
  VO1_3.read (Elt F) (VO1_3.writes (Elt F) VO1_3.junk (kernelRun1_C c i arg2 harg2 arg3 harg3 arg4 harg4 arg5 harg5 arg6 harg6 arg7 harg7 hc0 hc1 x0 x1 xs0 xs1).2.1)

theorem cover1_C_2 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : cond1_1 i) (x0 : Vec F S256x768 .bf16) (x1 : Vec F S2048x768 .f32) (xs0 xs1 : Vec F S256x1 .f32) (y : S1x256x1.Idx) :
    ∃ pc ∈ (kernelRun1_C c i arg2 harg2 arg3 harg3 arg4 harg4 arg5 harg5 arg6 harg6 arg7 harg7 hc0 hc1 x0 x1 xs0 xs1).1, y ∈ pc.1.set :=
  View.cover_of_wholeMem _ (by sl_whole_mem) y
theorem cover1_C_3 (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : cond1_1 i) (x0 : Vec F S256x768 .bf16) (x1 : Vec F S2048x768 .f32) (xs0 xs1 : Vec F S256x1 .f32) (y : S1x256x1.Idx) :
    ∃ pc ∈ (kernelRun1_C c i arg2 harg2 arg3 harg3 arg4 harg4 arg5 harg5 arg6 harg6 arg7 harg7 hc0 hc1 x0 x1 xs0 xs1).2.1, y ∈ pc.1.set :=
  View.cover_of_wholeMem _ (by sl_whole_mem) y

end Cert.KernelIdeal.Fr

end
-- ==== Proof.KI.R1.lean ====
/-
  The second kernel region, concluded: what the two output buffers and the two scratch buffers hold after each
  grid point (by recursion on the point: the first step of a half seeds the running pair, every other step
  updates what the step before left), the region invariant that carries the scratch contents from one point to
  the next, the proof data, and the body obligation at every point.
-/
import proofs.«156728_j4595615006903_2_alg».proof.Proof.KI.R1Cases
import Idealize.ShloMosaic.Lib.Pipeline.RegionsLoop
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The two output buffers, then the running-maximum and running-sum scratch buffers. -/
abbrev Outs1 : Type := Vec F S1x256x1 .f32 × Vec F S1x256x1 .f32 × Vec F S256x1 .f32 × Vec F S256x1 .f32

/-- The four buffers after the body at a point of this case. -/
def caseA (c : Dev nD) (t : Fin cfg1.N) (h0 : t.val % 16 = 0) (h1 : ¬t.val % 16 = 15) : Outs1 (F := F) :=
  (out1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t),
   out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t),
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t))

/-- The four buffers after the body at a point of this case. -/
def caseB (c : Dev nD) (t : Fin cfg1.N) (h0 : ¬t.val % 16 = 0) (h1 : ¬t.val % 16 = 15) (xs0 xs1 : Vec F S256x1 .f32) : Outs1 (F := F) :=
  (out1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) xs0 xs1,
   out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) xs0 xs1,
   sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) xs0 xs1,
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) xs0 xs1)

/-- The four buffers after the body at a point of this case. -/
def caseC (c : Dev nD) (t : Fin cfg1.N) (h0 : ¬t.val % 16 = 0) (h1 : t.val % 16 = 15) (xs0 xs1 : Vec F S256x1 .f32) : Outs1 (F := F) :=
  (out1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) xs0 xs1,
   out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) xs0 xs1,
   sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) xs0 xs1,
   sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) xs0 xs1)

/-- THE ACCUMULATION: the four buffers after the body at position n. -/
def outsAt1 (c : Dev nD) : (n : ℕ) → n < cfg1.N → Outs1 (F := F)
  | 0, hn => caseA V c ⟨0, hn⟩ (Nat.zero_mod _) (by show ¬(0 % 16 = 15); decide)
  | n + 1, hn =>
    if h0 : (n + 1) % 16 = 0 then
      if h1 : (n + 1) % 16 = 15 then False.elim (by omega)
      else caseA V c ⟨n + 1, hn⟩ h0 h1
    else
      if h1 : (n + 1) % 16 = 15 then
        caseC V c ⟨n + 1, hn⟩ h0 h1 (outsAt1 c n (Nat.lt_of_succ_lt hn)).2.2.1 (outsAt1 c n (Nat.lt_of_succ_lt hn)).2.2.2
      else
        caseB V c ⟨n + 1, hn⟩ h0 h1 (outsAt1 c n (Nat.lt_of_succ_lt hn)).2.2.1 (outsAt1 c n (Nat.lt_of_succ_lt hn)).2.2.2

theorem outsAt1_A (c : Dev nD) (t : Fin cfg1.N) (h0 : t.val % 16 = 0) (h1 : ¬t.val % 16 = 15) :
    outsAt1 V c t.val t.isLt = caseA V c t h0 h1 := by
  obtain ⟨n, hn⟩ := t
  cases n with
  | zero => rfl
  | succ n => exact (dif_pos h0).trans (dif_neg h1)

theorem outsAt1_B (c : Dev nD) (t : Fin cfg1.N) (h0 : ¬t.val % 16 = 0) (h1 : ¬t.val % 16 = 15) :
    outsAt1 V c t.val t.isLt = caseB V c t h0 h1 (outsAt1 V c (t.val - 1) (Nat.lt_of_le_of_lt (Nat.sub_le _ _) t.isLt)).2.2.1
      (outsAt1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 16 = 0) (h1 : t.val % 16 = 15) :
    outsAt1 V c t.val t.isLt = caseC V c t h0 h1 (outsAt1 V c (t.val - 1) (Nat.lt_of_le_of_lt (Nat.sub_le _ _) t.isLt)).2.2.1
      (outsAt1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-- The core's scoped buffers that no window of this region stages — the first region's six staging buffers at
    anything, the two scratch buffers as stated — beside the generator register at some state. -/
def rest1 (c : Dev nD) (S0 S1 : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ S0 ∗ S1) ∗ (∃ r, prngReg c r))

theorem PhiA1_eq (c : Dev nD) :
    (Pipeline.ΦA spec1 c : sProp 𝕄) = rest1 c (iprop(∃ d, owns (c : Thread nD τ) scM1_0 fullShare d)) (iprop(∃ d, owns (c : Thread nD τ) scM1_1 fullShare d)) := by
  unfold Pipeline.ΦA rest1; rw [scopedRest1_eq]; simp only [scM1_0, scM1_1, owns_whole]; try rfl

/-- The region invariant before position n: before the first point every scratch at anything; afterwards the two
    scratch buffers at what the point before left in them. -/
def PhiS (c : Dev nD) : (n : ℕ) → n ≤ cfg1.N → sProp 𝕄
  | 0, _ => Pipeline.ΦA spec1 c
  | n + 1, hn => rest1 c (owns (c : Thread nD τ) scM1_0 fullShare (outsAt1 V c n hn).2.2.1) (owns (c : Thread nD τ) scM1_1 fullShare (outsAt1 V c n hn).2.2.2)

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = rest1 c (owns (c : Thread nD τ) scM1_0 fullShare (outsAt1 V c n hn).2.2.1) (owns (c : Thread nD τ) scM1_1 fullShare (outsAt1 V c n hn).2.2.2) := rfl
theorem PhiS_pos (c : Dev nD) (n : ℕ) (h : n ≤ cfg1.N) (hz : n ≠ 0) :
    PhiS V c n h = rest1 c (owns (c : Thread nD τ) scM1_0 fullShare (outsAt1 V c (n - 1) (by omega)).2.2.1) (owns (c : Thread nD τ) scM1_1 fullShare (outsAt1 V c (n - 1) (by omega)).2.2.2) := by
  cases n with
  | zero => exact absurd rfl hz
  | succ n => rfl

/-- The proof data of the second pipeline on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the case is read off the point's position in its half; the invariant hands the body the
    scratch buffers at what the point before left and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  by_cases h0 : t.val % 16 = 0
  · have h1 : ¬t.val % 16 = 15 := by omega
    rw [Dat.leavesExact_idle (dat1 V c) 2 t (idleAt1_2 t (fun h => h1 ((hcond1_1 t).mp h))) (noFlush1_2 t (fun h => h1 ((hcond1_1 t).mp h)))]
    rw [Dat.leavesExact_idle (dat1 V c) 3 t (idleAt1_3 t (fun h => h1 ((hcond1_1 t).mp h))) (noFlush1_3 t (fun h => h1 ((hcond1_1 t).mp h)))]
    rw [outsAt1_A V c t h0 h1]
    unfold caseA sout1_A_0 sout1_A_1; (try dsimp only)
    unfold rest1
    by_cases hz : t.val = 0
    · rw [PhiS_castSucc V c t, PhiS_zero V c _ _ hz, PhiA1_eq]; unfold rest1
      iintro ⟨⟨⟨A0, A1, A2, A3, A4, A5, HS0, HS1⟩, Hg⟩, Ho, ⟨%d0, H0⟩, ⟨%d1, H1⟩, ⟨%d2, H2⟩, ⟨%d3, H3⟩⟩
      iapply ((kernelRun1_A c (grid1.coords t) _ _ _ _ _ _ _ _ _ _ _ _ ((hcond1_0 t).mpr h0) (fun h => h1 ((hcond1_1 t).mp h)) (iblk1 V c 0 t) (iblk1 V c 1 t)).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg A0 A1 A2 A3 A4 A5]
      · isplitr [Hg]
        · isplitl [A0]; · iexact A0
          isplitl [A1]; · iexact A1
          isplitl [A2]; · iexact A2
          isplitl [A3]; · iexact A3
          isplitl [A4]; · iexact A4
          isplitl [A5]; · iexact A5
          isplitl [HS0]
          · unfold owns; iexists _; isplitr
            swap; · iexact HS0
            ipureintro; exact View.read_writes_of_cover _ _ _ _ _ (scover1_A_0 c _ _ _ _ _ _ _ _ _ _ _ _ _ _ _ _ _ )
          unfold owns; iexists _; isplitr
          swap; · iexact HS1
          ipureintro; exact View.read_writes_of_cover _ _ _ _ _ (scover1_A_1 c _ _ _ _ _ _ _ _ _ _ _ _ _ _ _ _ _ )
        iexact Hg
      isplitl [Ho]; · iexact Ho
      isplitl [H0]; · iexact H0
      isplitl [H1]; · iexact H1
      isplitl [H2]; · iexists _; iexact H2
      iexists _; iexact H3
    · rw [PhiS_castSucc V c t, PhiS_pos V c _ _ hz]; unfold rest1
      iintro ⟨⟨⟨A0, A1, A2, A3, A4, A5, HS0, HS1⟩, Hg⟩, Ho, ⟨%d0, H0⟩, ⟨%d1, H1⟩, ⟨%d2, H2⟩, ⟨%d3, H3⟩⟩
      iapply ((kernelRun1_A c (grid1.coords t) _ _ _ _ _ _ _ _ _ _ _ _ ((hcond1_0 t).mpr h0) (fun h => h1 ((hcond1_1 t).mp h)) (iblk1 V c 0 t) (iblk1 V c 1 t)).2.2.2.2 _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hg A0 A1 A2 A3 A4 A5]
      · isplitr [Hg]
        · isplitl [A0]; · iexact A0
          isplitl [A1]; · iexact A1
          isplitl [A2]; · iexact A2
          isplitl [A3]; · iexact A3
          isplitl [A4]; · iexact A4
          isplitl [A5]; · iexact A5
          isplitl [HS0]
          · unfold owns; iexists _; isplitr
            swap; · iexact HS0
            ipureintro; exact View.read_writes_of_cover _ _ _ _ _ (scover1_A_0 c _ _ _ _ _ _ _ _ _ _ _ _ _ _ _ _ _ )
          unfold owns; iexists _; isplitr
          swap; · iexact HS1
          ipureintro; exact View.read_writes_of_cover _ _ _ _ _ (scover1_A_1 c _ _ _ _ _ _ _ _ _ _ _ _ _ _ _ _ _ )
        iexact Hg
      isplitl [Ho]; · iexact Ho
      isplitl [H0]; · iexact H0
      isplitl [H1]; · iexact H1
      isplitl [H2]; · iexists _; iexact H2
      iexists _; iexact H3
  · have hz : t.val ≠ 0 := fun e => h0 (by rw [e])
    by_cases h1 : t.val % 16 = 15
    · rw [show (dat1 V c).leavesExact 2 t = owns (c : Thread nD τ) (ms1_2 t) fullShare ((dat1 V c).after 2 t) from by
          unfold Dat.leavesExact; rw [liveAt1_2 t ((hcond1_1 t).mpr h1)], after1_2]
      rw [show (dat1 V c).leavesExact 3 t = owns (c : Thread nD τ) (ms1_3 t) fullShare ((dat1 V c).after 3 t) from by
          unfold Dat.leavesExact; rw [liveAt1_3 t ((hcond1_1 t).mpr h1)], after1_3]
      rw [outsAt1_C V c t h0 h1]
      unfold caseC out1_C_2 out1_C_3 sout1_C_0 sout1_C_1; (try dsimp only)
      unfold rest1
      rw [PhiS_castSucc V c t, PhiS_pos V c _ _ hz]; unfold rest1
      iintro ⟨⟨⟨A0, A1, A2, A3, A4, A5, HS0, HS1⟩, Hg⟩, Ho, ⟨%d0, H0⟩, ⟨%d1, H1⟩, ⟨%d2, H2⟩, ⟨%d3, H3⟩⟩
      iapply ((kernelRun1_C c (grid1.coords t) _ _ _ _ _ _ _ _ _ _ _ _ (fun h => h0 ((hcond1_0 t).mp h)) ((hcond1_1 t).mpr h1) (iblk1 V c 0 t) (iblk1 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hg A0 A1 A2 A3 A4 A5]
      · isplitr [Hg]
        · isplitl [A0]; · iexact A0
          isplitl [A1]; · iexact A1
          isplitl [A2]; · iexact A2
          isplitl [A3]; · iexact A3
          isplitl [A4]; · iexact A4
          isplitl [A5]; · iexact A5
          isplitl [HS0]
          · unfold owns; iexists _; isplitr
            swap; · iexact HS0
            ipureintro; exact View.read_writes_of_cover _ _ _ _ _ (scover1_C_0 c _ _ _ _ _ _ _ _ _ _ _ _ _ _ _ _ _ _ _ )
          unfold owns; iexists _; isplitr
          swap; · iexact HS1
          ipureintro; exact View.read_writes_of_cover _ _ _ _ _ (scover1_C_1 c _ _ _ _ _ _ _ _ _ _ _ _ _ _ _ _ _ _ _ )
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 c _ _ _ _ _ _ _ _ _ _ _ _ _ _ _ _ _ _ _ )
      unfold owns; iexists _; isplitr
      swap; · iexact H3
      ipureintro; exact View.read_writes_of_cover _ _ _ _ _ (cover1_C_3 c _ _ _ _ _ _ _ _ _ _ _ _ _ _ _ _ _ _ _ )
    · rw [Dat.leavesExact_idle (dat1 V c) 2 t (idleAt1_2 t (fun h => h1 ((hcond1_1 t).mp h))) (noFlush1_2 t (fun h => h1 ((hcond1_1 t).mp h)))]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold caseB sout1_B_0 sout1_B_1; (try dsimp only)
      unfold rest1
      rw [PhiS_castSucc V c t, PhiS_pos V c _ _ hz]; unfold rest1
      iintro ⟨⟨⟨A0, A1, A2, A3, A4, A5, HS0, HS1⟩, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg A0 A1 A2 A3 A4 A5]
      · isplitr [Hg]
        · isplitl [A0]; · iexact A0
          isplitl [A1]; · iexact A1
          isplitl [A2]; · iexact A2
          isplitl [A3]; · iexact A3
          isplitl [A4]; · iexact A4
          isplitl [A5]; · iexact A5
          isplitl [HS0]
          · unfold owns; iexists _; isplitr
            swap; · iexact HS0
            ipureintro; exact View.read_writes_of_cover _ _ _ _ _ (scover1_B_0 c _ _ _ _ _ _ _ _ _ _ _ _ _ _ _ _ _ _ _ )
          unfold owns; iexists _; isplitr
          swap; · iexact HS1
          ipureintro; exact View.read_writes_of_cover _ _ _ _ _ (scover1_B_1 c _ _ _ _ _ _ _ _ _ _ _ _ _ _ _ _ _ _ _ )
        iexact Hg
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  unfold rest1
  iintro ⟨⟨A0, A1, A2, A3, A4, A5, HS0, HS1⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [HS0]; · iexists _; iexact HS0
    iexists _; iexact HS1
  iexact Hg

end Cert.KernelIdeal.Fr

end
-- ==== Proof.KI.Run.lean ====
/-
  The whole program's run, at any float instance: the buffer contents at each boundary between the items of the
  main function (a reshape of the queue; the normalising kernel; the streaming kernel; the merge of the three
  (max, sum) pairs and the mean), the two kernel regions as segments of the run, and the run itself: every
  weakly fair execution terminates and every final memory holds each unscoped buffer at the last boundary's
  contents. The frame claim (the arguments end unchanged) and the result's value are read off it.
-/
import proofs.«156728_j4595615006903_2_alg».proof.Proof.KI.R0
import proofs.«156728_j4595615006903_2_alg».proof.Proof.KI.R1
import proofs.«156728_j4595615006903_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the reshape (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit (it is entered where the first was left). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the merge and the mean: the end. -/
abbrev W4 : Dev nD → Valuation τ sig (Elt F) := fun c => StableHlo.after hostOps2 (W3 m ρ c)

/-- A buffer no host operation of the last stretch writes is as the second region left it; likewise the reshape. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of m ρ c main_arg1 (by decide)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last contents, the generator register. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- The first region over the thread state. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: the invariant with the carried scratch opens from and closes to the class's. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    refine (show (pdats m ρ 1 c).Φ (Fin.last _) ⊢ Pipeline.ΦA spec1 c from hout1 (V2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The main function's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of the main function terminates, nothing
    faulting, and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      (show iprop(StableHlo.held (c : Thread nD τ) (Pipeline.ucRefs τ sig) (W4 m ρ c) ∗ R c)
          ⊢ iprop(Tₙ m ρ c ∗ ∃ W, owes (c : Thread nD τ) (0 : CellTallies nD τ sig Unit) W) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.KernelIdeal.Fr

end
-- ==== Proof.KI.Pieces.lean ====
/-
  What each case of the streaming kernel's body leaves in the scratch and output buffers, as the body's
  arithmetic applied to the blocks it loaded: the running maximum after a step is the maximum of the old one and
  the block's row maxima; the running sum is the old one rescaled plus the block's row sums of exponentials; at
  the first step of a half the old pair is (-inf, 0); at the last step the outputs are copies of the pair.
-/
import proofs.«156728_j4595615006903_2_alg».proof.Proof.KI.R1Cases
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hzB : (![0, 0] : Fin 2 → Nat) = fun _ => 0 := funext fun a => by fin_cases a <;> rfl
/-- A load of a [256,1] buffer right after one whole store into it reads what was stored. -/
theorem readCovB (v : View sig .tc .vmem S256x1 .f32) (w : S256x1.Idx → Elt F .f32) :
    v.readCov [(⟨Rect.unit ![0, 0] ![256, 1] inb_S256x1_S256x1_0_0, w⟩ : View.Piece (Elt F) S256x1 .f32)]
      (Rect.unit ![0, 0] ![256, 1] inb_S256x1_S256x1_0_0).toLoadRect = w :=
  View.readCov_unit_zero (S := S256x1) v hzB inb_S256x1_S256x1_0_0 w
theorem hzC : (![0, 0, 0] : Fin 3 → Nat) = fun _ => 0 := funext fun a => by fin_cases a <;> rfl

theorem sout1_A_0_eq (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : cond1_0 i) (hc1 : ¬cond1_1 i) (x0 : Vec F S256x768 .bf16) (x1 : Vec F S2048x768 .f32) :
    sout1_A_0 c i arg2 harg2 arg3 harg3 arg4 harg4 arg5 harg5 arg6 harg6 arg7 harg7 hc0 hc1 x0 x1 = k1_pay9 x0 x1 (k1_pay4 (F := F)) := by
  unfold sout1_A_0
  rw [View.read_writes_eq_canon _ _ _ (scover1_A_0 c i arg2 harg2 arg3 harg3 arg4 harg4 arg5 harg5 arg6 harg6 arg7 harg7 hc0 hc1 x0 x1)]
  unfold kernelRun1_A
  dsimp only
  sl_unfold_words
  refine (View.canon_cons_unit_zero (by first | exact hzB | exact hzC) _ _ _).trans ?_
  simp only [View.readAt_eq_ld, harg2.read_unread, harg3.read_unread, harg6.read_unread, harg7.read_unread,
    View.ld_unit_zero (S := S256x768) hzB, View.ld_unit_zero (S := S2048x768) hzB, View.ld_unit_zero (S := S256x1) hzB,
    readCovB]
  try rfl
theorem sout1_A_1_eq (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : cond1_0 i) (hc1 : ¬cond1_1 i) (x0 : Vec F S256x768 .bf16) (x1 : Vec F S2048x768 .f32) :
    sout1_A_1 c i arg2 harg2 arg3 harg3 arg4 harg4 arg5 harg5 arg6 harg6 arg7 harg7 hc0 hc1 x0 x1 = k1_pay1 (k1_pay8 x0 x1 (k1_pay4 (F := F)) (k1_pay5 (F := F))) := by
  unfold sout1_A_1
  rw [View.read_writes_eq_canon _ _ _ (scover1_A_1 c i arg2 harg2 arg3 harg3 arg4 harg4 arg5 harg5 arg6 harg6 arg7 harg7 hc0 hc1 x0 x1)]
  unfold kernelRun1_A
  dsimp only
  sl_unfold_words
  refine (View.canon_cons_unit_zero (by first | exact hzB | exact hzC) _ _ _).trans ?_
  simp only [View.readAt_eq_ld, harg2.read_unread, harg3.read_unread, harg6.read_unread, harg7.read_unread,
    View.ld_unit_zero (S := S256x768) hzB, View.ld_unit_zero (S := S2048x768) hzB, View.ld_unit_zero (S := S256x1) hzB,
    readCovB]
  try rfl
theorem sout1_B_0_eq (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : ¬cond1_1 i) (x0 : Vec F S256x768 .bf16) (x1 : Vec F S2048x768 .f32) (xs0 xs1 : Vec F S256x1 .f32) :
    sout1_B_0 c i arg2 harg2 arg3 harg3 arg4 harg4 arg5 harg5 arg6 harg6 arg7 harg7 hc0 hc1 x0 x1 xs0 xs1 = k1_pay9 x0 x1 xs0 := by
  unfold sout1_B_0
  rw [View.read_writes_eq_canon _ _ _ (scover1_B_0 c i arg2 harg2 arg3 harg3 arg4 harg4 arg5 harg5 arg6 harg6 arg7 harg7 hc0 hc1 x0 x1 xs0 xs1)]
  unfold kernelRun1_B
  dsimp only
  sl_unfold_words
  refine (View.canon_cons_unit_zero (by first | exact hzB | exact hzC) _ _ _).trans ?_
  simp only [View.readAt_eq_ld, harg2.read_unread, harg3.read_unread, harg6.read_unread, harg7.read_unread,
    View.ld_unit_zero (S := S256x768) hzB, View.ld_unit_zero (S := S2048x768) hzB, View.ld_unit_zero (S := S256x1) hzB,
    readCovB]
  try rfl
theorem sout1_B_1_eq (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : ¬cond1_1 i) (x0 : Vec F S256x768 .bf16) (x1 : Vec F S2048x768 .f32) (xs0 xs1 : Vec F S256x1 .f32) :
    sout1_B_1 c i arg2 harg2 arg3 harg3 arg4 harg4 arg5 harg5 arg6 harg6 arg7 harg7 hc0 hc1 x0 x1 xs0 xs1 = k1_pay1 (k1_pay8 x0 x1 xs0 xs1) := by
  unfold sout1_B_1
  rw [View.read_writes_eq_canon _ _ _ (scover1_B_1 c i arg2 harg2 arg3 harg3 arg4 harg4 arg5 harg5 arg6 harg6 arg7 harg7 hc0 hc1 x0 x1 xs0 xs1)]
  unfold kernelRun1_B
  dsimp only
  sl_unfold_words
  refine (View.canon_cons_unit_zero (by first | exact hzB | exact hzC) _ _ _).trans ?_
  simp only [View.readAt_eq_ld, harg2.read_unread, harg3.read_unread, harg6.read_unread, harg7.read_unread,
    View.ld_unit_zero (S := S256x768) hzB, View.ld_unit_zero (S := S2048x768) hzB, View.ld_unit_zero (S := S256x1) hzB,
    readCovB]
  try rfl
theorem sout1_C_0_eq (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : cond1_1 i) (x0 : Vec F S256x768 .bf16) (x1 : Vec F S2048x768 .f32) (xs0 xs1 : Vec F S256x1 .f32) :
    sout1_C_0 c i arg2 harg2 arg3 harg3 arg4 harg4 arg5 harg5 arg6 harg6 arg7 harg7 hc0 hc1 x0 x1 xs0 xs1 = k1_pay9 x0 x1 xs0 := by
  unfold sout1_C_0
  rw [View.read_writes_eq_canon _ _ _ (scover1_C_0 c i arg2 harg2 arg3 harg3 arg4 harg4 arg5 harg5 arg6 harg6 arg7 harg7 hc0 hc1 x0 x1 xs0 xs1)]
  unfold kernelRun1_C
  dsimp only
  sl_unfold_words
  refine (View.canon_cons_unit_zero (by first | exact hzB | exact hzC) _ _ _).trans ?_
  simp only [View.readAt_eq_ld, harg2.read_unread, harg3.read_unread, harg6.read_unread, harg7.read_unread,
    View.ld_unit_zero (S := S256x768) hzB, View.ld_unit_zero (S := S2048x768) hzB, View.ld_unit_zero (S := S256x1) hzB,
    readCovB]
  try rfl
theorem sout1_C_1_eq (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : cond1_1 i) (x0 : Vec F S256x768 .bf16) (x1 : Vec F S2048x768 .f32) (xs0 xs1 : Vec F S256x1 .f32) :
    sout1_C_1 c i arg2 harg2 arg3 harg3 arg4 harg4 arg5 harg5 arg6 harg6 arg7 harg7 hc0 hc1 x0 x1 xs0 xs1 = k1_pay1 (k1_pay8 x0 x1 xs0 xs1) := by
  unfold sout1_C_1
  rw [View.read_writes_eq_canon _ _ _ (scover1_C_1 c i arg2 harg2 arg3 harg3 arg4 harg4 arg5 harg5 arg6 harg6 arg7 harg7 hc0 hc1 x0 x1 xs0 xs1)]
  unfold kernelRun1_C
  dsimp only
  sl_unfold_words
  refine (View.canon_cons_unit_zero (by first | exact hzB | exact hzC) _ _ _).trans ?_
  simp only [View.readAt_eq_ld, harg2.read_unread, harg3.read_unread, harg6.read_unread, harg7.read_unread,
    View.ld_unit_zero (S := S256x768) hzB, View.ld_unit_zero (S := S2048x768) hzB, View.ld_unit_zero (S := S256x1) hzB,
    readCovB]
  try rfl
theorem out1_C_2_eq (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : cond1_1 i) (x0 : Vec F S256x768 .bf16) (x1 : Vec F S2048x768 .f32) (xs0 xs1 : Vec F S256x1 .f32) :
    out1_C_2 c i arg2 harg2 arg3 harg3 arg4 harg4 arg5 harg5 arg6 harg6 arg7 harg7 hc0 hc1 x0 x1 xs0 xs1 = k1_pay2 (k1_pay9 x0 x1 xs0) := by
  unfold out1_C_2
  rw [View.read_writes_eq_canon _ _ _ (cover1_C_2 c i arg2 harg2 arg3 harg3 arg4 harg4 arg5 harg5 arg6 harg6 arg7 harg7 hc0 hc1 x0 x1 xs0 xs1)]
  unfold kernelRun1_C
  dsimp only
  sl_unfold_words
  refine (View.canon_cons_unit_zero (by first | exact hzB | exact hzC) _ _ _).trans ?_
  simp only [View.readAt_eq_ld, harg2.read_unread, harg3.read_unread, harg6.read_unread, harg7.read_unread,
    View.ld_unit_zero (S := S256x768) hzB, View.ld_unit_zero (S := S2048x768) hzB, View.ld_unit_zero (S := S256x1) hzB,
    readCovB]
  try rfl
theorem out1_C_3_eq (c : Dev nD) (i : grid1.Coords) (arg2 : Memref sig .tc .vmem S256x768 .bf16) (harg2 : arg2.IsWhole) (arg3 : Memref sig .tc .vmem S2048x768 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : ¬cond1_0 i) (hc1 : cond1_1 i) (x0 : Vec F S256x768 .bf16) (x1 : Vec F S2048x768 .f32) (xs0 xs1 : Vec F S256x1 .f32) :
    out1_C_3 c i arg2 harg2 arg3 harg3 arg4 harg4 arg5 harg5 arg6 harg6 arg7 harg7 hc0 hc1 x0 x1 xs0 xs1 = k1_pay3 (k1_pay1 (k1_pay8 x0 x1 xs0 xs1)) := by
  unfold out1_C_3
  rw [View.read_writes_eq_canon _ _ _ (cover1_C_3 c i arg2 harg2 arg3 harg3 arg4 harg4 arg5 harg5 arg6 harg6 arg7 harg7 hc0 hc1 x0 x1 xs0 xs1)]
  unfold kernelRun1_C
  dsimp only
  sl_unfold_words
  refine (View.canon_cons_unit_zero (by first | exact hzB | exact hzC) _ _ _).trans ?_
  simp only [View.readAt_eq_ld, harg2.read_unread, harg3.read_unread, harg6.read_unread, harg7.read_unread,
    View.ld_unit_zero (S := S256x768) hzB, View.ld_unit_zero (S := S2048x768) hzB, View.ld_unit_zero (S := S256x1) hzB,
    readCovB]
  try rfl

end Cert.KernelIdeal.Fr

end
-- ==== Proof.KI.KV0.lean ====
/-
  What the first kernel region leaves in its four output arrays, at any float instance: the region has one
  grid point and every window's block is its whole array, so each array ends holding the body's function of
  the two input arrays as the region found them.
-/
import proofs.«156728_j4595615006903_2_alg».proof.Proof.KI.Run
import proofs.«156728_j4595615006903_2_alg».proof.Proof.KI.Pieces
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]
variable (V : (c : Dev nD) → (b : Ref sig .tc) → Buf (Elt F) ((c : Thread nD τ).loc b))

/-- Every window of the first region sits at block index 0 on both axes, at its one grid point. -/
theorem idx0 : ∀ t : Fin cfg0.N,
    win0_0.index t (0 : Fin 2) = 0 ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0 ∧ win0_3.index t (0 : Fin 2) = 0 ∧ win0_3.index t (1 : Fin 2) = 0
    ∧ win0_4.index t (0 : Fin 2) = 0 ∧ win0_4.index t (1 : Fin 2) = 0 ∧ win0_5.index t (0 : Fin 2) = 0 ∧ win0_5.index t (1 : Fin 2) = 0 :=
  (by decide +kernel : ∀ t : Fin grid0.N, _)

/-- So a block's element sits in the array at its own coordinates. -/
theorem emb0_0 (t : Fin cfg0.N) (y : S256x768.Idx) : ((cfg0.win 0).blk t).view.emb y = y := by
  obtain ⟨e0, e1, -⟩ := idx0 t
  funext a; apply Fin.ext
  match a with
  | ⟨0, _⟩ => show win0_0.index t (0 : Fin 2) * 256 + 1 * (y 0).val = (y 0).val; omega
  | ⟨1, _⟩ => show win0_0.index t (1 : Fin 2) * 768 + 1 * (y 1).val = (y 1).val; omega
theorem emb0_1 (t : Fin cfg0.N) (y : S256x768.Idx) : ((cfg0.win 1).blk t).view.emb y = y := by
  obtain ⟨-, -, e0, e1, -⟩ := idx0 t
  funext a; apply Fin.ext
  match a with
  | ⟨0, _⟩ => show win0_1.index t (0 : Fin 2) * 256 + 1 * (y 0).val = (y 0).val; omega
  | ⟨1, _⟩ => show win0_1.index t (1 : Fin 2) * 768 + 1 * (y 1).val = (y 1).val; omega
theorem emb0_2 (t : Fin cfg0.N) (y : S256x768.Idx) : ((cfg0.win 2).blk t).view.emb y = y := by
  obtain ⟨-, -, -, -, e0, e1, -⟩ := idx0 t
  funext a; apply Fin.ext
  match a with
  | ⟨0, _⟩ => show win0_2.index t (0 : Fin 2) * 256 + 1 * (y 0).val = (y 0).val; omega
  | ⟨1, _⟩ => show win0_2.index t (1 : Fin 2) * 768 + 1 * (y 1).val = (y 1).val; omega
theorem emb0_3 (t : Fin cfg0.N) (y : S256x1.Idx) : ((cfg0.win 3).blk t).view.emb y = y := by
  obtain ⟨-, -, -, -, -, -, e0, e1, -⟩ := idx0 t
  funext a; apply Fin.ext
  match a with
  | ⟨0, _⟩ => show win0_3.index t (0 : Fin 2) * 256 + 1 * (y 0).val = (y 0).val; omega
  | ⟨1, _⟩ => show win0_3.index t (1 : Fin 2) * 1 + 1 * (y 1).val = (y 1).val; omega
theorem emb0_4 (t : Fin cfg0.N) (y : S256x1.Idx) : ((cfg0.win 4).blk t).view.emb y = y := by
  obtain ⟨-, -, -, -, -, -, -, -, e0, e1, -⟩ := idx0 t
  funext a; apply Fin.ext
  match a with
  | ⟨0, _⟩ => show win0_4.index t (0 : Fin 2) * 256 + 1 * (y 0).val = (y 0).val; omega
  | ⟨1, _⟩ => show win0_4.index t (1 : Fin 2) * 1 + 1 * (y 1).val = (y 1).val; omega
theorem emb0_5 (t : Fin cfg0.N) (y : S256x1.Idx) : ((cfg0.win 5).blk t).view.emb y = y := by
  obtain ⟨-, -, -, -, -, -, -, -, -, -, e0, e1⟩ := idx0 t
  funext a; apply Fin.ext
  match a with
  | ⟨0, _⟩ => show win0_5.index t (0 : Fin 2) * 256 + 1 * (y 0).val = (y 0).val; omega
  | ⟨1, _⟩ => show win0_5.index t (1 : Fin 2) * 1 + 1 * (y 1).val = (y 1).val; omega

/-- The two input blocks are the input arrays. -/
theorem iblk0_0 (c : Dev nD) (t : Fin cfg0.N) : iblk0 V c 0 t = V c main_arg0 :=
  funext fun y => congrArg (V c main_arg0) (emb0_0 t y)
theorem iblk0_1 (c : Dev nD) (t : Fin cfg0.N) : iblk0 V c 1 t = V c main_arg1 :=
  funext fun y => congrArg (V c main_arg1) (emb0_1 t y)

set_option maxRecDepth 200000 in
/-- What the one point writes back into each output array is its block of the body's function of the input arrays. -/
theorem flushed0_2 (c : Dev nD) (t : Fin cfg0.N) :
    (dat0 V c).flushed 2 t = ((cfg0.win 2).blk t).view.read (Elt F) (k0_pay1 (V c main_arg0)) := by
  show (cfg0.win 2).cut (grid0.coords t) ((dat0 V c).after 2 t) = _
  rw [after0_2]; unfold out0_2
  rw [View.canon_unit_zero hzB]
  simp only [View.ld_unit_zero (S := S256x768) hzB]
  rw [iblk0_0]
  funext y
  exact (congrArg (k0_pay1 (V c main_arg0)) (emb0_2 t y)).symm
set_option maxRecDepth 200000 in
theorem flushed0_3 (c : Dev nD) (t : Fin cfg0.N) :
    (dat0 V c).flushed 3 t = ((cfg0.win 3).blk t).view.read (Elt F) (k0_pay4 (V c main_arg0) (V c main_arg1)) := by
  show (cfg0.win 3).cut (grid0.coords t) ((dat0 V c).after 3 t) = _
  rw [after0_3]; unfold out0_3
  rw [View.canon_unit_zero hzB]
  simp only [View.ld_unit_zero (S := S256x768) hzB]
  rw [iblk0_0, iblk0_1]
  funext y
  exact (congrArg (k0_pay4 (V c main_arg0) (V c main_arg1)) (emb0_3 t y)).symm
set_option maxRecDepth 200000 in
theorem flushed0_4 (c : Dev nD) (t : Fin cfg0.N) :
    (dat0 V c).flushed 4 t = ((cfg0.win 4).blk t).view.read (Elt F) (k0_pay5 (V c main_arg0) (V c main_arg1)) := by
  show (cfg0.win 4).cut (grid0.coords t) ((dat0 V c).after 4 t) = _
  rw [after0_4]; unfold out0_4
  rw [View.canon_unit_zero hzB]
  simp only [View.ld_unit_zero (S := S256x768) hzB]
  rw [iblk0_0, iblk0_1]
  funext y
  exact (congrArg (k0_pay5 (V c main_arg0) (V c main_arg1)) (emb0_4 t y)).symm
set_option maxRecDepth 200000 in
theorem flushed0_5 (c : Dev nD) (t : Fin cfg0.N) :
    (dat0 V c).flushed 5 t = ((cfg0.win 5).blk t).view.read (Elt F) (k0_pay3 (V c main_arg0) (V c main_arg1)) := by
  show (cfg0.win 5).cut (grid0.coords t) ((dat0 V c).after 5 t) = _
  rw [after0_5]; unfold out0_5
  rw [View.canon_unit_zero hzB]
  simp only [View.ld_unit_zero (S := S256x768) hzB]
  rw [iblk0_0, iblk0_1]
  funext y
  exact (congrArg (k0_pay3 (V c main_arg0) (V c main_arg1)) (emb0_5 t y)).symm

/-- The one point's block covers the whole of each output array. -/
theorem cover0_2 (i : S256x768.Idx) : ∃ t : Fin cfg0.N, (cfg0.win 2).flush t = true ∧ i ∈ ((cfg0.win 2).blk t).view.set :=
  ⟨t0_0, flush0_2 t0_0, by rw [← emb0_2 t0_0 i]; exact ((cfg0.win 2).blk t0_0).view.emb_mem_set i⟩
theorem cover0_3 (i : S256x1.Idx) : ∃ t : Fin cfg0.N, (cfg0.win 3).flush t = true ∧ i ∈ ((cfg0.win 3).blk t).view.set :=
  ⟨t0_0, flush0_3 t0_0, by rw [← emb0_3 t0_0 i]; exact ((cfg0.win 3).blk t0_0).view.emb_mem_set i⟩
theorem cover0_4 (i : S256x1.Idx) : ∃ t : Fin cfg0.N, (cfg0.win 4).flush t = true ∧ i ∈ ((cfg0.win 4).blk t).view.set :=
  ⟨t0_0, flush0_4 t0_0, by rw [← emb0_4 t0_0 i]; exact ((cfg0.win 4).blk t0_0).view.emb_mem_set i⟩
theorem cover0_5 (i : S256x1.Idx) : ∃ t : Fin cfg0.N, (cfg0.win 5).flush t = true ∧ i ∈ ((cfg0.win 5).blk t).view.set :=
  ⟨t0_0, flush0_5 t0_0, by rw [← emb0_5 t0_0 i]; exact ((cfg0.win 5).blk t0_0).view.emb_mem_set i⟩

/-- THE FOUR ARRAYS after the first region. -/
theorem arr0_2 (c : Dev nD) : (dat0 V c).arrAt 2 cfg0.N = k0_pay1 (V c main_arg0) :=
  (dat0 V c).arrAt_eq_of_cover 2 _ (fun t _ => flushed0_2 V c t) cover0_2
theorem arr0_3 (c : Dev nD) : (dat0 V c).arrAt 3 cfg0.N = k0_pay4 (V c main_arg0) (V c main_arg1) :=
  (dat0 V c).arrAt_eq_of_cover 3 _ (fun t _ => flushed0_3 V c t) cover0_3
theorem arr0_4 (c : Dev nD) : (dat0 V c).arrAt 4 cfg0.N = k0_pay5 (V c main_arg0) (V c main_arg1) :=
  (dat0 V c).arrAt_eq_of_cover 4 _ (fun t _ => flushed0_4 V c t) cover0_4
theorem arr0_5 (c : Dev nD) : (dat0 V c).arrAt 5 cfg0.N = k0_pay3 (V c main_arg0) (V c main_arg1) :=
  (dat0 V c).arrAt_eq_of_cover 5 _ (fun t _ => flushed0_5 V c t) cover0_5

end Cert.KernelIdeal.KV

end
-- ==== Proof.KI.KV1.lean ====
/-
  What the second kernel region leaves in its two output arrays, at any float instance: where its windows' blocks
  sit in their arrays (the query block is the whole array at every point; point t reads queue rows
  2048 t, …, 2048 t + 2047; the outputs' block at point t is slab t / 16), and that slab h of each output
  array ends holding what the last point of half h (point 16 h + 15) left in the window's buffer.
-/
import proofs.«156728_j4595615006903_2_alg».proof.Proof.KI.Run
import proofs.«156728_j4595615006903_2_alg».proof.Proof.KI.Pieces
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]
variable (V : (c : Dev nD) → (b : Ref sig .tc) → Buf (Elt F) ((c : Thread nD τ).loc b))

/-- The block indices of the four windows at point t. -/
theorem idx1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 3) = t.val / 16 ∧ win1_2.index t (1 : Fin 3) = 0 ∧ win1_2.index t (2 : Fin 3) = 0
    ∧ win1_3.index t (0 : Fin 3) = t.val / 16 ∧ win1_3.index t (1 : Fin 3) = 0 ∧ win1_3.index t (2 : Fin 3) = 0 :=
  (by decide +kernel : ∀ t : Fin grid1.N, _)

theorem t_lt (t : Fin cfg1.N) : t.val < 32 := lt_of_lt_of_eq t.isLt (show cfg1.N = 32 from N_1)

theorem emb1_0 (t : Fin cfg1.N) (y : S256x768.Idx) : ((cfg1.win 0).blk t).view.emb y = y := by
  obtain ⟨e0, e1, -⟩ := idx1 t
  funext a; apply Fin.ext
  match a with
  | ⟨0, _⟩ => show win1_0.index t (0 : Fin 2) * 256 + 1 * (y 0).val = (y 0).val; omega
  | ⟨1, _⟩ => show win1_0.index t (1 : Fin 2) * 768 + 1 * (y 1).val = (y 1).val; omega

theorem emb1_1 (t : Fin cfg1.N) (j : Fin 2048) (d : Fin 768) :
    ((cfg1.win 1).blk t).view.emb (ix2 j d) = (ix2 (⟨t.val * 2048 + j.val, by have := t_lt t; omega⟩ : Fin 65536) d : S65536x768.Idx) := by
  obtain ⟨-, -, e0, e1, -⟩ := idx1 t
  funext a; apply Fin.ext
  match a with
  | ⟨0, _⟩ => show win1_1.index t (0 : Fin 2) * 2048 + 1 * j.val = t.val * 2048 + j.val; omega
  | ⟨1, _⟩ => show win1_1.index t (1 : Fin 2) * 768 + 1 * d.val = d.val; omega

theorem emb1_2 (t : Fin cfg1.N) (b : Fin 256) :
    ((cfg1.win 2).blk t).view.emb (ix3 (0 : Fin 1) b (0 : Fin 1)) = (ix3 (⟨t.val / 16, by have := t_lt t; omega⟩ : Fin 2) b (0 : Fin 1) : S2x256x1.Idx) := by
  obtain ⟨-, -, -, -, e0, e1, e2, -⟩ := idx1 t
  funext a; apply Fin.ext
  match a with
  | ⟨0, _⟩ => show win1_2.index t (0 : Fin 3) * 1 + 1 * 0 = t.val / 16; omega
  | ⟨1, _⟩ => show win1_2.index t (1 : Fin 3) * 256 + 1 * b.val = b.val; omega
  | ⟨2, _⟩ => show win1_2.index t (2 : Fin 3) * 1 + 1 * 0 = 0; omega
theorem emb1_3 (t : Fin cfg1.N) (b : Fin 256) :
    ((cfg1.win 3).blk t).view.emb (ix3 (0 : Fin 1) b (0 : Fin 1)) = (ix3 (⟨t.val / 16, by have := t_lt t; omega⟩ : Fin 2) b (0 : Fin 1) : S2x256x1.Idx) := by
  obtain ⟨-, -, -, -, -, -, -, e0, e1, e2⟩ := idx1 t
  funext a; apply Fin.ext
  match a with
  | ⟨0, _⟩ => show win1_3.index t (0 : Fin 3) * 1 + 1 * 0 = t.val / 16; omega
  | ⟨1, _⟩ => show win1_3.index t (1 : Fin 3) * 256 + 1 * b.val = b.val; omega
  | ⟨2, _⟩ => show win1_3.index t (2 : Fin 3) * 1 + 1 * 0 = 0; omega

/-- The query window's block is the whole array of normalised query rows; the queue window's block at point t is
    the queue's rows from 2048 t on. -/
theorem iblk1_0 (c : Dev nD) (t : Fin cfg1.N) : iblk1 V c 0 t = V c main_v1_0 :=
  funext fun y => congrArg (V c main_v1_0) (emb1_0 t y)
theorem iblk1_1 (c : Dev nD) (t : Fin cfg1.N) (j : Fin 2048) (d : Fin 768) :
    iblk1 V c 1 t (ix2 j d) = V c main_v0 (ix2 (⟨t.val * 2048 + j.val, by have := t_lt t; omega⟩ : Fin 65536) d) :=
  congrArg (V c main_v0) (emb1_1 t j d)

/-- Every index of a [1,256,1] block, and of a [2,256,1] array, by its coordinates as literal-size indices. -/
theorem eq_ix3_1b1 (y : S1x256x1.Idx) : y = ix3 (0 : Fin 1) (⟨(y 1).val, (y 1).isLt⟩ : Fin 256) (0 : Fin 1) := by
  funext a; apply Fin.ext
  match a with
  | ⟨0, _⟩ => show (y 0).val = 0; have : (y 0).val < 1 := (y 0).isLt; omega
  | ⟨1, _⟩ => rfl
  | ⟨2, _⟩ => show (y 2).val = 0; have : (y 2).val < 1 := (y 2).isLt; omega
theorem eq_ix3_hb1 (i : S2x256x1.Idx) : i = ix3 (⟨(i 0).val, (i 0).isLt⟩ : Fin 2) (⟨(i 1).val, (i 1).isLt⟩ : Fin 256) (0 : Fin 1) := by
  funext a; apply Fin.ext
  match a with
  | ⟨0, _⟩ => rfl
  | ⟨1, _⟩ => rfl
  | ⟨2, _⟩ => show (i 2).val = 0; have : (i 2).val < 1 := (i 2).isLt; omega

/-- The accumulation does not depend on how the position's bound is proved, nor on how the position is spelt. -/
theorem outsAt1_congr (c : Dev nD) {n n' : ℕ} (e : n = n') (h : n < cfg1.N) (h' : n' < cfg1.N) :
    outsAt1 V c n h = outsAt1 V c n' h' := by subst e; rfl

theorem last_lt (h : Fin 2) : 16 * h.val + 15 < cfg1.N := by
  have := h.isLt; rw [show cfg1.N = 32 from N_1]; omega

/-- What each output array holds after the region: slab h from the last point of half h. -/
def Gout2 (c : Dev nD) : S2x256x1.Idx → Elt F .f32 := fun i =>
  (outsAt1 V c (16 * (i 0).val + 15) (last_lt ⟨(i 0).val, (i 0).isLt⟩)).1 (ix3 (0 : Fin 1) (⟨(i 1).val, (i 1).isLt⟩ : Fin 256) (0 : Fin 1))
def Gout3 (c : Dev nD) : S2x256x1.Idx → Elt F .f32 := fun i =>
  (outsAt1 V c (16 * (i 0).val + 15) (last_lt ⟨(i 0).val, (i 0).isLt⟩)).2.1 (ix3 (0 : Fin 1) (⟨(i 1).val, (i 1).isLt⟩ : Fin 256) (0 : Fin 1))

theorem Gout2_apply (c : Dev nD) (h : Fin 2) (b : Fin 256) :
    Gout2 V c (ix3 h b (0 : Fin 1)) = (outsAt1 V c (16 * h.val + 15) (last_lt h)).1 (ix3 (0 : Fin 1) b (0 : Fin 1)) := rfl
theorem Gout3_apply (c : Dev nD) (h : Fin 2) (b : Fin 256) :
    Gout3 V c (ix3 h b (0 : Fin 1)) = (outsAt1 V c (16 * h.val + 15) (last_lt h)).2.1 (ix3 (0 : Fin 1) b (0 : Fin 1)) := rfl

theorem flushed1_2 (c : Dev nD) (t : Fin cfg1.N) (hf : (cfg1.win 2).flush t = true) :
    (dat1 V c).flushed 2 t = ((cfg1.win 2).blk t).view.read (Elt F) (Gout2 V c) := by
  have h15 : t.val % 16 = 15 := (flush1_2 t).mp hf
  have ht := t_lt t
  show (cfg1.win 2).cut (grid1.coords t) ((dat1 V c).after 2 t) = _
  rw [after1_2]
  funext y
  obtain ⟨b, rfl⟩ : ∃ b : Fin 256, y = ix3 (0 : Fin 1) b (0 : Fin 1) := ⟨_, eq_ix3_1b1 y⟩
  show (outsAt1 V c t.val t.isLt).1 (ix3 (0 : Fin 1) b (0 : Fin 1)) = Gout2 V c (((cfg1.win 2).blk t).view.emb (ix3 (0 : Fin 1) b (0 : Fin 1)))
  rw [emb1_2 t b, Gout2_apply]
  exact congrArg (fun o : Outs1 (F := F) => o.1 (ix3 (0 : Fin 1) b (0 : Fin 1))) (outsAt1_congr V c (show t.val = 16 * (t.val / 16) + 15 by omega) _ _)
theorem flushed1_3 (c : Dev nD) (t : Fin cfg1.N) (hf : (cfg1.win 3).flush t = true) :
    (dat1 V c).flushed 3 t = ((cfg1.win 3).blk t).view.read (Elt F) (Gout3 V c) := by
  have h15 : t.val % 16 = 15 := (flush1_3 t).mp hf
  have ht := t_lt t
  show (cfg1.win 3).cut (grid1.coords t) ((dat1 V c).after 3 t) = _
  rw [after1_3]
  funext y
  obtain ⟨b, rfl⟩ : ∃ b : Fin 256, y = ix3 (0 : Fin 1) b (0 : Fin 1) := ⟨_, eq_ix3_1b1 y⟩
  show (outsAt1 V c t.val t.isLt).2.1 (ix3 (0 : Fin 1) b (0 : Fin 1)) = Gout3 V c (((cfg1.win 3).blk t).view.emb (ix3 (0 : Fin 1) b (0 : Fin 1)))
  rw [emb1_3 t b, Gout3_apply]
  exact congrArg (fun o : Outs1 (F := F) => o.2.1 (ix3 (0 : Fin 1) b (0 : Fin 1))) (outsAt1_congr V c (show t.val = 16 * (t.val / 16) + 15 by omega) _ _)

/-- The last points of the two halves cover each output array. -/
theorem cover1_2 (i : S2x256x1.Idx) : ∃ t : Fin cfg1.N, (cfg1.win 2).flush t = true ∧ i ∈ ((cfg1.win 2).blk t).view.set := by
  obtain ⟨h, b, rfl⟩ : ∃ (h : Fin 2) (b : Fin 256), i = ix3 h b (0 : Fin 1) := ⟨_, _, eq_ix3_hb1 i⟩
  have hh := h.isLt
  refine ⟨⟨16 * h.val + 15, last_lt h⟩, (flush1_2 _).mpr (by show (16 * h.val + 15) % 16 = 15; omega), ?_⟩
  have e : (ix3 h b (0 : Fin 1) : S2x256x1.Idx) = ix3 (⟨(16 * h.val + 15) / 16, by omega⟩ : Fin 2) b (0 : Fin 1) := by
    congr 1; apply Fin.ext; show h.val = (16 * h.val + 15) / 16; omega
  rw [e]
  exact (emb1_2 ⟨16 * h.val + 15, last_lt h⟩ b) ▸ ((cfg1.win 2).blk ⟨16 * h.val + 15, last_lt h⟩).view.emb_mem_set (ix3 (0 : Fin 1) b (0 : Fin 1))
theorem cover1_3 (i : S2x256x1.Idx) : ∃ t : Fin cfg1.N, (cfg1.win 3).flush t = true ∧ i ∈ ((cfg1.win 3).blk t).view.set := by
  obtain ⟨h, b, rfl⟩ : ∃ (h : Fin 2) (b : Fin 256), i = ix3 h b (0 : Fin 1) := ⟨_, _, eq_ix3_hb1 i⟩
  have hh := h.isLt
  refine ⟨⟨16 * h.val + 15, last_lt h⟩, (flush1_3 _).mpr (by show (16 * h.val + 15) % 16 = 15; omega), ?_⟩
  have e : (ix3 h b (0 : Fin 1) : S2x256x1.Idx) = ix3 (⟨(16 * h.val + 15) / 16, by omega⟩ : Fin 2) b (0 : Fin 1) := by
    congr 1; apply Fin.ext; show h.val = (16 * h.val + 15) / 16; omega
  rw [e]
  exact (emb1_3 ⟨16 * h.val + 15, last_lt h⟩ b) ▸ ((cfg1.win 3).blk ⟨16 * h.val + 15, last_lt h⟩).view.emb_mem_set (ix3 (0 : Fin 1) b (0 : Fin 1))

/-- THE TWO ARRAYS after the second region. -/
theorem arr1_2 (c : Dev nD) : (dat1 V c).arrAt 2 cfg1.N = Gout2 V c :=
  (dat1 V c).arrAt_eq_of_cover 2 _ (fun t hf => flushed1_2 V c t hf) cover1_2
theorem arr1_3 (c : Dev nD) : (dat1 V c).arrAt 3 cfg1.N = Gout3 V c :=
  (dat1 V c).arrAt_eq_of_cover 3 _ (fun t hf => flushed1_3 V c t hf) cover1_3

end Cert.KernelIdeal.KV

end
-- ==== Proof.Spec.lean ====
/-
  The contrastive loss with a memory queue, as mathematics on the extended reals.

  Each row of the query, the keys and the flattened queue is divided by its Euclidean norm floored at a
  small positive constant; the logits of query row b are its inner products with every key row (256 of
  them, the b-th being the positive) and with every queue row (65536 of them), times a common scale; the
  loss is the mean over b of  logsumexp(logits b) - logit b b.

  Two arrangements of this number are stated here over the same positive and negative logits:
  * rowwise (refLoss): shift a whole row of 65792 logits by its maximum, exponentiate, sum, take the logarithm;
  * blockwise (kernLoss): the 256 positive logits give a (max, sum-of-exponentials) pair; the negatives
    are visited in two halves of sixteen blocks of 2048, each half folding its blocks into a running
    (max, sum) pair from (-inf, 0), rescaling the sum whenever the max grows; the three pairs are merged at
    their common maximum.
  That the two agree on finite inputs is Merge.lean.
-/
import Idealize.ShloMosaic.PureOps.Ideal

noncomputable section

namespace Cert.InfoNCE

open Idealize.ShloMosaic

/-- The floor of a row norm: the single-precision word both programs carry. -/
def eps : EReal := Ideal.ofBits .f32 0x322BCC77#32

/-- The floored Euclidean norm of a row. -/
def nrm {n : ℕ} (x : Fin n → EReal) : EReal := max (Ideal.sqrt (∑ d, x d * x d)) eps

/-- A row divided by its floored norm. -/
def unit {n : ℕ} (x : Fin n → EReal) (d : Fin n) : EReal := Ideal.div (x d) (nrm x)

/-- The inner product of two rows. -/
def dot {n : ℕ} (x y : Fin n → EReal) : EReal := ∑ d, x d * y d

/-- The common scale of the logits: the reciprocal of the temperature's single-precision value. -/
def invTemp : EReal := ((268435456 / 13421773 : ℝ) : EReal)

/-- The logit of an already normalised row u against row y. -/
def logitU {n : ℕ} (u y : Fin n → EReal) : EReal := dot u (unit y) * invTemp

/-- The logit of row x against row y. -/
def logit {n : ℕ} (x y : Fin n → EReal) : EReal := logitU (unit x) y

/-- The queue [64, 1024, 768] read as 65536 rows. -/
def flat (A : Fin 64 → Fin 1024 → Fin 768 → EReal) (r : Fin 65536) (d : Fin 768) : EReal :=
  A ⟨r.val / 1024, by omega⟩ ⟨r.val % 1024, by omega⟩ d

/-- The maximum of a finite family, from -inf. -/
def rowMax {n : ℕ} (f : Fin n → EReal) : EReal := (Finset.univ : Finset (Fin n)).fold max ⊥ f

/-- The sum of exponentials of a finite family shifted by s. -/
def sumExp {n : ℕ} (f : Fin n → EReal) (s : EReal) : EReal := ∑ j, Ideal.exp (f j - s)

section
variable (Q K : Fin 256 → Fin 768 → EReal) (Z : Fin 65536 → Fin 768 → EReal)

/-- Positive logits: query row b against key row c. -/
def pos (b c : Fin 256) : EReal := logit (Q b) (K c)
/-- Negative logits: query row b against queue row r. -/
def neg (b : Fin 256) (r : Fin 65536) : EReal := logit (Q b) (Z r)

/-- Row b of all 65792 logits: the positives, then the negatives. -/
def row (b : Fin 256) (j : Fin 65792) : EReal :=
  if h : j.val < 256 then pos Q K b ⟨j.val, h⟩ else neg Q Z b ⟨j.val - 256, by omega⟩

/-- ROWWISE: minus the mean of the log-softmax of each row at its positive. -/
def refLoss : EReal :=
  -(Ideal.div (0 + ∑ b : Fin 256,
      ((row Q K Z b ⟨b.val, by omega⟩ - rowMax (row Q K Z b))
        - Ideal.log (0 + sumExp (row Q K Z b) (rowMax (row Q K Z b))))) 256)

/-- Block t (of 32) of the negatives of row b: 2048 consecutive queue rows. -/
def negBlock (b : Fin 256) (t : ℕ) (ht : t < 32) (j : Fin 2048) : EReal :=
  neg Q Z b ⟨t * 2048 + j.val, by omega⟩

/-- One step of the running (max, sum) pair over a block of logits. -/
def step {n : ℕ} (f : Fin n → EReal) (ml : EReal × EReal) : EReal × EReal :=
  (max ml.1 (rowMax f), Ideal.exp (ml.1 - max ml.1 (rowMax f)) * ml.2 + (sumExp f (max ml.1 (rowMax f))))

/-- The running pair of half h (0 or 1) of row b after i + 1 blocks (blocks 16 h, …, 16 h + i). -/
def half (b : Fin 256) (h : ℕ) (hh : h < 2) : (i : ℕ) → i < 16 → EReal × EReal
  | 0, _ => step (negBlock Q Z b (16 * h) (by omega)) (⊥, 0)
  | i + 1, hi => step (negBlock Q Z b (16 * h + (i + 1)) (by omega)) (half b h hh i (by omega))

/-- BLOCKWISE: the three (max, sum) pairs merged at their common maximum. -/
def kernLoss : EReal :=
  Ideal.div (0 + ∑ b : Fin 256,
    (let m0 := rowMax (pos Q K b)
     let l0 := sumExp (pos Q K b) m0
     let p := ∑ c : Fin 256, (if b = c then pos Q K b c else 0)
     let h1 := half Q Z b 0 (by omega) 15 (by omega)
     let h2 := half Q Z b 1 (by omega) 15 (by omega)
     let mf := max (max m0 h1.1) h2.1
     let lf := (l0 * Ideal.exp (m0 - mf) + h1.2 * Ideal.exp (h1.1 - mf)) + h2.2 * Ideal.exp (h2.1 - mf)
     ((mf + Ideal.log lf) - p))) 256

end

end Cert.InfoNCE

end
-- ==== Proof.LibKeepdims.lean ====
/-
  General lemmas: a sum along the last axis of a matrix that keeps the axis as a unit column, read at an index.

  A `keepdims` row reduction of an `[a, b]` matrix passes through three layout steps: the lane sum into `[a]`, the
  cast of `[a]` to the column `[a, 1]`, and the broadcast of the column `[a, 1]` back over `[a, b]`. Each is read
  here at an index written by its coordinates, so that it applies to a printed operation by unification:
  * `laneSum_ab_apply`: at the ideal values the f32 lane sum at row `p` is `Σ k, v (p, k)`;
  * `shapeCast_a_a1_apply`: the column's entry `(p, 0)` is the vector's entry `p`;
  * `broadcastTo_a1_ab_apply`: the broadcast's entry `(p, c)` is the column's entry `(p, 0)`.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values an f32 lane sum of an `[a, b]` matrix (a `vector.multi_reduction <add>` over axis 1 into
    `[a]`, from the sum's neutral word) is, at row `p`, the sum over the row's entries. -/
theorem laneSum_ab_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx

end
-- ==== Proof.Payload.lean ====
/-
  The two kernels' arithmetic read at an index, at the ideal values.

  The preparation kernel divides each query and key row by its floored Euclidean norm, multiplies the normalised
  queries with the transposed normalised keys and scales: entry (b, c) is the positive logit of query row b against
  key row c. From that matrix it takes, row by row, the diagonal entry (a sum against the indicator of b = c), the
  maximum, and the sum of exponentials shifted by the maximum. The streaming kernel normalises a block of 2048 queue
  rows, forms the logits of the already normalised queries against them, and advances a running (max, sum) pair by
  one step: the new maximum, the old sum rescaled to it plus the block's sum of exponentials shifted by it.

  Each statement is first proved for arrays of any extents `[a, n]`, `[m, n]`, with every index written by its
  coordinates, and then read off the generated payloads by unification.
-/
import proofs.«156728_j4595615006903_2_alg».proof.Proof.Gen.KernelIdeal.Skeleton
import proofs.«156728_j4595615006903_2_alg».proof.Proof.Spec
import proofs.«156728_j4595615006903_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

set_option synthInstance.maxSize 4096

noncomputable section

namespace Cert.KernelIdeal.Pay

open Cert.KernelIdeal Cert.KernelIdeal.Gen Cert.InfoNCE Idealize.ShloMosaic Idealize.ShloMosaic.ValueIdx
open scoped BigOperators

/-- The rows of a rank-2 array, each a function of the column. -/
abbrev rows {n0 n1 : Nat} (x : (⟨2, ![n0, n1]⟩ : Shape).Idx → EReal) : Fin n0 → Fin n1 → EReal :=
  fun b d => x (ix2 b d)

/-- The named scale of the logits is the specification's. -/
theorem named_invTemp :
    Named.named (F := Ideal) Cert.KernelIdeal.κ "inv_temp" (φ := .f32) 0x41A00000#32 = invTemp :=
  IdealRules.named_const.ideal_named_scalar _ _ _ _ rfl

/-- The column of floored row norms of an [a, n] array: the lane sum of squares, kept as a unit column, its square
    root, floored at the constant. -/
theorem normCol_apply {a n : ℕ} (x : FVec Ideal ⟨2, ![a, n]⟩ .f32)
    (hr : (⟨2, ![a, n]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    maximumf (sqrt (shapeCast ⟨2, ![a, 1]⟩ (multiReduction .add [1] ⟨1, ![a]⟩ (mulf x x) 0x00000000#32 hr hφ hacc) hc))
        (broadcast ⟨2, ![a, 1]⟩ (Scalar.ofBits .f32 0x322BCC77#32)) (ix2 p u)
      = nrm (fun d => x (ix2 p d)) := by
  show max (Ideal.sqrt (shapeCast ⟨2, ![a, 1]⟩ _ hc (ix2 p u))) (Ideal.ofBits .f32 0x322BCC77#32) = _
  rw [shapeCast_a_a1_apply, laneSum_ab_apply]
  rfl

/-- A row of an [a, n] array divided by its floored norm, as the kernels compute it. -/
theorem unitRows_apply {a n : ℕ} (x : FVec Ideal ⟨2, ![a, n]⟩ .f32)
    (hr : (⟨2, ![a, n]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩)
    (hb : (⟨2, ![a, 1]⟩ : Shape).Broadcasts ⟨2, ![a, n]⟩) (p : Fin a) (d : Fin n) :
    divf x (broadcastTo ⟨2, ![a, n]⟩
        (maximumf (sqrt (shapeCast ⟨2, ![a, 1]⟩ (multiReduction .add [1] ⟨1, ![a]⟩ (mulf x x) 0x00000000#32 hr hφ hacc) hc))
          (broadcast ⟨2, ![a, 1]⟩ (Scalar.ofBits .f32 0x322BCC77#32))) hb) (ix2 p d)
      = unit (fun d => x (ix2 p d)) d := by
  show Ideal.div (x (ix2 p d)) (broadcastTo ⟨2, ![a, n]⟩ _ hb (ix2 p d)) = _
  rw [broadcastTo_a1_ab_apply, normCol_apply]
  rfl

theorem pay1_apply (x0 : Vec Ideal S256x768 .f32) (b : Fin 256) (d : Fin 768) :
    k0_pay1 x0 (ix2 b d) = unit (rows x0 b) d := by
  unfold k0_pay1
  exact unitRows_apply x0 _ _ _ _ _ b d

/-- A plain [M, K] by [K, N] product into the zero accumulator, read at (p, q): the sum over the contracted
    coordinate. -/
theorem matmul_plain_apply {M K N : ℕ} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => rfl)
  rw [el, er]

/-- The scaled products of the rows of a normalised [a, n] array with the rows of a raw [m, n] array, each of the
    latter divided by its floored norm and the array transposed into the product: at (p, q) the logit of row p
    against row q. -/
theorem logits_apply {a m n : ℕ} (u : FVec Ideal ⟨2, ![a, n]⟩ .bf16) (y : FVec Ideal ⟨2, ![m, n]⟩ .f32)
    (hr : (⟨2, ![m, n]⟩ : Shape).Reduces [1] ⟨1, ![m]⟩) (hφ : FKind.Formats .f32)
    (hacc : (0x00000000#32 : BitVec 32) = FKind.add.neutral .f32 hφ)
    (hc : (⟨1, ![m]⟩ : Shape).ShapeCasts ⟨2, ![m, 1]⟩)
    (hb : (⟨2, ![m, 1]⟩ : Shape).Broadcasts ⟨2, ![m, n]⟩)
    (hlt : FTy.bits .bf16 < FTy.bits .f32)
    (ht : (⟨2, ![m, n]⟩ : Shape).Transposes [1, 0] ⟨2, ![n, m]⟩) (p : Fin a) (q : Fin m) :
    mulf (matmul (DotDims.plain a n m) none u
          (transpose ⟨2, ![n, m]⟩ [1, 0]
            (truncf .bf16 (divf y (broadcastTo ⟨2, ![m, n]⟩
              (maximumf (sqrt (shapeCast ⟨2, ![m, 1]⟩ (multiReduction .add [1] ⟨1, ![m]⟩ (mulf y y) 0x00000000#32 hr hφ hacc) hc))
                (broadcast ⟨2, ![m, 1]⟩ (Scalar.ofBits .f32 0x322BCC77#32))) hb)) hlt) ht)
          (constant ⟨2, ![a, m]⟩ .f32 0x00000000#32))
        (broadcast ⟨2, ![a, m]⟩ (Named.named (F := Ideal) κ "inv_temp" (φ := .f32) 0x41A00000#32)) (ix2 p q)
      = logitU (fun d => u (ix2 p d)) (fun d => y (ix2 q d)) := by
  show FloatOps.matmul (DotDims.plain a n m) none u _ (constant ⟨2, ![a, m]⟩ .f32 0x00000000#32) (ix2 p q)
      * Named.named (F := Ideal) κ "inv_temp" (φ := .f32) 0x41A00000#32 = _
  rw [matmul_plain_apply, named_invTemp]
  refine congrArg (· * invTemp) (Finset.sum_congr rfl fun d _ => ?_)
  rw [transpose_ix2_apply]
  exact congrArg (_ * ·) (unitRows_apply y _ _ _ _ _ q d)

theorem pay2_apply (x0 x1 : Vec Ideal S256x768 .f32) (b c : Fin 256) :
    k0_pay2 x0 x1 (ix2 b c) = pos (rows x0) (rows x1) b c := by
  unfold k0_pay2
  refine (logits_apply (k0_pay1 x0) x1 _ _ _ _ _ _ _ b c).trans ?_
  exact congrArg (fun u => logitU u (rows x1 c)) (funext fun d => pay1_apply x0 b d)

theorem pay6_apply (v3 : Vec Ideal S256x768 .bf16) (v5 : Vec Ideal S2048x768 .f32) (b : Fin 256) (j : Fin 2048) :
    k1_pay6 v3 v5 (ix2 b j) = logitU (fun d => v3 (ix2 b d)) (fun d => v5 (ix2 j d)) := by
  unfold k1_pay6
  rw [shapeCast_self v3, shapeCast_self v5]
  exact logits_apply v3 v5 _ _ _ _ _ _ _ b j

/-- A lane sum kept as a unit column, read at (p, u): the sum of row p. -/
theorem sumCol_apply {a n : ℕ} (v : FVec Ideal ⟨2, ![a, n]⟩ .f32)
    (hr : (⟨2, ![a, n]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ v 0x00000000#32 hr hφ hacc) hc (ix2 p u)
      = ∑ k : Fin n, v (ix2 p k) := by
  rw [shapeCast_a_a1_apply, laneSum_ab_apply]

/-- The single-precision word of minus infinity denotes the bottom of the extended reals. -/
theorem ofBits_negInf_f32 : Ideal.ofBits .f32 0xFF800000#32 = ⊥ := by
  simp [Ideal.ofBits, Ideal.ieee]

/-- A lane maximum from minus infinity kept as a unit column, read at (p, u): the maximum of row p. -/
theorem maxCol_apply {a n : ℕ} (v : FVec Ideal ⟨2, ![a, n]⟩ .f32)
    (hr : (⟨2, ![a, n]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (multiReduction .maximumf [1] ⟨1, ![a]⟩ v 0xFF800000#32 hr hφ hacc) hc (ix2 p u)
      = rowMax (fun k : Fin n => v (ix2 p k)) := by
  rw [shapeCast_a_a1_apply]
  refine (Ideal.multiReduction_maximumf_single v _ hr hφ hacc (ix1 p)).trans ?_
  show (Finset.univ : Finset (Fin n)).fold max (Ideal.ofBits .f32 0xFF800000#32) _ = (Finset.univ : Finset (Fin n)).fold max ⊥ _
  rw [ofBits_negInf_f32]
  refine congrArg (fun f => Finset.fold max ⊥ f (Finset.univ : Finset (Fin n))) (funext fun k => congrArg v (funext fun ax => Fin.ext (by
    match ax with
    | ⟨0, _⟩ => rfl
    | ⟨1, _⟩ => rfl)))

/-- The lane sum, kept as a unit column, of the exponentials of an [a, n] array shifted row by row by a column:
    at (p, u) the sum of exponentials of row p shifted by the column's entry in row p. -/
theorem expSumCol_apply {a n : ℕ} (S : FVec Ideal ⟨2, ![a, n]⟩ .f32) (M : FVec Ideal ⟨2, ![a, 1]⟩ .f32)
    (hb : (⟨2, ![a, 1]⟩ : Shape).Broadcasts ⟨2, ![a, n]⟩)
    (hr : (⟨2, ![a, n]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩
        (exp (subf S (broadcastTo ⟨2, ![a, n]⟩ M hb))) 0x00000000#32 hr hφ hacc) hc (ix2 p u)
      = sumExp (fun k : Fin n => S (ix2 p k)) (M (ix2 p (0 : Fin 1))) := by
  rw [sumCol_apply]
  refine Finset.sum_congr rfl fun k _ => ?_
  show Ideal.exp (S (ix2 p k) - broadcastTo ⟨2, ![a, n]⟩ M hb (ix2 p k)) = _
  rw [broadcastTo_a1_ab_apply]

/-- A select on "the two coordinates agree" is the `if` on their equality. -/
theorem select_eq_coords {α : Type} (b c : Fin 256) (A B : α) :
    Scalar.select (IntOp.cmpi .eq (BitVec.ofNat 32 b.val) (BitVec.ofNat 32 c.val)) A B = if b = c then A else B := by
  show (if BitVec.ofBool (BitVec.ofNat 32 b.val == BitVec.ofNat 32 c.val) = 1#1 then A else B) = _
  by_cases h : b = c
  · subst h
    rw [beq_self_eq_true, if_pos rfl]
    exact if_pos (by decide)
  · have hne : BitVec.ofNat 32 b.val ≠ BitVec.ofNat 32 c.val := by
      intro he
      have hb := b.isLt
      have hc := c.isLt
      have := congrArg BitVec.toNat he
      simp only [BitVec.toNat_ofNat] at this
      exact h (Fin.ext (by omega))
    rw [beq_eq_false_iff_ne.mpr hne, if_neg (by decide), if_neg h]

theorem pay3_apply (x0 x1 : Vec Ideal S256x768 .f32) (b : Fin 256) :
    k0_pay3 x0 x1 (ix2 b 0) = ∑ c : Fin 256, (if b = c then pos (rows x0) (rows x1) b c else 0) := by
  unfold k0_pay3
  refine (sumCol_apply _ _ _ _ _ b 0).trans ?_
  refine Finset.sum_congr rfl fun c _ => ?_
  show Scalar.select (IntOp.cmpi .eq (iota .tc S256x256 32 [0] iota_S256x256_d0_w32 (ix2 b c))
      (iota .tc S256x256 32 [1] iota_S256x256_d1_w32 (ix2 b c))) (k0_pay2 x0 x1 (ix2 b c)) (Ideal.ofBits .f32 0x00000000#32) = _
  rw [iota_single_apply, iota_single_apply, pay2_apply, Ideal.ofBits_zero_f32]
  exact select_eq_coords b c _ _

theorem pay4_apply (x0 x1 : Vec Ideal S256x768 .f32) (b : Fin 256) :
    k0_pay4 x0 x1 (ix2 b 0) = rowMax (pos (rows x0) (rows x1) b) := by
  unfold k0_pay4
  refine (maxCol_apply _ _ _ _ _ b 0).trans ?_
  exact congrArg rowMax (funext fun c => pay2_apply x0 x1 b c)

theorem pay5_apply (x0 x1 : Vec Ideal S256x768 .f32) (b : Fin 256) :
    k0_pay5 x0 x1 (ix2 b 0)
      = sumExp (pos (rows x0) (rows x1) b) (rowMax (pos (rows x0) (rows x1) b)) := by
  unfold k0_pay5
  refine (expSumCol_apply _ _ _ _ _ _ _ b 0).trans ?_
  rw [pay4_apply]
  exact congrArg (fun f => sumExp f _) (funext fun c => pay2_apply x0 x1 b c)

theorem pay7_apply (v3 : Vec Ideal S256x768 .bf16) (v5 : Vec Ideal S2048x768 .f32) (v20 : Vec Ideal S256x1 .f32) (b : Fin 256) :
    k1_pay7 v3 v5 v20 (ix2 b 0)
      = max (v20 (ix2 b 0)) (rowMax (fun j : Fin 2048 => logitU (fun d => v3 (ix2 b d)) (fun d => v5 (ix2 j d)))) := by
  unfold k1_pay7
  refine (maximumf_apply v20 _ (ix2 b 0)).trans ?_
  exact congrArg (max (v20 (ix2 b 0))) ((maxCol_apply _ _ _ _ _ b 0).trans
    (congrArg rowMax (funext fun j => pay6_apply v3 v5 b j)))

theorem pay8_apply (v3 : Vec Ideal S256x768 .bf16) (v5 : Vec Ideal S2048x768 .f32) (v20 v21 : Vec Ideal S256x1 .f32) (b : Fin 256) :
    k1_pay8 v3 v5 v20 v21 (ix2 b 0)
      = Ideal.exp (v20 (ix2 b 0) - k1_pay7 v3 v5 v20 (ix2 b 0)) * v21 (ix2 b 0)
        + sumExp (fun j : Fin 2048 => logitU (fun d => v3 (ix2 b d)) (fun d => v5 (ix2 j d))) (k1_pay7 v3 v5 v20 (ix2 b 0)) := by
  unfold k1_pay8
  show Ideal.exp (v20 (ix2 b 0) - k1_pay7 v3 v5 v20 (ix2 b 0)) * v21 (ix2 b 0)
      + shapeCast S256x1 _ shapeCasts_S256_S256x1 (ix2 b 0) = _
  exact congrArg (Ideal.exp (v20 (ix2 b 0) - k1_pay7 v3 v5 v20 (ix2 b 0)) * v21 (ix2 b 0) + ·)
    ((expSumCol_apply _ _ _ _ _ _ _ b 0).trans
      (congrArg (fun f => sumExp f (k1_pay7 v3 v5 v20 (ix2 b 0))) (funext fun j => pay6_apply v3 v5 b j)))

theorem pay78_apply (v3 : Vec Ideal S256x768 .bf16) (v5 : Vec Ideal S2048x768 .f32) (v20 v21 : Vec Ideal S256x1 .f32) (b : Fin 256) :
    (k1_pay7 v3 v5 v20 (ix2 b 0), k1_pay8 v3 v5 v20 v21 (ix2 b 0))
      = step (fun j : Fin 2048 => logitU (fun d => v3 (ix2 b d)) (fun d => v5 (ix2 j d))) (v20 (ix2 b 0), v21 (ix2 b 0)) := by
  refine Prod.ext ?_ ?_
  · exact pay7_apply v3 v5 v20 b
  · show k1_pay8 v3 v5 v20 v21 (ix2 b 0) = _
    rw [pay8_apply, pay7_apply]
    rfl

theorem pay9_eq (v3 : Vec Ideal S256x768 .bf16) (v5 : Vec Ideal S2048x768 .f32) (v20 : Vec Ideal S256x1 .f32) :
    k1_pay9 v3 v5 v20 = k1_pay7 v3 v5 v20 := by
  unfold k1_pay9
  exact shapeCast_self _ _

theorem pay1_eq (v : FVec Ideal S256x1 .f32) : k1_pay1 v = v := by
  unfold k1_pay1
  exact shapeCast_self _ _

theorem pay4_apply' (i : S256x1.Idx) : k1_pay4 (F := Ideal) i = ⊥ := by
  unfold k1_pay4
  rw [shapeCast_self]
  exact ofBits_negInf_f32

theorem pay5_apply' (i : S256x1.Idx) : k1_pay5 (F := Ideal) i = 0 := by
  unfold k1_pay5
  rw [shapeCast_self]
  exact Ideal.ofBits_zero_f32

theorem pay2_apply' (v : Vec Ideal S256x1 .f32) (b : Fin 256) :
    k1_pay2 v (ix3 (0 : Fin 1) b (0 : Fin 1)) = v (ix2 b 0) := by
  unfold k1_pay2
  exact shapeCast_ab_1ab_apply v _ 0 b 0

theorem pay3_apply' (v : Vec Ideal S256x1 .f32) (b : Fin 256) :
    k1_pay3 v (ix3 (0 : Fin 1) b (0 : Fin 1)) = v (ix2 b 0) := by
  unfold k1_pay3
  exact shapeCast_ab_1ab_apply v _ 0 b 0

end Cert.KernelIdeal.Pay

end
-- ==== Proof.KI.KV2.lean ====
/-
  The second kernel region at the ideal values: for each query row b the running (max, sum) pair in the two scratch
  buffers after the point i of half h is the specification's pair 'half' after i + 1 blocks, by induction over the
  points; so slab h of the two output arrays holds that pair after all sixteen blocks.
  The region is entered with the normalised query rows in its first array and the flattened queue in its second.
-/
import proofs.«156728_j4595615006903_2_alg».proof.Proof.KI.KV1
import proofs.«156728_j4595615006903_2_alg».proof.Proof.Payload

set_option maxRecDepth 16384

noncomputable section

namespace Cert.KernelIdeal.KV

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

open Cert.KernelIdeal.Pay Cert.InfoNCE

variable (V : (c : Dev nD) → (b : Ref sig .tc) → Buf (Elt Ideal) ((c : Thread nD τ).loc b)) (c : Dev nD)
variable (Q : Fin 256 → Fin 768 → EReal) (Z : Fin 65536 → Fin 768 → EReal)

/-- One step from the seed, and one step from a pair, as the body computes them on any blocks whose logits are f. -/
theorem stepA (x0 : Vec Ideal S256x768 .bf16) (x1 : Vec Ideal S2048x768 .f32) (b : Fin 256) (f : Fin 2048 → EReal)
    (hf : ∀ j, logitU (fun d => x0 (ix2 b d)) (fun d => x1 (ix2 j d)) = f j) :
    (k1_pay9 x0 x1 (k1_pay4 (F := Ideal)) (ix2 b 0), k1_pay1 (k1_pay8 x0 x1 (k1_pay4 (F := Ideal)) (k1_pay5 (F := Ideal))) (ix2 b 0))
      = step f (⊥, 0) := by
  rw [pay9_eq, pay1_eq, pay78_apply, pay4_apply', pay5_apply']
  exact congrArg (fun g => step g (⊥, 0)) (funext hf)
theorem stepB (x0 : Vec Ideal S256x768 .bf16) (x1 : Vec Ideal S2048x768 .f32) (xs0 xs1 : Vec Ideal S256x1 .f32) (b : Fin 256) (f : Fin 2048 → EReal)
    (hf : ∀ j, logitU (fun d => x0 (ix2 b d)) (fun d => x1 (ix2 j d)) = f j) :
    (k1_pay9 x0 x1 xs0 (ix2 b 0), k1_pay1 (k1_pay8 x0 x1 xs0 xs1) (ix2 b 0))
      = step f (xs0 (ix2 b 0), xs1 (ix2 b 0)) := by
  rw [pay9_eq, pay1_eq, pay78_apply]
  exact congrArg (fun g => step g (xs0 (ix2 b 0), xs1 (ix2 b 0))) (funext hf)

/-- The running pair of query row b after the body at position n. -/
def ml (b : Fin 256) (n : ℕ) (hn : n < cfg1.N) : EReal × EReal :=
  ((outsAt1 V c n hn).2.2.1 (ix2 b 0), (outsAt1 V c n hn).2.2.2 (ix2 b 0))

theorem ml_congr (b : Fin 256) {n n' : ℕ} (e : n = n') (h : n < cfg1.N) (h' : n' < cfg1.N) : ml V c b n h = ml V c b n' h' := by
  subst e; rfl

theorem pos_lt (h : ℕ) (hh : h < 2) (i : ℕ) (hi : i < 16) : 16 * h + i < cfg1.N := by
  rw [show cfg1.N = 32 from N_1]; omega

section
variable (hq : ∀ b d, V c main_v1_0 (ix2 b d) = unit (Q b) d) (hz : ∀ r d, V c main_v0 (ix2 r d) = Z r d)
include hq hz

/-- The logits the body forms at point t are block t of row b's negatives. -/
theorem blk_logits (b : Fin 256) (t : Fin cfg1.N) (j : Fin 2048) :
    logitU (fun d => iblk1 V c 0 t (ix2 b d)) (fun d => iblk1 V c 1 t (ix2 j d)) = negBlock Q Z b t.val (t_lt t) j := by
  show logitU _ _ = logitU (unit (Q b)) (Z ⟨t.val * 2048 + j.val, _⟩)
  exact congrArg₂ logitU (funext fun d => (congrFun (iblk1_0 V c t) (ix2 b d)).trans (hq b d))
    (funext fun d => (iblk1_1 V c t j d).trans (hz _ d))

theorem ml_first (b : Fin 256) (t : Fin cfg1.N) (h0 : t.val % 16 = 0) :
    ml V c b t.val t.isLt = step (negBlock Q Z b t.val (t_lt t)) (⊥, 0) := by
  have h1 : ¬t.val % 16 = 15 := by omega
  unfold ml
  rw [outsAt1_A V c t h0 h1]
  unfold caseA
  dsimp only
  rw [sout1_A_0_eq, sout1_A_1_eq]
  exact stepA _ _ b _ (blk_logits V c Q Z hq hz b t)

theorem ml_next (b : Fin 256) (t : Fin cfg1.N) (h0 : ¬t.val % 16 = 0) :
    ml V c b t.val t.isLt = step (negBlock Q Z b t.val (t_lt t)) (ml V c b (t.val - 1) (Nat.lt_of_le_of_lt (Nat.sub_le _ _) t.isLt)) := by
  unfold ml
  by_cases h1 : t.val % 16 = 15
  · rw [outsAt1_C V c t h0 h1]
    unfold caseC
    dsimp only
    rw [sout1_C_0_eq, sout1_C_1_eq]
    exact stepB _ _ _ _ b _ (blk_logits V c Q Z hq hz b t)
  · rw [outsAt1_B V c t h0 h1]
    unfold caseB
    dsimp only
    rw [sout1_B_0_eq, sout1_B_1_eq]
    exact stepB _ _ _ _ b _ (blk_logits V c Q Z hq hz b t)

/-- THE INDUCTION over the points of half h. -/
theorem ml_half (b : Fin 256) (h : ℕ) (hh : h < 2) : ∀ (i : ℕ) (hi : i < 16),
    ml V c b (16 * h + i) (pos_lt h hh i hi) = half Q Z b h hh i hi
  | 0, hi => ml_first V c Q Z hq hz b ⟨16 * h + 0, pos_lt h hh 0 hi⟩ (by show (16 * h + 0) % 16 = 0; omega)
  | i + 1, hi => by
    have ih := ml_half b h hh i (by omega)
    refine (ml_next V c Q Z hq hz b ⟨16 * h + (i + 1), pos_lt h hh (i + 1) hi⟩ (by show ¬(16 * h + (i + 1)) % 16 = 0; omega)).trans ?_
    show step (negBlock Q Z b (16 * h + (i + 1)) _) (ml V c b (16 * h + (i + 1) - 1) _) = step (negBlock Q Z b (16 * h + (i + 1)) _) (half Q Z b h hh i _)
    rw [ml_congr V c b (show 16 * h + (i + 1) - 1 = 16 * h + i by omega) _ (pos_lt h hh i (by omega)), ih]

/-- Slab h of the two output arrays at row b: the pair after all sixteen blocks of half h. -/
theorem out_pair (b : Fin 256) (h : Fin 2) :
    (Gout2 V c (ix3 h b (0 : Fin 1)), Gout3 V c (ix3 h b (0 : Fin 1))) = half Q Z b h.val h.isLt 15 (by omega) := by
  have hm := ml_half V c Q Z hq hz b h.val h.isLt 15 (by omega)
  have hl : (16 * h.val + 15) % 16 = 15 := by omega
  have h0 : ¬(16 * h.val + 15) % 16 = 0 := by omega
  rw [Gout2_apply, Gout3_apply]
  unfold ml at hm
  rw [outsAt1_C V c ⟨16 * h.val + 15, last_lt h⟩ h0 hl] at hm ⊢
  unfold caseC at hm ⊢
  dsimp only at hm ⊢
  rw [sout1_C_0_eq, sout1_C_1_eq] at hm
  rw [out1_C_2_eq, out1_C_3_eq, pay2_apply', pay3_apply']
  exact hm

end

end Cert.KernelIdeal.KV

end
-- ==== Proof.Tail.lean ====
/-
  The host operations after the streaming kernel, as one function of the five arrays they read, and that function at
  its one index.

  The two [2, 256, 1] outputs hold, for each half of the queue, the running maximum and the running sum of
  exponentials of every query row. The host cuts the halves out, takes with the preparation kernel's pair the common
  maximum of the three maxima, rescales the three sums to it and adds them, and so has each row's logsumexp; it
  subtracts the positive logit, sums the 256 rows from zero and divides by 256.
-/
import proofs.«156728_j4595615006903_2_alg».proof.Proof.Gen.KernelIdeal.Launch
import proofs.«156728_j4595615006903_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option synthInstance.maxSize 4096

noncomputable section

namespace Cert.KernelIdeal.Pay

open Cert.KernelIdeal Cert.KernelIdeal.Gen Cert.InfoNCE Idealize.ShloMosaic Idealize.ShloMosaic.ValueIdx
open Idealize.ShloMosaic.StableHlo Idealize.SL.Sem
open scoped BigOperators

/-- The host operations after the streaming kernel, composed: the two halves' running pairs are cut out of the
    [2, 256, 1] outputs, the three (max, sum) pairs are merged at their common maximum, and the mean over the rows of
    logsumexp minus the positive logit is taken. -/
def tail (m0 l0 p : FVec Ideal S256x1 .f32) (mp lp : FVec Ideal S2x256x1 .f32) : FVec Ideal S_ .f32 :=
  have v3 : FVec Ideal S1x256x1 .f32 := extractStridedSlice S1x256x1 ![0, 0, 0] mp slices_S2x256x1_S1x256x1_0_0_0
  have v4 : FVec Ideal S256x1 .f32 := shapeCast S256x1 v3 shapeCasts_S1x256x1_S256x1
  have v5 : FVec Ideal S1x256x1 .f32 := extractStridedSlice S1x256x1 ![0, 0, 0] lp slices_S2x256x1_S1x256x1_0_0_0
  have v6 : FVec Ideal S256x1 .f32 := shapeCast S256x1 v5 shapeCasts_S1x256x1_S256x1
  have v7 : FVec Ideal S1x256x1 .f32 := extractStridedSlice S1x256x1 ![1, 0, 0] mp slices_S2x256x1_S1x256x1_1_0_0
  have v8 : FVec Ideal S256x1 .f32 := shapeCast S256x1 v7 shapeCasts_S1x256x1_S256x1
  have v9 : FVec Ideal S1x256x1 .f32 := extractStridedSlice S1x256x1 ![1, 0, 0] lp slices_S2x256x1_S1x256x1_1_0_0
  have v10 : FVec Ideal S256x1 .f32 := shapeCast S256x1 v9 shapeCasts_S1x256x1_S256x1
  have v11 : FVec Ideal S256x1 .f32 := maximumf m0 v4
  have v12 : FVec Ideal S256x1 .f32 := maximumf v11 v8
  have v13 : FVec Ideal S256x1 .f32 := subf m0 v12
  have v14 : FVec Ideal S256x1 .f32 := Host.exp v13
  have v15 : FVec Ideal S256x1 .f32 := mulf l0 v14
  have v16 : FVec Ideal S256x1 .f32 := subf v4 v12
  have v17 : FVec Ideal S256x1 .f32 := Host.exp v16
  have v18 : FVec Ideal S256x1 .f32 := mulf v6 v17
  have v19 : FVec Ideal S256x1 .f32 := addf v15 v18
  have v20 : FVec Ideal S256x1 .f32 := subf v8 v12
  have v21 : FVec Ideal S256x1 .f32 := Host.exp v20
  have v22 : FVec Ideal S256x1 .f32 := mulf v10 v21
  have v23 : FVec Ideal S256x1 .f32 := addf v19 v22
  have v24 : FVec Ideal S256x1 .f32 := Host.log v23
  have v25 : FVec Ideal S256x1 .f32 := addf v12 v24
  have v26 : FVec Ideal S256x1 .f32 := subf v25 p
  have cst : FVec Ideal S_ .f32 := constant (F := Ideal) S_ .f32 0x00000000#32
  have v27 : FVec Ideal S_ .f32 := Host.reduceAdd (F := Ideal) v26 cst reducesTo_S256x1_S_d0_1 h_S_
  have cst_0 : FVec Ideal S_ .f32 := constant (F := Ideal) S_ .f32 0x43800000#32
  Host.divf (F := Ideal) v27 cst_0

set_option maxRecDepth 8192 in
set_option maxHeartbeats 8000000 in
/-- What the 28 host operations leave in the result buffer, from any contents: `tail` of the five buffers they
    read. -/
theorem after_tail (V : Valuation τ sig (Elt Ideal)) :
    StableHlo.after (hostOps2 (F := Ideal)) V (Proc.devRef .tc main_v28)
      = tail (V (Proc.devRef .tc main_v1_1)) (V (Proc.devRef .tc main_v1_2)) (V (Proc.devRef .tc main_v1_3))
          (V (Proc.devRef .tc main_v2_0)) (V (Proc.devRef .tc main_v2_1)) := by
  after_results_simp
  rfl

/-- A rank-3 array cut along axis 0 from `o` reads, at `(j, c, e)`, the source at `(k, c, e)` with `k = o + j`. -/
theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (c : Fin n1) (e : Fin n2) (k : Fin n0) (hk : k.val = o + j.val) :
    extractStridedSlice ⟨3, ![m, n1, n2]⟩ ![o, 0, 0] X h (ix3 j c e) = X (ix3 k c e) :=
  extractStridedSlice_apply _ _ _ _ _ (fun ax => by
    match ax with
    | ⟨0, _⟩ => exact hk
    | ⟨1, _⟩ => exact (Nat.zero_add _).symm
    | ⟨2, _⟩ => exact (Nat.zero_add _).symm)

/-- One half of a [2, 256, 1] output as a [256, 1] column. -/
def halfCol (o : Nat) (X : FVec Ideal S2x256x1 .f32) (h : S2x256x1.Slices ![o, 0, 0] S1x256x1) : FVec Ideal S256x1 .f32 :=
  shapeCast S256x1 (extractStridedSlice S1x256x1 ![o, 0, 0] X h) shapeCasts_S1x256x1_S256x1

/-- Half `k`'s column at row b is the output's entry (k, b, 0). -/
theorem halfCol_apply (o : Nat) (X : FVec Ideal S2x256x1 .f32) (h : S2x256x1.Slices ![o, 0, 0] S1x256x1)
    (k : Fin 2) (hk : k.val = o) (b : Fin 256) (u : Fin 1) : halfCol o X h (ix2 b u) = X (ix3 k b u) := by
  unfold halfCol
  rw [shapeCast_1ab_ab_apply]
  exact slice3_axis0_apply o X h (0 : Fin 1) b u k hk

/-- The pointwise part of the tail: the three (max, sum) pairs of a row merged at their common maximum, then
    logsumexp minus the positive logit. -/
def mergeCol (m0 l0 p a1 s1 a2 s2 : FVec Ideal S256x1 .f32) : FVec Ideal S256x1 .f32 :=
  subf (addf (maximumf (maximumf m0 a1) a2)
    (Host.log (addf (addf (mulf l0 (Host.exp (subf m0 (maximumf (maximumf m0 a1) a2))))
        (mulf s1 (Host.exp (subf a1 (maximumf (maximumf m0 a1) a2)))))
      (mulf s2 (Host.exp (subf a2 (maximumf (maximumf m0 a1) a2))))))) p

theorem mergeCol_apply (m0 l0 p a1 s1 a2 s2 : FVec Ideal S256x1 .f32) (i : S256x1.Idx) :
    mergeCol m0 l0 p a1 s1 a2 s2 i
      = (let mf := max (max (m0 i) (a1 i)) (a2 i)
         let lf := (l0 i * Ideal.exp (m0 i - mf) + s1 i * Ideal.exp (a1 i - mf)) + s2 i * Ideal.exp (a2 i - mf)
         ((mf + Ideal.log lf) - p i)) := rfl

theorem tail_eq (m0 l0 p : FVec Ideal S256x1 .f32) (mp lp : FVec Ideal S2x256x1 .f32) :
    tail m0 l0 p mp lp
      = Host.divf (F := Ideal)
          (Host.reduceAdd (F := Ideal)
            (mergeCol m0 l0 p (halfCol 0 mp slices_S2x256x1_S1x256x1_0_0_0) (halfCol 0 lp slices_S2x256x1_S1x256x1_0_0_0)
              (halfCol 1 mp slices_S2x256x1_S1x256x1_1_0_0) (halfCol 1 lp slices_S2x256x1_S1x256x1_1_0_0))
            (constant (F := Ideal) S_ .f32 0x00000000#32) reducesTo_S256x1_S_d0_1 h_S_)
          (constant (F := Ideal) S_ .f32 0x43800000#32) := rfl

/-- The single-precision word of 256 denotes 256. -/
theorem ofBits_256_f32 : Ideal.ofBits .f32 0x43800000#32 = 256 := by
  simp [Ideal.ofBits, Ideal.ieee, -EReal.coe_mul]
  norm_num
  rfl

/-- The tail at its one index: the mean over the 256 rows of the merged logsumexp minus the positive logit. -/
theorem tail_apply (m0 l0 p : FVec Ideal S256x1 .f32) (mp lp : FVec Ideal S2x256x1 .f32) :
    tail m0 l0 p mp lp ix0
      = Ideal.div (0 + ∑ b : Fin 256,
          (let a0 := m0 (ix2 b 0)
           let a1 := mp (ix3 (0 : Fin 2) b 0)
           let a2 := mp (ix3 (1 : Fin 2) b 0)
           let mf := max (max a0 a1) a2
           let lf := (l0 (ix2 b 0) * Ideal.exp (a0 - mf) + lp (ix3 (0 : Fin 2) b 0) * Ideal.exp (a1 - mf))
             + lp (ix3 (1 : Fin 2) b 0) * Ideal.exp (a2 - mf)
           ((mf + Ideal.log lf) - p (ix2 b 0)))) 256 := by
  rw [tail_eq]
  show Ideal.div (Ideal.hostReduceAdd reducesTo_S256x1_S_d0_1 _ (Ideal.ofBits .f32 0x00000000#32) ix0)
    (Ideal.ofBits .f32 0x43800000#32) = _
  rw [Ideal.hostReduceAdd_total reducesTo_S256x1_S_d0_1 (fun b => b.elim0), ofBits_256_f32, Ideal.ofBits_zero_f32,
    sum_idx2]
  refine congrArg (fun s => Ideal.div (0 + s) 256) (Finset.sum_congr rfl fun b _ => ?_)
  rw [Fin.sum_univ_one, mergeCol_apply, halfCol_apply 0 mp _ 0 rfl, halfCol_apply 0 lp _ 0 rfl,
    halfCol_apply 1 mp _ 1 rfl, halfCol_apply 1 lp _ 1 rfl]

end Cert.KernelIdeal.Pay

end
-- ==== Proof.KI.KV3.lean ====
/-
  The kernel program's result at the ideal values: the blockwise loss of the specification, of the query rows, the
  key rows and the flattened queue as launched. The first region turns the query into normalised rows and the
  positives into their (max, sum, diagonal) columns; the second folds the negatives, block by block and half by
  half, into two (max, sum) pairs; the host operations after it merge the three pairs and take the mean.
-/
import proofs.«156728_j4595615006903_2_alg».proof.Proof.KI.KV0
import proofs.«156728_j4595615006903_2_alg».proof.Proof.KI.KV2
import proofs.«156728_j4595615006903_2_alg».proof.Proof.Tail

set_option maxRecDepth 16384

noncomputable section

namespace Cert.KernelIdeal.KV

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

open Cert.KernelIdeal.Pay Cert.InfoNCE

variable (m : (ℓ : Loc nD τ sig) → Buf (Elt Ideal) ℓ) (ρ : Dev nD → PrngReg)

/-- The query rows, the key rows and the queue's 65536 rows as launched on core c. -/
def Qm (c : Dev nD) : Fin 256 → Fin 768 → EReal := fun b d => m ((c : Thread nD τ).loc main_arg0) (ix2 b d)
def Km (c : Dev nD) : Fin 256 → Fin 768 → EReal := fun b d => m ((c : Thread nD τ).loc main_arg1) (ix2 b d)
def Zm (c : Dev nD) : Fin 65536 → Fin 768 → EReal := flat fun a r d => m ((c : Thread nD τ).loc main_arg2) (ix3 a r d)

theorem V1_arg0 (c : Dev nD) : V1 m ρ c main_arg0 = m ((c : Thread nD τ).loc main_arg0) := W1_of m ρ c main_arg0 (by decide)
theorem V1_arg1 (c : Dev nD) : V1 m ρ c main_arg1 = m ((c : Thread nD τ).loc main_arg1) := W1_of m ρ c main_arg1 (by decide)

/-- The reshaped queue, row by row. -/
theorem V1_v0_apply (c : Dev nD) (r : Fin 65536) (d : Fin 768) : V1 m ρ c main_v0 (ix2 r d) = Zm m c r d := by
  have e : (V1 m ρ c main_v0 : S65536x768.Idx → EReal)
      = shapeCast S65536x768 (m ((c : Thread nD τ).loc main_arg2)) shapeCasts_S64x1024x768_S65536x768 := by
    show StableHlo.after hostOps0 (W0 m ρ c) (Proc.devRef .tc main_v0) = _
    after_results; rfl
  rw [e]
  have hr := r.isLt
  refine (shapeCast_apply _ _ (ix2 r d) (ix3 (⟨r.val / 1024, by omega⟩ : Fin 64) (⟨r.val % 1024, by omega⟩ : Fin 1024) d) ?_).trans rfl
  rw [Shape.rowMajor_val_three, Shape.rowMajor_val_two]
  show ((r.val / 1024) * 1024 + r.val % 1024) * 768 + d.val = r.val * 768 + d.val
  have := Nat.div_add_mod r.val 1024
  have e2 : (r.val / 1024) * 1024 + r.val % 1024 = r.val := by omega
  rw [e2]

/-- What the second region finds in its two input arrays. -/
theorem V2_v1_0 (c : Dev nD) : V2 m ρ c main_v1_0 = k0_pay1 (m ((c : Thread nD τ).loc main_arg0)) :=
  (W2_arr m ρ c 2).trans ((arr0_2 (V1 m ρ) c).trans (by rw [V1_arg0]))
theorem V2_v0 (c : Dev nD) : V2 m ρ c main_v0 = V1 m ρ c main_v0 := W2_of_ne m ρ c main_v0 (by decide)

theorem hq (c : Dev nD) (b : Fin 256) (d : Fin 768) : V2 m ρ c main_v1_0 (ix2 b d) = unit (Qm m c b) d := by
  rw [V2_v1_0]; exact pay1_apply _ b d
theorem hz (c : Dev nD) (r : Fin 65536) (d : Fin 768) : V2 m ρ c main_v0 (ix2 r d) = Zm m c r d := by
  rw [V2_v0]; exact V1_v0_apply m ρ c r d

/-- The five arrays the last host stretch reads. -/
theorem W3_v1_1 (c : Dev nD) : W3 m ρ c (Proc.devRef .tc main_v1_1) = k0_pay4 (m ((c : Thread nD τ).loc main_arg0)) (m ((c : Thread nD τ).loc main_arg1)) :=
  (W3_of_ne m ρ c main_v1_1 (by decide)).trans ((W2_arr m ρ c 3).trans ((arr0_3 (V1 m ρ) c).trans (by rw [V1_arg0, V1_arg1])))
theorem W3_v1_2 (c : Dev nD) : W3 m ρ c (Proc.devRef .tc main_v1_2) = k0_pay5 (m ((c : Thread nD τ).loc main_arg0)) (m ((c : Thread nD τ).loc main_arg1)) :=
  (W3_of_ne m ρ c main_v1_2 (by decide)).trans ((W2_arr m ρ c 4).trans ((arr0_4 (V1 m ρ) c).trans (by rw [V1_arg0, V1_arg1])))
theorem W3_v1_3 (c : Dev nD) : W3 m ρ c (Proc.devRef .tc main_v1_3) = k0_pay3 (m ((c : Thread nD τ).loc main_arg0)) (m ((c : Thread nD τ).loc main_arg1)) :=
  (W3_of_ne m ρ c main_v1_3 (by decide)).trans ((W2_arr m ρ c 5).trans ((arr0_5 (V1 m ρ) c).trans (by rw [V1_arg0, V1_arg1])))
theorem W3_v2_0 (c : Dev nD) : W3 m ρ c (Proc.devRef .tc main_v2_0) = Gout2 (V2 m ρ) c :=
  (W3_arr m ρ c 2).trans (arr1_2 (V2 m ρ) c)
theorem W3_v2_1 (c : Dev nD) : W3 m ρ c (Proc.devRef .tc main_v2_1) = Gout3 (V2 m ρ) c :=
  (W3_arr m ρ c 3).trans (arr1_3 (V2 m ρ) c)

/-- The pair of a half does not depend on how the half's number is spelt. -/
theorem half_congr (Q : Fin 256 → Fin 768 → EReal) (Z : Fin 65536 → Fin 768 → EReal) (b : Fin 256) {h h' : ℕ} (e : h = h')
    (hh : h < 2) (hh' : h' < 2) (i : ℕ) (hi : i < 16) : half Q Z b h hh i hi = half Q Z b h' hh' i hi := by
  subst e; rfl

/-- THE RESULT: the blockwise loss. -/
theorem result (c : Dev nD) :
    W4 m ρ c (Proc.devRef .tc main_v28) = fun _ => kernLoss (Qm m c) (Km m c) (Zm m c) := by
  funext i
  rw [eq_ix0 i]
  show StableHlo.after hostOps2 (W3 m ρ c) (Proc.devRef .tc main_v28) ix0 = _
  rw [after_tail, tail_apply, W3_v1_1, W3_v1_2, W3_v1_3, W3_v2_0, W3_v2_1]
  unfold kernLoss
  refine congrArg (fun s => Ideal.div (0 + s) 256) (Finset.sum_congr rfl fun b _ => ?_)
  have p0 : (Gout2 (V2 m ρ) c (ix3 (0 : Fin 2) b (0 : Fin 1)), Gout3 (V2 m ρ) c (ix3 (0 : Fin 2) b (0 : Fin 1)))
      = half (Qm m c) (Zm m c) b 0 (by omega) 15 (by omega) :=
    (out_pair (V2 m ρ) c (Qm m c) (Zm m c) (hq m ρ c) (hz m ρ c) b (0 : Fin 2)).trans (half_congr _ _ b rfl _ _ 15 _)
  have p1 : (Gout2 (V2 m ρ) c (ix3 (1 : Fin 2) b (0 : Fin 1)), Gout3 (V2 m ρ) c (ix3 (1 : Fin 2) b (0 : Fin 1)))
      = half (Qm m c) (Zm m c) b 1 (by omega) 15 (by omega) :=
    (out_pair (V2 m ρ) c (Qm m c) (Zm m c) (hq m ρ c) (hz m ρ c) b (1 : Fin 2)).trans (half_congr _ _ b rfl _ _ 15 _)
  obtain ⟨e20, e30⟩ := Prod.ext_iff.mp p0
  obtain ⟨e21, e31⟩ := Prod.ext_iff.mp p1
  dsimp only at e20 e30 e21 e31
  dsimp only
  rw [pay4_apply, pay5_apply, pay3_apply, e20, e30, e21, e31]
  rw [show rows (m ((c : Thread nD τ).loc main_arg0)) = Qm m c from rfl, show rows (m ((c : Thread nD τ).loc main_arg1)) = Km m c from rfl]

end Cert.KernelIdeal.KV

end
-- ==== Proof.RefStages.lean ====
/-
  The fold of the reference program's 77 operations over any launch contents, computed one operation at a time:
  after each operation the buffers still to be read hold the values `val_<buffer>` of the program's arguments.
-/
import proofs.«156728_j4595615006903_2_alg».proof.Proof.RefRun
import proofs.«156728_j4595615006903_2_alg».proof.Proof.RefRead

noncomputable section

namespace Cert.ReferenceIdeal.RefValue

open Cert.ReferenceIdeal Cert.ReferenceIdeal.Gen Cert.ReferenceIdeal.RefRead Idealize.ShloMosaic Idealize.ShloMosaic.TcCoe Idealize.SL.Sem Idealize.ShloMosaic.StableHlo

variable {F : FTy → Type} [FloatOps F]

/-- Operation 39 of the line (inside the outlined log-softmax) read at its result buffer, for operands held as
    any two values: the typed references' transports are identities. -/
theorem atom39 (V : Valuation τ sig (Elt F)) (g0 : (⟨S256x65792, .f32⟩ : BufTy).Contents (Elt F)) (g1 : (⟨S_, .f32⟩ : BufTy).Contents (Elt F))
    (h0 : V (Proc.devRef .tc main_v29) = g0) (h1 : V (Proc.devRef .tc main_call0_cst) = g1) :
    (TRef.binary (TRef.of (T := ⟨S256x65792, .f32⟩) main_v29) (TRef.of (T := ⟨S_, .f32⟩) main_call0_cst) (TRef.of (T := ⟨S256, .f32⟩) main_call0_v0) (fun x v => Host.reduce FloatOps.maximumf x v reducesTo_S256x65792_S256_d1 h_S_) : HloOp τ sig (Elt F)).result V (Proc.devRef .tc main_call0_v0)
      = Host.reduce FloatOps.maximumf g0 g1 reducesTo_S256x65792_S256_d1 h_S_ := by
  rw [binary_result, h0, h1]
  simp only [cast_eq]

/-- The same at the values the operands hold in the run. -/
theorem step39 (V : Valuation τ sig (Elt F)) (x0 x1 : (⟨S256x768, .f32⟩ : BufTy).Contents (Elt F)) (x2 : (⟨S64x1024x768, .f32⟩ : BufTy).Contents (Elt F))
    (h0 : V (Proc.devRef .tc main_v29) = val_main_v29 (F := F) x0 x1 x2) (h1 : V (Proc.devRef .tc main_call0_cst) = val_main_call0_cst (F := F)) :
    (TRef.binary (TRef.of (T := ⟨S256x65792, .f32⟩) main_v29) (TRef.of (T := ⟨S_, .f32⟩) main_call0_cst) (TRef.of (T := ⟨S256, .f32⟩) main_call0_v0) (fun x v => Host.reduce FloatOps.maximumf x v reducesTo_S256x65792_S256_d1 h_S_) : HloOp τ sig (Elt F)).result V (Proc.devRef .tc main_call0_v0)
      = val_main_call0_v0 (F := F) x0 x1 x2 := by
  unfold val_main_call0_v0
  generalize val_main_v29 (F := F) x0 x1 x2 = g0 at h0 ⊢
  generalize val_main_call0_cst (F := F) = g1 at h1 ⊢
  exact atom39 V g0 g1 h0 h1

/-- Operation 42 of the line (inside the outlined log-softmax) read at its result buffer, for operands held as
    any two values: the typed references' transports are identities. -/
theorem atom42 (V : Valuation τ sig (Elt F)) (g0 : (⟨S256, .f32⟩ : BufTy).Contents (Elt F)) (g1 : (⟨S256, .f32⟩ : BufTy).Contents (Elt F))
    (h0 : V (Proc.devRef .tc main_call0_v1) = g0) (h1 : V (Proc.devRef .tc main_call0_v0) = g1) :
    (TRef.binary (TRef.of (T := ⟨S256, .f32⟩) main_call0_v1) (TRef.of (T := ⟨S256, .f32⟩) main_call0_v0) (TRef.of (T := ⟨S256, .f32⟩) main_call0_v2) maximumf : HloOp τ sig (Elt F)).result V (Proc.devRef .tc main_call0_v2)
      = maximumf g0 g1 := by
  rw [binary_result, h0, h1]
  simp only [cast_eq]

/-- The same at the values the operands hold in the run. -/
theorem step42 (V : Valuation τ sig (Elt F)) (x0 x1 : (⟨S256x768, .f32⟩ : BufTy).Contents (Elt F)) (x2 : (⟨S64x1024x768, .f32⟩ : BufTy).Contents (Elt F))
    (h0 : V (Proc.devRef .tc main_call0_v1) = val_main_call0_v1 (F := F)) (h1 : V (Proc.devRef .tc main_call0_v0) = val_main_call0_v0 (F := F) x0 x1 x2) :
    (TRef.binary (TRef.of (T := ⟨S256, .f32⟩) main_call0_v1) (TRef.of (T := ⟨S256, .f32⟩) main_call0_v0) (TRef.of (T := ⟨S256, .f32⟩) main_call0_v2) maximumf : HloOp τ sig (Elt F)).result V (Proc.devRef .tc main_call0_v2)
      = val_main_call0_v2 (F := F) x0 x1 x2 := by
  unfold val_main_call0_v2
  generalize val_main_call0_v1 (F := F) = g0 at h0 ⊢
  generalize val_main_call0_v0 (F := F) x0 x1 x2 = g1 at h1 ⊢
  exact atom42 V g0 g1 h0 h1

set_option maxRecDepth 8192 in
set_option maxHeartbeats 4000000 in
/-- Each operation writes its function of what its operands hold and leaves every other buffer; every buffer is
    written once, so when the line ends the result buffer holds the composition `val_main_v49` of the arguments. -/
theorem after_ops (V0 : Valuation τ sig (Elt F)) :
    after (ops (F := F)) V0 (Proc.devRef .tc main_v49)
      = val_main_v49 (F := F) (V0 (Proc.devRef .tc main_arg0)) (V0 (Proc.devRef .tc main_arg1)) (V0 (Proc.devRef .tc main_arg2)) := by
  obtain ⟨x0, h0_main_arg0⟩ : ∃ x0 : (⟨S256x768, .f32⟩ : BufTy).Contents (Elt F), V0 (Proc.devRef .tc main_arg0) = x0 := ⟨_, rfl⟩
  obtain ⟨x1, h0_main_arg1⟩ : ∃ x1 : (⟨S256x768, .f32⟩ : BufTy).Contents (Elt F), V0 (Proc.devRef .tc main_arg1) = x1 := ⟨_, rfl⟩
  obtain ⟨x2, h0_main_arg2⟩ : ∃ x2 : (⟨S64x1024x768, .f32⟩ : BufTy).Contents (Elt F), V0 (Proc.devRef .tc main_arg2) = x2 := ⟨_, rfl⟩
  rw [h0_main_arg0, h0_main_arg1, h0_main_arg2]
  unfold ops
  -- 0: binary main_arg0 main_arg0 -> main_v0
  rw [after_cons]
  generalize hW : HloOp.result _ V0 = V1
  have h1_main_v0 : V1 (Proc.devRef .tc main_v0) = val_main_v0 (F := F) x0 := by
    rw [← hW, binary_result, h0_main_arg0] <;> rfl
  have h1_main_arg0 : V1 (Proc.devRef .tc main_arg0) = x0 := by
    rw [← hW, binary_result_ne]
    · exact h0_main_arg0
    · decide
  have h1_main_arg1 : V1 (Proc.devRef .tc main_arg1) = x1 := by
    rw [← hW, binary_result_ne]
    · exact h0_main_arg1
    · decide
  have h1_main_arg2 : V1 (Proc.devRef .tc main_arg2) = x2 := by
    rw [← hW, binary_result_ne]
    · exact h0_main_arg2
    · decide
  clear hW h0_main_arg0 h0_main_arg1 h0_main_arg2
  clear V0
  -- 1: nullary  -> main_cst
  rw [after_cons]
  generalize hW : HloOp.result _ V1 = V2
  have h2_main_cst : V2 (Proc.devRef .tc main_cst) = val_main_cst (F := F) := by
    rw [← hW, nullary_result] <;> rfl
  have h2_main_arg0 : V2 (Proc.devRef .tc main_arg0) = x0 := by
    rw [← hW, nullary_result_ne]
    · exact h1_main_arg0
    · decide
  have h2_main_arg1 : V2 (Proc.devRef .tc main_arg1) = x1 := by
    rw [← hW, nullary_result_ne]
    · exact h1_main_arg1
    · decide
  have h2_main_arg2 : V2 (Proc.devRef .tc main_arg2) = x2 := by
    rw [← hW, nullary_result_ne]
    · exact h1_main_arg2
    · decide
  have h2_main_v0 : V2 (Proc.devRef .tc main_v0) = val_main_v0 (F := F) x0 := by
    rw [← hW, nullary_result_ne]
    · exact h1_main_v0
    · decide
  clear hW h1_main_arg0 h1_main_arg1 h1_main_arg2 h1_main_v0
  clear V1
  -- 2: binary main_v0 main_cst -> main_v1
  rw [after_cons]
  generalize hW : HloOp.result _ V2 = V3
  have h3_main_v1 : V3 (Proc.devRef .tc main_v1) = val_main_v1 (F := F) x0 := by
    rw [← hW, binary_result, h2_main_v0, h2_main_cst] <;> rfl
  have h3_main_arg0 : V3 (Proc.devRef .tc main_arg0) = x0 := by
    rw [← hW, binary_result_ne]
    · exact h2_main_arg0
    · decide
  have h3_main_arg1 : V3 (Proc.devRef .tc main_arg1) = x1 := by
    rw [← hW, binary_result_ne]
    · exact h2_main_arg1
    · decide
  have h3_main_arg2 : V3 (Proc.devRef .tc main_arg2) = x2 := by
    rw [← hW, binary_result_ne]
    · exact h2_main_arg2
    · decide
  clear hW h2_main_arg0 h2_main_arg1 h2_main_arg2 h2_main_v0 h2_main_cst
  clear V2
  -- 3: unary main_v1 -> main_v2
  rw [after_cons]
  generalize hW : HloOp.result _ V3 = V4
  have h4_main_v2 : V4 (Proc.devRef .tc main_v2) = val_main_v2 (F := F) x0 := by
    rw [← hW, unary_result, h3_main_v1] <;> rfl
  have h4_main_arg0 : V4 (Proc.devRef .tc main_arg0) = x0 := by
    rw [← hW, unary_result_ne]
    · exact h3_main_arg0
    · decide
  have h4_main_arg1 : V4 (Proc.devRef .tc main_arg1) = x1 := by
    rw [← hW, unary_result_ne]
    · exact h3_main_arg1
    · decide
  have h4_main_arg2 : V4 (Proc.devRef .tc main_arg2) = x2 := by
    rw [← hW, unary_result_ne]
    · exact h3_main_arg2
    · decide
  clear hW h3_main_arg0 h3_main_arg1 h3_main_arg2 h3_main_v1
  clear V3
  -- 4: unary main_v2 -> main_v3
  rw [after_cons]
  generalize hW : HloOp.result _ V4 = V5
  have h5_main_v3 : V5 (Proc.devRef .tc main_v3) = val_main_v3 (F := F) x0 := by
    rw [← hW, unary_result, h4_main_v2] <;> rfl
  have h5_main_arg0 : V5 (Proc.devRef .tc main_arg0) = x0 := by
    rw [← hW, unary_result_ne]
    · exact h4_main_arg0
    · decide
  have h5_main_arg1 : V5 (Proc.devRef .tc main_arg1) = x1 := by
    rw [← hW, unary_result_ne]
    · exact h4_main_arg1
    · decide
  have h5_main_arg2 : V5 (Proc.devRef .tc main_arg2) = x2 := by
    rw [← hW, unary_result_ne]
    · exact h4_main_arg2
    · decide
  clear hW h4_main_arg0 h4_main_arg1 h4_main_arg2 h4_main_v2
  clear V4
  -- 5: nullary  -> main_cst_0
  rw [after_cons]
  generalize hW : HloOp.result _ V5 = V6
  have h6_main_cst_0 : V6 (Proc.devRef .tc main_cst_0) = val_main_cst_0 (F := F) := by
    rw [← hW, nullary_result] <;> rfl
  have h6_main_arg0 : V6 (Proc.devRef .tc main_arg0) = x0 := by
    rw [← hW, nullary_result_ne]
    · exact h5_main_arg0
    · decide
  have h6_main_arg1 : V6 (Proc.devRef .tc main_arg1) = x1 := by
    rw [← hW, nullary_result_ne]
    · exact h5_main_arg1
    · decide
  have h6_main_arg2 : V6 (Proc.devRef .tc main_arg2) = x2 := by
    rw [← hW, nullary_result_ne]
    · exact h5_main_arg2
    · decide
  have h6_main_v3 : V6 (Proc.devRef .tc main_v3) = val_main_v3 (F := F) x0 := by
    rw [← hW, nullary_result_ne]
    · exact h5_main_v3
    · decide
  clear hW h5_main_arg0 h5_main_arg1 h5_main_arg2 h5_main_v3
  clear V5
  -- 6: unary main_cst_0 -> main_v4
  rw [after_cons]
  generalize hW : HloOp.result _ V6 = V7
  have h7_main_v4 : V7 (Proc.devRef .tc main_v4) = val_main_v4 (F := F) := by
    rw [← hW, unary_result, h6_main_cst_0] <;> rfl
  have h7_main_arg0 : V7 (Proc.devRef .tc main_arg0) = x0 := by
    rw [← hW, unary_result_ne]
    · exact h6_main_arg0
    · decide
  have h7_main_arg1 : V7 (Proc.devRef .tc main_arg1) = x1 := by
    rw [← hW, unary_result_ne]
    · exact h6_main_arg1
    · decide
  have h7_main_arg2 : V7 (Proc.devRef .tc main_arg2) = x2 := by
    rw [← hW, unary_result_ne]
    · exact h6_main_arg2
    · decide
  have h7_main_v3 : V7 (Proc.devRef .tc main_v3) = val_main_v3 (F := F) x0 := by
    rw [← hW, unary_result_ne]
    · exact h6_main_v3
    · decide
  clear hW h6_main_arg0 h6_main_arg1 h6_main_arg2 h6_main_v3 h6_main_cst_0
  clear V6
  -- 7: binary main_v3 main_v4 -> main_v5
  rw [after_cons]
  generalize hW : HloOp.result _ V7 = V8
  have h8_main_v5 : V8 (Proc.devRef .tc main_v5) = val_main_v5 (F := F) x0 := by
    rw [← hW, binary_result, h7_main_v3, h7_main_v4] <;> rfl
  have h8_main_arg0 : V8 (Proc.devRef .tc main_arg0) = x0 := by
    rw [← hW, binary_result_ne]
    · exact h7_main_arg0
    · decide
  have h8_main_arg1 : V8 (Proc.devRef .tc main_arg1) = x1 := by
    rw [← hW, binary_result_ne]
    · exact h7_main_arg1
    · decide
  have h8_main_arg2 : V8 (Proc.devRef .tc main_arg2) = x2 := by
    rw [← hW, binary_result_ne]
    · exact h7_main_arg2
    · decide
  clear hW h7_main_arg0 h7_main_arg1 h7_main_arg2 h7_main_v3 h7_main_v4
  clear V7
  -- 8: unary main_v5 -> main_v6
  rw [after_cons]
  generalize hW : HloOp.result _ V8 = V9
  have h9_main_v6 : V9 (Proc.devRef .tc main_v6) = val_main_v6 (F := F) x0 := by
    rw [← hW, unary_result, h8_main_v5] <;> rfl
  have h9_main_arg0 : V9 (Proc.devRef .tc main_arg0) = x0 := by
    rw [← hW, unary_result_ne]
    · exact h8_main_arg0
    · decide
  have h9_main_arg1 : V9 (Proc.devRef .tc main_arg1) = x1 := by
    rw [← hW, unary_result_ne]
    · exact h8_main_arg1
    · decide
  have h9_main_arg2 : V9 (Proc.devRef .tc main_arg2) = x2 := by
    rw [← hW, unary_result_ne]
    · exact h8_main_arg2
    · decide
  clear hW h8_main_arg0 h8_main_arg1 h8_main_arg2 h8_main_v5
  clear V8
  -- 9: binary main_arg0 main_v6 -> main_v7
  rw [after_cons]
  generalize hW : HloOp.result _ V9 = V10
  have h10_main_v7 : V10 (Proc.devRef .tc main_v7) = val_main_v7 (F := F) x0 := by
    rw [← hW, binary_result, h9_main_arg0, h9_main_v6] <;> rfl
  have h10_main_arg1 : V10 (Proc.devRef .tc main_arg1) = x1 := by
    rw [← hW, binary_result_ne]
    · exact h9_main_arg1
    · decide
  have h10_main_arg2 : V10 (Proc.devRef .tc main_arg2) = x2 := by
    rw [← hW, binary_result_ne]
    · exact h9_main_arg2
    · decide
  clear hW h9_main_arg0 h9_main_arg1 h9_main_arg2 h9_main_v6
  clear V9
  -- 10: binary main_arg1 main_arg1 -> main_v8
  rw [after_cons]
  generalize hW : HloOp.result _ V10 = V11
  have h11_main_v8 : V11 (Proc.devRef .tc main_v8) = val_main_v8 (F := F) x1 := by
    rw [← hW, binary_result, h10_main_arg1] <;> rfl
  have h11_main_arg1 : V11 (Proc.devRef .tc main_arg1) = x1 := by
    rw [← hW, binary_result_ne]
    · exact h10_main_arg1
    · decide
  have h11_main_arg2 : V11 (Proc.devRef .tc main_arg2) = x2 := by
    rw [← hW, binary_result_ne]
    · exact h10_main_arg2
    · decide
  have h11_main_v7 : V11 (Proc.devRef .tc main_v7) = val_main_v7 (F := F) x0 := by
    rw [← hW, binary_result_ne]
    · exact h10_main_v7
    · decide
  clear hW h10_main_arg1 h10_main_arg2 h10_main_v7
  clear V10
  -- 11: nullary  -> main_cst_1
  rw [after_cons]
  generalize hW : HloOp.result _ V11 = V12
  have h12_main_cst_1 : V12 (Proc.devRef .tc main_cst_1) = val_main_cst_1 (F := F) := by
    rw [← hW, nullary_result] <;> rfl
  have h12_main_arg1 : V12 (Proc.devRef .tc main_arg1) = x1 := by
    rw [← hW, nullary_result_ne]
    · exact h11_main_arg1
    · decide
  have h12_main_arg2 : V12 (Proc.devRef .tc main_arg2) = x2 := by
    rw [← hW, nullary_result_ne]
    · exact h11_main_arg2
    · decide
  have h12_main_v7 : V12 (Proc.devRef .tc main_v7) = val_main_v7 (F := F) x0 := by
    rw [← hW, nullary_result_ne]
    · exact h11_main_v7
    · decide
  have h12_main_v8 : V12 (Proc.devRef .tc main_v8) = val_main_v8 (F := F) x1 := by
    rw [← hW, nullary_result_ne]
    · exact h11_main_v8
    · decide
  clear hW h11_main_arg1 h11_main_arg2 h11_main_v7 h11_main_v8
  clear V11
  -- 12: binary main_v8 main_cst_1 -> main_v9
  rw [after_cons]
  generalize hW : HloOp.result _ V12 = V13
  have h13_main_v9 : V13 (Proc.devRef .tc main_v9) = val_main_v9 (F := F) x1 := by
    rw [← hW, binary_result, h12_main_v8, h12_main_cst_1] <;> rfl
  have h13_main_arg1 : V13 (Proc.devRef .tc main_arg1) = x1 := by
    rw [← hW, binary_result_ne]
    · exact h12_main_arg1
    · decide
  have h13_main_arg2 : V13 (Proc.devRef .tc main_arg2) = x2 := by
    rw [← hW, binary_result_ne]
    · exact h12_main_arg2
    · decide
  have h13_main_v7 : V13 (Proc.devRef .tc main_v7) = val_main_v7 (F := F) x0 := by
    rw [← hW, binary_result_ne]
    · exact h12_main_v7
    · decide
  clear hW h12_main_arg1 h12_main_arg2 h12_main_v7 h12_main_v8 h12_main_cst_1
  clear V12
  -- 13: unary main_v9 -> main_v10
  rw [after_cons]
  generalize hW : HloOp.result _ V13 = V14
  have h14_main_v10 : V14 (Proc.devRef .tc main_v10) = val_main_v10 (F := F) x1 := by
    rw [← hW, unary_result, h13_main_v9] <;> rfl
  have h14_main_arg1 : V14 (Proc.devRef .tc main_arg1) = x1 := by
    rw [← hW, unary_result_ne]
    · exact h13_main_arg1
    · decide
  have h14_main_arg2 : V14 (Proc.devRef .tc main_arg2) = x2 := by
    rw [← hW, unary_result_ne]
    · exact h13_main_arg2
    · decide
  have h14_main_v7 : V14 (Proc.devRef .tc main_v7) = val_main_v7 (F := F) x0 := by
    rw [← hW, unary_result_ne]
    · exact h13_main_v7
    · decide
  clear hW h13_main_arg1 h13_main_arg2 h13_main_v7 h13_main_v9
  clear V13
  -- 14: unary main_v10 -> main_v11
  rw [after_cons]
  generalize hW : HloOp.result _ V14 = V15
  have h15_main_v11 : V15 (Proc.devRef .tc main_v11) = val_main_v11 (F := F) x1 := by
    rw [← hW, unary_result, h14_main_v10] <;> rfl
  have h15_main_arg1 : V15 (Proc.devRef .tc main_arg1) = x1 := by
    rw [← hW, unary_result_ne]
    · exact h14_main_arg1
    · decide
  have h15_main_arg2 : V15 (Proc.devRef .tc main_arg2) = x2 := by
    rw [← hW, unary_result_ne]
    · exact h14_main_arg2
    · decide
  have h15_main_v7 : V15 (Proc.devRef .tc main_v7) = val_main_v7 (F := F) x0 := by
    rw [← hW, unary_result_ne]
    · exact h14_main_v7
    · decide
  clear hW h14_main_arg1 h14_main_arg2 h14_main_v7 h14_main_v10
  clear V14
  -- 15: nullary  -> main_cst_2
  rw [after_cons]
  generalize hW : HloOp.result _ V15 = V16
  have h16_main_cst_2 : V16 (Proc.devRef .tc main_cst_2) = val_main_cst_2 (F := F) := by
    rw [← hW, nullary_result] <;> rfl
  have h16_main_arg1 : V16 (Proc.devRef .tc main_arg1) = x1 := by
    rw [← hW, nullary_result_ne]
    · exact h15_main_arg1
    · decide
  have h16_main_arg2 : V16 (Proc.devRef .tc main_arg2) = x2 := by
    rw [← hW, nullary_result_ne]
    · exact h15_main_arg2
    · decide
  have h16_main_v7 : V16 (Proc.devRef .tc main_v7) = val_main_v7 (F := F) x0 := by
    rw [← hW, nullary_result_ne]
    · exact h15_main_v7
    · decide
  have h16_main_v11 : V16 (Proc.devRef .tc main_v11) = val_main_v11 (F := F) x1 := by
    rw [← hW, nullary_result_ne]
    · exact h15_main_v11
    · decide
  clear hW h15_main_arg1 h15_main_arg2 h15_main_v7 h15_main_v11
  clear V15
  -- 16: unary main_cst_2 -> main_v12
  rw [after_cons]
  generalize hW : HloOp.result _ V16 = V17
  have h17_main_v12 : V17 (Proc.devRef .tc main_v12) = val_main_v12 (F := F) := by
    rw [← hW, unary_result, h16_main_cst_2] <;> rfl
  have h17_main_arg1 : V17 (Proc.devRef .tc main_arg1) = x1 := by
    rw [← hW, unary_result_ne]
    · exact h16_main_arg1
    · decide
  have h17_main_arg2 : V17 (Proc.devRef .tc main_arg2) = x2 := by
    rw [← hW, unary_result_ne]
    · exact h16_main_arg2
    · decide
  have h17_main_v7 : V17 (Proc.devRef .tc main_v7) = val_main_v7 (F := F) x0 := by
    rw [← hW, unary_result_ne]
    · exact h16_main_v7
    · decide
  have h17_main_v11 : V17 (Proc.devRef .tc main_v11) = val_main_v11 (F := F) x1 := by
    rw [← hW, unary_result_ne]
    · exact h16_main_v11
    · decide
  clear hW h16_main_arg1 h16_main_arg2 h16_main_v7 h16_main_v11 h16_main_cst_2
  clear V16
  -- 17: binary main_v11 main_v12 -> main_v13
  rw [after_cons]
  generalize hW : HloOp.result _ V17 = V18
  have h18_main_v13 : V18 (Proc.devRef .tc main_v13) = val_main_v13 (F := F) x1 := by
    rw [← hW, binary_result, h17_main_v11, h17_main_v12] <;> rfl
  have h18_main_arg1 : V18 (Proc.devRef .tc main_arg1) = x1 := by
    rw [← hW, binary_result_ne]
    · exact h17_main_arg1
    · decide
  have h18_main_arg2 : V18 (Proc.devRef .tc main_arg2) = x2 := by
    rw [← hW, binary_result_ne]
    · exact h17_main_arg2
    · decide
  have h18_main_v7 : V18 (Proc.devRef .tc main_v7) = val_main_v7 (F := F) x0 := by
    rw [← hW, binary_result_ne]
    · exact h17_main_v7
    · decide
  clear hW h17_main_arg1 h17_main_arg2 h17_main_v7 h17_main_v11 h17_main_v12
  clear V17
  -- 18: unary main_v13 -> main_v14
  rw [after_cons]
  generalize hW : HloOp.result _ V18 = V19
  have h19_main_v14 : V19 (Proc.devRef .tc main_v14) = val_main_v14 (F := F) x1 := by
    rw [← hW, unary_result, h18_main_v13] <;> rfl
  have h19_main_arg1 : V19 (Proc.devRef .tc main_arg1) = x1 := by
    rw [← hW, unary_result_ne]
    · exact h18_main_arg1
    · decide
  have h19_main_arg2 : V19 (Proc.devRef .tc main_arg2) = x2 := by
    rw [← hW, unary_result_ne]
    · exact h18_main_arg2
    · decide
  have h19_main_v7 : V19 (Proc.devRef .tc main_v7) = val_main_v7 (F := F) x0 := by
    rw [← hW, unary_result_ne]
    · exact h18_main_v7
    · decide
  clear hW h18_main_arg1 h18_main_arg2 h18_main_v7 h18_main_v13
  clear V18
  -- 19: binary main_arg1 main_v14 -> main_v15
  rw [after_cons]
  generalize hW : HloOp.result _ V19 = V20
  have h20_main_v15 : V20 (Proc.devRef .tc main_v15) = val_main_v15 (F := F) x1 := by
    rw [← hW, binary_result, h19_main_arg1, h19_main_v14] <;> rfl
  have h20_main_arg2 : V20 (Proc.devRef .tc main_arg2) = x2 := by
    rw [← hW, binary_result_ne]
    · exact h19_main_arg2
    · decide
  have h20_main_v7 : V20 (Proc.devRef .tc main_v7) = val_main_v7 (F := F) x0 := by
    rw [← hW, binary_result_ne]
    · exact h19_main_v7
    · decide
  clear hW h19_main_arg1 h19_main_arg2 h19_main_v7 h19_main_v14
  clear V19
  -- 20: reshape main_arg2 -> main_v16
  rw [after_cons]
  generalize hW : HloOp.result _ V20 = V21
  have h21_main_v16 : V21 (Proc.devRef .tc main_v16) = val_main_v16 (F := F) x2 := by
    rw [← hW, reshape_result, h20_main_arg2] <;> rfl
  have h21_main_v7 : V21 (Proc.devRef .tc main_v7) = val_main_v7 (F := F) x0 := by
    rw [← hW, reshape_result_ne]
    · exact h20_main_v7
    · decide
  have h21_main_v15 : V21 (Proc.devRef .tc main_v15) = val_main_v15 (F := F) x1 := by
    rw [← hW, reshape_result_ne]
    · exact h20_main_v15
    · decide
  clear hW h20_main_arg2 h20_main_v7 h20_main_v15
  clear V20
  -- 21: binary main_v16 main_v16 -> main_v17
  rw [after_cons]
  generalize hW : HloOp.result _ V21 = V22
  have h22_main_v17 : V22 (Proc.devRef .tc main_v17) = val_main_v17 (F := F) x2 := by
    rw [← hW, binary_result, h21_main_v16] <;> rfl
  have h22_main_v7 : V22 (Proc.devRef .tc main_v7) = val_main_v7 (F := F) x0 := by
    rw [← hW, binary_result_ne]
    · exact h21_main_v7
    · decide
  have h22_main_v15 : V22 (Proc.devRef .tc main_v15) = val_main_v15 (F := F) x1 := by
    rw [← hW, binary_result_ne]
    · exact h21_main_v15
    · decide
  have h22_main_v16 : V22 (Proc.devRef .tc main_v16) = val_main_v16 (F := F) x2 := by
    rw [← hW, binary_result_ne]
    · exact h21_main_v16
    · decide
  clear hW h21_main_v7 h21_main_v15 h21_main_v16
  clear V21
  -- 22: nullary  -> main_cst_3
  rw [after_cons]
  generalize hW : HloOp.result _ V22 = V23
  have h23_main_cst_3 : V23 (Proc.devRef .tc main_cst_3) = val_main_cst_3 (F := F) := by
    rw [← hW, nullary_result] <;> rfl
  have h23_main_v7 : V23 (Proc.devRef .tc main_v7) = val_main_v7 (F := F) x0 := by
    rw [← hW, nullary_result_ne]
    · exact h22_main_v7
    · decide
  have h23_main_v15 : V23 (Proc.devRef .tc main_v15) = val_main_v15 (F := F) x1 := by
    rw [← hW, nullary_result_ne]
    · exact h22_main_v15
    · decide
  have h23_main_v16 : V23 (Proc.devRef .tc main_v16) = val_main_v16 (F := F) x2 := by
    rw [← hW, nullary_result_ne]
    · exact h22_main_v16
    · decide
  have h23_main_v17 : V23 (Proc.devRef .tc main_v17) = val_main_v17 (F := F) x2 := by
    rw [← hW, nullary_result_ne]
    · exact h22_main_v17
    · decide
  clear hW h22_main_v7 h22_main_v15 h22_main_v16 h22_main_v17
  clear V22
  -- 23: binary main_v17 main_cst_3 -> main_v18
  rw [after_cons]
  generalize hW : HloOp.result _ V23 = V24
  have h24_main_v18 : V24 (Proc.devRef .tc main_v18) = val_main_v18 (F := F) x2 := by
    rw [← hW, binary_result, h23_main_v17, h23_main_cst_3] <;> rfl
  have h24_main_v7 : V24 (Proc.devRef .tc main_v7) = val_main_v7 (F := F) x0 := by
    rw [← hW, binary_result_ne]
    · exact h23_main_v7
    · decide
  have h24_main_v15 : V24 (Proc.devRef .tc main_v15) = val_main_v15 (F := F) x1 := by
    rw [← hW, binary_result_ne]
    · exact h23_main_v15
    · decide
  have h24_main_v16 : V24 (Proc.devRef .tc main_v16) = val_main_v16 (F := F) x2 := by
    rw [← hW, binary_result_ne]
    · exact h23_main_v16
    · decide
  clear hW h23_main_v7 h23_main_v15 h23_main_v16 h23_main_v17 h23_main_cst_3
  clear V23
  -- 24: unary main_v18 -> main_v19
  rw [after_cons]
  generalize hW : HloOp.result _ V24 = V25
  have h25_main_v19 : V25 (Proc.devRef .tc main_v19) = val_main_v19 (F := F) x2 := by
    rw [← hW, unary_result, h24_main_v18] <;> rfl
  have h25_main_v7 : V25 (Proc.devRef .tc main_v7) = val_main_v7 (F := F) x0 := by
    rw [← hW, unary_result_ne]
    · exact h24_main_v7
    · decide
  have h25_main_v15 : V25 (Proc.devRef .tc main_v15) = val_main_v15 (F := F) x1 := by
    rw [← hW, unary_result_ne]
    · exact h24_main_v15
    · decide
  have h25_main_v16 : V25 (Proc.devRef .tc main_v16) = val_main_v16 (F := F) x2 := by
    rw [← hW, unary_result_ne]
    · exact h24_main_v16
    · decide
  clear hW h24_main_v7 h24_main_v15 h24_main_v16 h24_main_v18
  clear V24
  -- 25: unary main_v19 -> main_v20
  rw [after_cons]
  generalize hW : HloOp.result _ V25 = V26
  have h26_main_v20 : V26 (Proc.devRef .tc main_v20) = val_main_v20 (F := F) x2 := by
    rw [← hW, unary_result, h25_main_v19] <;> rfl
  have h26_main_v7 : V26 (Proc.devRef .tc main_v7) = val_main_v7 (F := F) x0 := by
    rw [← hW, unary_result_ne]
    · exact h25_main_v7
    · decide
  have h26_main_v15 : V26 (Proc.devRef .tc main_v15) = val_main_v15 (F := F) x1 := by
    rw [← hW, unary_result_ne]
    · exact h25_main_v15
    · decide
  have h26_main_v16 : V26 (Proc.devRef .tc main_v16) = val_main_v16 (F := F) x2 := by
    rw [← hW, unary_result_ne]
    · exact h25_main_v16
    · decide
  clear hW h25_main_v7 h25_main_v15 h25_main_v16 h25_main_v19
  clear V25
  -- 26: nullary  -> main_cst_4
  rw [after_cons]
  generalize hW : HloOp.result _ V26 = V27
  have h27_main_cst_4 : V27 (Proc.devRef .tc main_cst_4) = val_main_cst_4 (F := F) := by
    rw [← hW, nullary_result] <;> rfl
  have h27_main_v7 : V27 (Proc.devRef .tc main_v7) = val_main_v7 (F := F) x0 := by
    rw [← hW, nullary_result_ne]
    · exact h26_main_v7
    · decide
  have h27_main_v15 : V27 (Proc.devRef .tc main_v15) = val_main_v15 (F := F) x1 := by
    rw [← hW, nullary_result_ne]
    · exact h26_main_v15
    · decide
  have h27_main_v16 : V27 (Proc.devRef .tc main_v16) = val_main_v16 (F := F) x2 := by
    rw [← hW, nullary_result_ne]
    · exact h26_main_v16
    · decide
  have h27_main_v20 : V27 (Proc.devRef .tc main_v20) = val_main_v20 (F := F) x2 := by
    rw [← hW, nullary_result_ne]
    · exact h26_main_v20
    · decide
  clear hW h26_main_v7 h26_main_v15 h26_main_v16 h26_main_v20
  clear V26
  -- 27: unary main_cst_4 -> main_v21
  rw [after_cons]
  generalize hW : HloOp.result _ V27 = V28
  have h28_main_v21 : V28 (Proc.devRef .tc main_v21) = val_main_v21 (F := F) := by
    rw [← hW, unary_result, h27_main_cst_4] <;> rfl
  have h28_main_v7 : V28 (Proc.devRef .tc main_v7) = val_main_v7 (F := F) x0 := by
    rw [← hW, unary_result_ne]
    · exact h27_main_v7
    · decide
  have h28_main_v15 : V28 (Proc.devRef .tc main_v15) = val_main_v15 (F := F) x1 := by
    rw [← hW, unary_result_ne]
    · exact h27_main_v15
    · decide
  have h28_main_v16 : V28 (Proc.devRef .tc main_v16) = val_main_v16 (F := F) x2 := by
    rw [← hW, unary_result_ne]
    · exact h27_main_v16
    · decide
  have h28_main_v20 : V28 (Proc.devRef .tc main_v20) = val_main_v20 (F := F) x2 := by
    rw [← hW, unary_result_ne]
    · exact h27_main_v20
    · decide
  clear hW h27_main_v7 h27_main_v15 h27_main_v16 h27_main_v20 h27_main_cst_4
  clear V27
  -- 28: binary main_v20 main_v21 -> main_v22
  rw [after_cons]
  generalize hW : HloOp.result _ V28 = V29
  have h29_main_v22 : V29 (Proc.devRef .tc main_v22) = val_main_v22 (F := F) x2 := by
    rw [← hW, binary_result, h28_main_v20, h28_main_v21] <;> rfl
  have h29_main_v7 : V29 (Proc.devRef .tc main_v7) = val_main_v7 (F := F) x0 := by
    rw [← hW, binary_result_ne]
    · exact h28_main_v7
    · decide
  have h29_main_v15 : V29 (Proc.devRef .tc main_v15) = val_main_v15 (F := F) x1 := by
    rw [← hW, binary_result_ne]
    · exact h28_main_v15
    · decide
  have h29_main_v16 : V29 (Proc.devRef .tc main_v16) = val_main_v16 (F := F) x2 := by
    rw [← hW, binary_result_ne]
    · exact h28_main_v16
    · decide
  clear hW h28_main_v7 h28_main_v15 h28_main_v16 h28_main_v20 h28_main_v21
  clear V28
  -- 29: unary main_v22 -> main_v23
  rw [after_cons]
  generalize hW : HloOp.result _ V29 = V30
  have h30_main_v23 : V30 (Proc.devRef .tc main_v23) = val_main_v23 (F := F) x2 := by
    rw [← hW, unary_result, h29_main_v22] <;> rfl
  have h30_main_v7 : V30 (Proc.devRef .tc main_v7) = val_main_v7 (F := F) x0 := by
    rw [← hW, unary_result_ne]
    · exact h29_main_v7
    · decide
  have h30_main_v15 : V30 (Proc.devRef .tc main_v15) = val_main_v15 (F := F) x1 := by
    rw [← hW, unary_result_ne]
    · exact h29_main_v15
    · decide
  have h30_main_v16 : V30 (Proc.devRef .tc main_v16) = val_main_v16 (F := F) x2 := by
    rw [← hW, unary_result_ne]
    · exact h29_main_v16
    · decide
  clear hW h29_main_v7 h29_main_v15 h29_main_v16 h29_main_v22
  clear V29
  -- 30: binary main_v16 main_v23 -> main_v24
  rw [after_cons]
  generalize hW : HloOp.result _ V30 = V31
  have h31_main_v24 : V31 (Proc.devRef .tc main_v24) = val_main_v24 (F := F) x2 := by
    rw [← hW, binary_result, h30_main_v16, h30_main_v23] <;> rfl
  have h31_main_v7 : V31 (Proc.devRef .tc main_v7) = val_main_v7 (F := F) x0 := by
    rw [← hW, binary_result_ne]
    · exact h30_main_v7
    · decide
  have h31_main_v15 : V31 (Proc.devRef .tc main_v15) = val_main_v15 (F := F) x1 := by
    rw [← hW, binary_result_ne]
    · exact h30_main_v15
    · decide
  clear hW h30_main_v7 h30_main_v15 h30_main_v16 h30_main_v23
  clear V30
  -- 31: binary main_v7 main_v15 -> main_v25
  rw [after_cons]
  generalize hW : HloOp.result _ V31 = V32
  have h32_main_v25 : V32 (Proc.devRef .tc main_v25) = val_main_v25 (F := F) x0 x1 := by
    rw [← hW, binary_result, h31_main_v7, h31_main_v15] <;> rfl
  have h32_main_v7 : V32 (Proc.devRef .tc main_v7) = val_main_v7 (F := F) x0 := by
    rw [← hW, binary_result_ne]
    · exact h31_main_v7
    · decide
  have h32_main_v24 : V32 (Proc.devRef .tc main_v24) = val_main_v24 (F := F) x2 := by
    rw [← hW, binary_result_ne]
    · exact h31_main_v24
    · decide
  clear hW h31_main_v7 h31_main_v15 h31_main_v24
  clear V31
  -- 32: binary main_v7 main_v24 -> main_v26
  rw [after_cons]
  generalize hW : HloOp.result _ V32 = V33
  have h33_main_v26 : V33 (Proc.devRef .tc main_v26) = val_main_v26 (F := F) x0 x2 := by
    rw [← hW, binary_result, h32_main_v7, h32_main_v24] <;> rfl
  have h33_main_v25 : V33 (Proc.devRef .tc main_v25) = val_main_v25 (F := F) x0 x1 := by
    rw [← hW, binary_result_ne]
    · exact h32_main_v25
    · decide
  clear hW h32_main_v7 h32_main_v24 h32_main_v25
  clear V32
  -- 33: binary main_v25 main_v26 -> main_v27
  rw [after_cons]
  generalize hW : HloOp.result _ V33 = V34
  have h34_main_v27 : V34 (Proc.devRef .tc main_v27) = val_main_v27 (F := F) x0 x1 x2 := by
    rw [← hW, binary_result, h33_main_v25, h33_main_v26] <;> rfl
  clear hW h33_main_v25 h33_main_v26
  clear V33
  -- 34: nullary  -> main_cst_5
  rw [after_cons]
  generalize hW : HloOp.result _ V34 = V35
  have h35_main_cst_5 : V35 (Proc.devRef .tc main_cst_5) = val_main_cst_5 (F := F) := by
    rw [← hW, nullary_result] <;> rfl
  have h35_main_v27 : V35 (Proc.devRef .tc main_v27) = val_main_v27 (F := F) x0 x1 x2 := by
    rw [← hW, nullary_result_ne]
    · exact h34_main_v27
    · decide
  clear hW h34_main_v27
  clear V34
  -- 35: unary main_cst_5 -> main_v28
  rw [after_cons]
  generalize hW : HloOp.result _ V35 = V36
  have h36_main_v28 : V36 (Proc.devRef .tc main_v28) = val_main_v28 (F := F) := by
    rw [← hW, unary_result, h35_main_cst_5] <;> rfl
  have h36_main_v27 : V36 (Proc.devRef .tc main_v27) = val_main_v27 (F := F) x0 x1 x2 := by
    rw [← hW, unary_result_ne]
    · exact h35_main_v27
    · decide
  clear hW h35_main_v27 h35_main_cst_5
  clear V35
  -- 36: binary main_v27 main_v28 -> main_v29
  rw [after_cons]
  generalize hW : HloOp.result _ V36 = V37
  have h37_main_v29 : V37 (Proc.devRef .tc main_v29) = val_main_v29 (F := F) x0 x1 x2 := by
    rw [← hW, binary_result, h36_main_v27, h36_main_v28] <;> rfl
  clear hW h36_main_v27 h36_main_v28
  clear V36
  -- 37: nullary  -> main_v30
  rw [after_cons]
  generalize hW : HloOp.result _ V37 = V38
  have h38_main_v30 : V38 (Proc.devRef .tc main_v30) = val_main_v30 (F := F) := by
    rw [← hW, nullary_result] <;> rfl
  have h38_main_v29 : V38 (Proc.devRef .tc main_v29) = val_main_v29 (F := F) x0 x1 x2 := by
    rw [← hW, nullary_result_ne]
    · exact h37_main_v29
    · decide
  clear hW h37_main_v29
  clear V37
  -- 38: nullary  -> main_call0_cst
  rw [after_cons]
  generalize hW : HloOp.result _ V38 = V39
  have h39_main_call0_cst : V39 (Proc.devRef .tc main_call0_cst) = val_main_call0_cst (F := F) := by
    rw [← hW, nullary_result] <;> rfl
  have h39_main_v29 : V39 (Proc.devRef .tc main_v29) = val_main_v29 (F := F) x0 x1 x2 := by
    rw [← hW, nullary_result_ne]
    · exact h38_main_v29
    · decide
  have h39_main_v30 : V39 (Proc.devRef .tc main_v30) = val_main_v30 (F := F) := by
    rw [← hW, nullary_result_ne]
    · exact h38_main_v30
    · decide
  clear hW h38_main_v29 h38_main_v30
  clear V38
  -- 39: binary main_v29 main_call0_cst -> main_call0_v0
  rw [after_cons]
  generalize hW : HloOp.result _ V39 = V40
  have h40_main_call0_v0 : V40 (Proc.devRef .tc main_call0_v0) = val_main_call0_v0 (F := F) x0 x1 x2 := by
    rw [← hW]
    exact step39 V39 x0 x1 x2 h39_main_v29 h39_main_call0_cst
  have h40_main_v29 : V40 (Proc.devRef .tc main_v29) = val_main_v29 (F := F) x0 x1 x2 := by
    rw [← hW, binary_result_ne]
    · exact h39_main_v29
    · decide
  have h40_main_v30 : V40 (Proc.devRef .tc main_v30) = val_main_v30 (F := F) := by
    rw [← hW, binary_result_ne]
    · exact h39_main_v30
    · decide
  clear hW h39_main_v29 h39_main_v30 h39_main_call0_cst
  clear V39
  -- 40: nullary  -> main_call0_cst_0
  rw [after_cons]
  generalize hW : HloOp.result _ V40 = V41
  have h41_main_call0_cst_0 : V41 (Proc.devRef .tc main_call0_cst_0) = val_main_call0_cst_0 (F := F) := by
    rw [← hW, nullary_result] <;> rfl
  have h41_main_v29 : V41 (Proc.devRef .tc main_v29) = val_main_v29 (F := F) x0 x1 x2 := by
    rw [← hW, nullary_result_ne]
    · exact h40_main_v29
    · decide
  have h41_main_v30 : V41 (Proc.devRef .tc main_v30) = val_main_v30 (F := F) := by
    rw [← hW, nullary_result_ne]
    · exact h40_main_v30
    · decide
  have h41_main_call0_v0 : V41 (Proc.devRef .tc main_call0_v0) = val_main_call0_v0 (F := F) x0 x1 x2 := by
    rw [← hW, nullary_result_ne]
    · exact h40_main_call0_v0
    · decide
  clear hW h40_main_v29 h40_main_v30 h40_main_call0_v0
  clear V40
  -- 41: unary main_call0_cst_0 -> main_call0_v1
  rw [after_cons]
  generalize hW : HloOp.result _ V41 = V42
  have h42_main_call0_v1 : V42 (Proc.devRef .tc main_call0_v1) = val_main_call0_v1 (F := F) := by
    rw [← hW, unary_result, h41_main_call0_cst_0] <;> rfl
  have h42_main_v29 : V42 (Proc.devRef .tc main_v29) = val_main_v29 (F := F) x0 x1 x2 := by
    rw [← hW, unary_result_ne]
    · exact h41_main_v29
    · decide
  have h42_main_v30 : V42 (Proc.devRef .tc main_v30) = val_main_v30 (F := F) := by
    rw [← hW, unary_result_ne]
    · exact h41_main_v30
    · decide
  have h42_main_call0_v0 : V42 (Proc.devRef .tc main_call0_v0) = val_main_call0_v0 (F := F) x0 x1 x2 := by
    rw [← hW, unary_result_ne]
    · exact h41_main_call0_v0
    · decide
  clear hW h41_main_v29 h41_main_v30 h41_main_call0_v0 h41_main_call0_cst_0
  clear V41
  -- 42: binary main_call0_v1 main_call0_v0 -> main_call0_v2
  rw [after_cons]
  generalize hW : HloOp.result _ V42 = V43
  have h43_main_call0_v2 : V43 (Proc.devRef .tc main_call0_v2) = val_main_call0_v2 (F := F) x0 x1 x2 := by
    rw [← hW]
    exact step42 V42 x0 x1 x2 h42_main_call0_v1 h42_main_call0_v0
  have h43_main_v29 : V43 (Proc.devRef .tc main_v29) = val_main_v29 (F := F) x0 x1 x2 := by
    rw [← hW, binary_result_ne]
    · exact h42_main_v29
    · decide
  have h43_main_v30 : V43 (Proc.devRef .tc main_v30) = val_main_v30 (F := F) := by
    rw [← hW, binary_result_ne]
    · exact h42_main_v30
    · decide
  clear hW h42_main_v29 h42_main_v30 h42_main_call0_v0 h42_main_call0_v1
  clear V42
  -- 43: unary main_call0_v2 -> main_call0_v3
  rw [after_cons]
  generalize hW : HloOp.result _ V43 = V44
  have h44_main_call0_v3 : V44 (Proc.devRef .tc main_call0_v3) = val_main_call0_v3 (F := F) x0 x1 x2 := by
    rw [← hW, unary_result, h43_main_call0_v2] <;> rfl
  have h44_main_v29 : V44 (Proc.devRef .tc main_v29) = val_main_v29 (F := F) x0 x1 x2 := by
    rw [← hW, unary_result_ne]
    · exact h43_main_v29
    · decide
  have h44_main_v30 : V44 (Proc.devRef .tc main_v30) = val_main_v30 (F := F) := by
    rw [← hW, unary_result_ne]
    · exact h43_main_v30
    · decide
  clear hW h43_main_v29 h43_main_v30 h43_main_call0_v2
  clear V43
  -- 44: unary main_call0_v3 -> main_call0_v4
  rw [after_cons]
  generalize hW : HloOp.result _ V44 = V45
  have h45_main_call0_v4 : V45 (Proc.devRef .tc main_call0_v4) = val_main_call0_v4 (F := F) x0 x1 x2 := by
    rw [← hW, unary_result, h44_main_call0_v3] <;> rfl
  have h45_main_v29 : V45 (Proc.devRef .tc main_v29) = val_main_v29 (F := F) x0 x1 x2 := by
    rw [← hW, unary_result_ne]
    · exact h44_main_v29
    · decide
  have h45_main_v30 : V45 (Proc.devRef .tc main_v30) = val_main_v30 (F := F) := by
    rw [← hW, unary_result_ne]
    · exact h44_main_v30
    · decide
  clear hW h44_main_v29 h44_main_v30 h44_main_call0_v3
  clear V44
  -- 45: binary main_v29 main_call0_v4 -> main_call0_v5
  rw [after_cons]
  generalize hW : HloOp.result _ V45 = V46
  have h46_main_call0_v5 : V46 (Proc.devRef .tc main_call0_v5) = val_main_call0_v5 (F := F) x0 x1 x2 := by
    rw [← hW, binary_result, h45_main_v29, h45_main_call0_v4] <;> rfl
  have h46_main_v30 : V46 (Proc.devRef .tc main_v30) = val_main_v30 (F := F) := by
    rw [← hW, binary_result_ne]
    · exact h45_main_v30
    · decide
  clear hW h45_main_v29 h45_main_v30 h45_main_call0_v4
  clear V45
  -- 46: unary main_call0_v5 -> main_call0_v6
  rw [after_cons]
  generalize hW : HloOp.result _ V46 = V47
  have h47_main_call0_v6 : V47 (Proc.devRef .tc main_call0_v6) = val_main_call0_v6 (F := F) x0 x1 x2 := by
    rw [← hW, unary_result, h46_main_call0_v5] <;> rfl
  have h47_main_v30 : V47 (Proc.devRef .tc main_v30) = val_main_v30 (F := F) := by
    rw [← hW, unary_result_ne]
    · exact h46_main_v30
    · decide
  have h47_main_call0_v5 : V47 (Proc.devRef .tc main_call0_v5) = val_main_call0_v5 (F := F) x0 x1 x2 := by
    rw [← hW, unary_result_ne]
    · exact h46_main_call0_v5
    · decide
  clear hW h46_main_v30 h46_main_call0_v5
  clear V46
  -- 47: nullary  -> main_call0_cst_1
  rw [after_cons]
  generalize hW : HloOp.result _ V47 = V48
  have h48_main_call0_cst_1 : V48 (Proc.devRef .tc main_call0_cst_1) = val_main_call0_cst_1 (F := F) := by
    rw [← hW, nullary_result] <;> rfl
  have h48_main_v30 : V48 (Proc.devRef .tc main_v30) = val_main_v30 (F := F) := by
    rw [← hW, nullary_result_ne]
    · exact h47_main_v30
    · decide
  have h48_main_call0_v5 : V48 (Proc.devRef .tc main_call0_v5) = val_main_call0_v5 (F := F) x0 x1 x2 := by
    rw [← hW, nullary_result_ne]
    · exact h47_main_call0_v5
    · decide
  have h48_main_call0_v6 : V48 (Proc.devRef .tc main_call0_v6) = val_main_call0_v6 (F := F) x0 x1 x2 := by
    rw [← hW, nullary_result_ne]
    · exact h47_main_call0_v6
    · decide
  clear hW h47_main_v30 h47_main_call0_v5 h47_main_call0_v6
  clear V47
  -- 48: binary main_call0_v6 main_call0_cst_1 -> main_call0_v7
  rw [after_cons]
  generalize hW : HloOp.result _ V48 = V49
  have h49_main_call0_v7 : V49 (Proc.devRef .tc main_call0_v7) = val_main_call0_v7 (F := F) x0 x1 x2 := by
    rw [← hW, binary_result, h48_main_call0_v6, h48_main_call0_cst_1] <;> rfl
  have h49_main_v30 : V49 (Proc.devRef .tc main_v30) = val_main_v30 (F := F) := by
    rw [← hW, binary_result_ne]
    · exact h48_main_v30
    · decide
  have h49_main_call0_v5 : V49 (Proc.devRef .tc main_call0_v5) = val_main_call0_v5 (F := F) x0 x1 x2 := by
    rw [← hW, binary_result_ne]
    · exact h48_main_call0_v5
    · decide
  clear hW h48_main_v30 h48_main_call0_v5 h48_main_call0_v6 h48_main_call0_cst_1
  clear V48
  -- 49: unary main_call0_v7 -> main_call0_v8
  rw [after_cons]
  generalize hW : HloOp.result _ V49 = V50
  have h50_main_call0_v8 : V50 (Proc.devRef .tc main_call0_v8) = val_main_call0_v8 (F := F) x0 x1 x2 := by
    rw [← hW, unary_result, h49_main_call0_v7] <;> rfl
  have h50_main_v30 : V50 (Proc.devRef .tc main_v30) = val_main_v30 (F := F) := by
    rw [← hW, unary_result_ne]
    · exact h49_main_v30
    · decide
  have h50_main_call0_v5 : V50 (Proc.devRef .tc main_call0_v5) = val_main_call0_v5 (F := F) x0 x1 x2 := by
    rw [← hW, unary_result_ne]
    · exact h49_main_call0_v5
    · decide
  clear hW h49_main_v30 h49_main_call0_v5 h49_main_call0_v7
  clear V49
  -- 50: unary main_call0_v8 -> main_call0_v9
  rw [after_cons]
  generalize hW : HloOp.result _ V50 = V51
  have h51_main_call0_v9 : V51 (Proc.devRef .tc main_call0_v9) = val_main_call0_v9 (F := F) x0 x1 x2 := by
    rw [← hW, unary_result, h50_main_call0_v8] <;> rfl
  have h51_main_v30 : V51 (Proc.devRef .tc main_v30) = val_main_v30 (F := F) := by
    rw [← hW, unary_result_ne]
    · exact h50_main_v30
    · decide
  have h51_main_call0_v5 : V51 (Proc.devRef .tc main_call0_v5) = val_main_call0_v5 (F := F) x0 x1 x2 := by
    rw [← hW, unary_result_ne]
    · exact h50_main_call0_v5
    · decide
  clear hW h50_main_v30 h50_main_call0_v5 h50_main_call0_v8
  clear V50
  -- 51: unary main_call0_v9 -> main_call0_v10
  rw [after_cons]
  generalize hW : HloOp.result _ V51 = V52
  have h52_main_call0_v10 : V52 (Proc.devRef .tc main_call0_v10) = val_main_call0_v10 (F := F) x0 x1 x2 := by
    rw [← hW, unary_result, h51_main_call0_v9] <;> rfl
  have h52_main_v30 : V52 (Proc.devRef .tc main_v30) = val_main_v30 (F := F) := by
    rw [← hW, unary_result_ne]
    · exact h51_main_v30
    · decide
  have h52_main_call0_v5 : V52 (Proc.devRef .tc main_call0_v5) = val_main_call0_v5 (F := F) x0 x1 x2 := by
    rw [← hW, unary_result_ne]
    · exact h51_main_call0_v5
    · decide
  clear hW h51_main_v30 h51_main_call0_v5 h51_main_call0_v9
  clear V51
  -- 52: binary main_call0_v5 main_call0_v10 -> main_v31
  rw [after_cons]
  generalize hW : HloOp.result _ V52 = V53
  have h53_main_v31 : V53 (Proc.devRef .tc main_v31) = val_main_v31 (F := F) x0 x1 x2 := by
    rw [← hW, binary_result, h52_main_call0_v5, h52_main_call0_v10] <;> rfl
  have h53_main_v30 : V53 (Proc.devRef .tc main_v30) = val_main_v30 (F := F) := by
    rw [← hW, binary_result_ne]
    · exact h52_main_v30
    · decide
  clear hW h52_main_v30 h52_main_call0_v5 h52_main_call0_v10
  clear V52
  -- 53: nullary  -> main_v32
  rw [after_cons]
  generalize hW : HloOp.result _ V53 = V54
  have h54_main_v32 : V54 (Proc.devRef .tc main_v32) = val_main_v32 (F := F) := by
    rw [← hW, nullary_result] <;> rfl
  have h54_main_v30 : V54 (Proc.devRef .tc main_v30) = val_main_v30 (F := F) := by
    rw [← hW, nullary_result_ne]
    · exact h53_main_v30
    · decide
  have h54_main_v31 : V54 (Proc.devRef .tc main_v31) = val_main_v31 (F := F) x0 x1 x2 := by
    rw [← hW, nullary_result_ne]
    · exact h53_main_v31
    · decide
  clear hW h53_main_v30 h53_main_v31
  clear V53
  -- 54: nullary  -> main_c
  rw [after_cons]
  generalize hW : HloOp.result _ V54 = V55
  have h55_main_c : V55 (Proc.devRef .tc main_c) = val_main_c (F := F) := by
    rw [← hW, nullary_result] <;> rfl
  have h55_main_v30 : V55 (Proc.devRef .tc main_v30) = val_main_v30 (F := F) := by
    rw [← hW, nullary_result_ne]
    · exact h54_main_v30
    · decide
  have h55_main_v31 : V55 (Proc.devRef .tc main_v31) = val_main_v31 (F := F) x0 x1 x2 := by
    rw [← hW, nullary_result_ne]
    · exact h54_main_v31
    · decide
  have h55_main_v32 : V55 (Proc.devRef .tc main_v32) = val_main_v32 (F := F) := by
    rw [← hW, nullary_result_ne]
    · exact h54_main_v32
    · decide
  clear hW h54_main_v30 h54_main_v31 h54_main_v32
  clear V54
  -- 55: unary main_c -> main_v33
  rw [after_cons]
  generalize hW : HloOp.result _ V55 = V56
  have h56_main_v33 : V56 (Proc.devRef .tc main_v33) = val_main_v33 (F := F) := by
    rw [← hW, unary_result, h55_main_c] <;> rfl
  have h56_main_v30 : V56 (Proc.devRef .tc main_v30) = val_main_v30 (F := F) := by
    rw [← hW, unary_result_ne]
    · exact h55_main_v30
    · decide
  have h56_main_v31 : V56 (Proc.devRef .tc main_v31) = val_main_v31 (F := F) x0 x1 x2 := by
    rw [← hW, unary_result_ne]
    · exact h55_main_v31
    · decide
  have h56_main_v32 : V56 (Proc.devRef .tc main_v32) = val_main_v32 (F := F) := by
    rw [← hW, unary_result_ne]
    · exact h55_main_v32
    · decide
  clear hW h55_main_v30 h55_main_v31 h55_main_v32 h55_main_c
  clear V55
  -- 56: binary main_v32 main_v33 -> main_v34
  rw [after_cons]
  generalize hW : HloOp.result _ V56 = V57
  have h57_main_v34 : V57 (Proc.devRef .tc main_v34) = val_main_v34 (F := F) := by
    rw [← hW, binary_result, h56_main_v32, h56_main_v33] <;> rfl
  have h57_main_v30 : V57 (Proc.devRef .tc main_v30) = val_main_v30 (F := F) := by
    rw [← hW, binary_result_ne]
    · exact h56_main_v30
    · decide
  have h57_main_v31 : V57 (Proc.devRef .tc main_v31) = val_main_v31 (F := F) x0 x1 x2 := by
    rw [← hW, binary_result_ne]
    · exact h56_main_v31
    · decide
  have h57_main_v32 : V57 (Proc.devRef .tc main_v32) = val_main_v32 (F := F) := by
    rw [← hW, binary_result_ne]
    · exact h56_main_v32
    · decide
  clear hW h56_main_v30 h56_main_v31 h56_main_v32 h56_main_v33
  clear V56
  -- 57: nullary  -> main_c_6
  rw [after_cons]
  generalize hW : HloOp.result _ V57 = V58
  have h58_main_c_6 : V58 (Proc.devRef .tc main_c_6) = val_main_c_6 (F := F) := by
    rw [← hW, nullary_result] <;> rfl
  have h58_main_v30 : V58 (Proc.devRef .tc main_v30) = val_main_v30 (F := F) := by
    rw [← hW, nullary_result_ne]
    · exact h57_main_v30
    · decide
  have h58_main_v31 : V58 (Proc.devRef .tc main_v31) = val_main_v31 (F := F) x0 x1 x2 := by
    rw [← hW, nullary_result_ne]
    · exact h57_main_v31
    · decide
  have h58_main_v32 : V58 (Proc.devRef .tc main_v32) = val_main_v32 (F := F) := by
    rw [← hW, nullary_result_ne]
    · exact h57_main_v32
    · decide
  have h58_main_v34 : V58 (Proc.devRef .tc main_v34) = val_main_v34 (F := F) := by
    rw [← hW, nullary_result_ne]
    · exact h57_main_v34
    · decide
  clear hW h57_main_v30 h57_main_v31 h57_main_v32 h57_main_v34
  clear V57
  -- 58: unary main_c_6 -> main_v35
  rw [after_cons]
  generalize hW : HloOp.result _ V58 = V59
  have h59_main_v35 : V59 (Proc.devRef .tc main_v35) = val_main_v35 (F := F) := by
    rw [← hW, unary_result, h58_main_c_6] <;> rfl
  have h59_main_v30 : V59 (Proc.devRef .tc main_v30) = val_main_v30 (F := F) := by
    rw [← hW, unary_result_ne]
    · exact h58_main_v30
    · decide
  have h59_main_v31 : V59 (Proc.devRef .tc main_v31) = val_main_v31 (F := F) x0 x1 x2 := by
    rw [← hW, unary_result_ne]
    · exact h58_main_v31
    · decide
  have h59_main_v32 : V59 (Proc.devRef .tc main_v32) = val_main_v32 (F := F) := by
    rw [← hW, unary_result_ne]
    · exact h58_main_v32
    · decide
  have h59_main_v34 : V59 (Proc.devRef .tc main_v34) = val_main_v34 (F := F) := by
    rw [← hW, unary_result_ne]
    · exact h58_main_v34
    · decide
  clear hW h58_main_v30 h58_main_v31 h58_main_v32 h58_main_v34 h58_main_c_6
  clear V58
  -- 59: binary main_v32 main_v35 -> main_v36
  rw [after_cons]
  generalize hW : HloOp.result _ V59 = V60
  have h60_main_v36 : V60 (Proc.devRef .tc main_v36) = val_main_v36 (F := F) := by
    rw [← hW, binary_result, h59_main_v32, h59_main_v35] <;> rfl
  have h60_main_v30 : V60 (Proc.devRef .tc main_v30) = val_main_v30 (F := F) := by
    rw [← hW, binary_result_ne]
    · exact h59_main_v30
    · decide
  have h60_main_v31 : V60 (Proc.devRef .tc main_v31) = val_main_v31 (F := F) x0 x1 x2 := by
    rw [← hW, binary_result_ne]
    · exact h59_main_v31
    · decide
  have h60_main_v32 : V60 (Proc.devRef .tc main_v32) = val_main_v32 (F := F) := by
    rw [← hW, binary_result_ne]
    · exact h59_main_v32
    · decide
  have h60_main_v34 : V60 (Proc.devRef .tc main_v34) = val_main_v34 (F := F) := by
    rw [← hW, binary_result_ne]
    · exact h59_main_v34
    · decide
  clear hW h59_main_v30 h59_main_v31 h59_main_v32 h59_main_v34 h59_main_v35
  clear V59
  -- 60: ternary main_v34 main_v36 main_v32 -> main_v37
  rw [after_cons]
  generalize hW : HloOp.result _ V60 = V61
  have h61_main_v37 : V61 (Proc.devRef .tc main_v37) = val_main_v37 (F := F) := by
    rw [← hW, ternary_result, h60_main_v34, h60_main_v36, h60_main_v32] <;> rfl
  have h61_main_v30 : V61 (Proc.devRef .tc main_v30) = val_main_v30 (F := F) := by
    rw [← hW, ternary_result_ne]
    · exact h60_main_v30
    · decide
  have h61_main_v31 : V61 (Proc.devRef .tc main_v31) = val_main_v31 (F := F) x0 x1 x2 := by
    rw [← hW, ternary_result_ne]
    · exact h60_main_v31
    · decide
  clear hW h60_main_v30 h60_main_v31 h60_main_v32 h60_main_v34 h60_main_v36
  clear V60
  -- 61: nullary  -> main_c_7
  rw [after_cons]
  generalize hW : HloOp.result _ V61 = V62
  have h62_main_c_7 : V62 (Proc.devRef .tc main_c_7) = val_main_c_7 (F := F) := by
    rw [← hW, nullary_result] <;> rfl
  have h62_main_v30 : V62 (Proc.devRef .tc main_v30) = val_main_v30 (F := F) := by
    rw [← hW, nullary_result_ne]
    · exact h61_main_v30
    · decide
  have h62_main_v31 : V62 (Proc.devRef .tc main_v31) = val_main_v31 (F := F) x0 x1 x2 := by
    rw [← hW, nullary_result_ne]
    · exact h61_main_v31
    · decide
  have h62_main_v37 : V62 (Proc.devRef .tc main_v37) = val_main_v37 (F := F) := by
    rw [← hW, nullary_result_ne]
    · exact h61_main_v37
    · decide
  clear hW h61_main_v30 h61_main_v31 h61_main_v37
  clear V61
  -- 62: unary main_c_7 -> main_v38
  rw [after_cons]
  generalize hW : HloOp.result _ V62 = V63
  have h63_main_v38 : V63 (Proc.devRef .tc main_v38) = val_main_v38 (F := F) := by
    rw [← hW, unary_result, h62_main_c_7] <;> rfl
  have h63_main_v30 : V63 (Proc.devRef .tc main_v30) = val_main_v30 (F := F) := by
    rw [← hW, unary_result_ne]
    · exact h62_main_v30
    · decide
  have h63_main_v31 : V63 (Proc.devRef .tc main_v31) = val_main_v31 (F := F) x0 x1 x2 := by
    rw [← hW, unary_result_ne]
    · exact h62_main_v31
    · decide
  have h63_main_v37 : V63 (Proc.devRef .tc main_v37) = val_main_v37 (F := F) := by
    rw [← hW, unary_result_ne]
    · exact h62_main_v37
    · decide
  clear hW h62_main_v30 h62_main_v31 h62_main_v37 h62_main_c_7
  clear V62
  -- 63: binary main_v30 main_v38 -> main_v39
  rw [after_cons]
  generalize hW : HloOp.result _ V63 = V64
  have h64_main_v39 : V64 (Proc.devRef .tc main_v39) = val_main_v39 (F := F) := by
    rw [← hW, binary_result, h63_main_v30, h63_main_v38] <;> rfl
  have h64_main_v30 : V64 (Proc.devRef .tc main_v30) = val_main_v30 (F := F) := by
    rw [← hW, binary_result_ne]
    · exact h63_main_v30
    · decide
  have h64_main_v31 : V64 (Proc.devRef .tc main_v31) = val_main_v31 (F := F) x0 x1 x2 := by
    rw [← hW, binary_result_ne]
    · exact h63_main_v31
    · decide
  have h64_main_v37 : V64 (Proc.devRef .tc main_v37) = val_main_v37 (F := F) := by
    rw [← hW, binary_result_ne]
    · exact h63_main_v37
    · decide
  clear hW h63_main_v30 h63_main_v31 h63_main_v37 h63_main_v38
  clear V63
  -- 64: nullary  -> main_c_8
  rw [after_cons]
  generalize hW : HloOp.result _ V64 = V65
  have h65_main_c_8 : V65 (Proc.devRef .tc main_c_8) = val_main_c_8 (F := F) := by
    rw [← hW, nullary_result] <;> rfl
  have h65_main_v30 : V65 (Proc.devRef .tc main_v30) = val_main_v30 (F := F) := by
    rw [← hW, nullary_result_ne]
    · exact h64_main_v30
    · decide
  have h65_main_v31 : V65 (Proc.devRef .tc main_v31) = val_main_v31 (F := F) x0 x1 x2 := by
    rw [← hW, nullary_result_ne]
    · exact h64_main_v31
    · decide
  have h65_main_v37 : V65 (Proc.devRef .tc main_v37) = val_main_v37 (F := F) := by
    rw [← hW, nullary_result_ne]
    · exact h64_main_v37
    · decide
  have h65_main_v39 : V65 (Proc.devRef .tc main_v39) = val_main_v39 (F := F) := by
    rw [← hW, nullary_result_ne]
    · exact h64_main_v39
    · decide
  clear hW h64_main_v30 h64_main_v31 h64_main_v37 h64_main_v39
  clear V64
  -- 65: unary main_c_8 -> main_v40
  rw [after_cons]
  generalize hW : HloOp.result _ V65 = V66
  have h66_main_v40 : V66 (Proc.devRef .tc main_v40) = val_main_v40 (F := F) := by
    rw [← hW, unary_result, h65_main_c_8] <;> rfl
  have h66_main_v30 : V66 (Proc.devRef .tc main_v30) = val_main_v30 (F := F) := by
    rw [← hW, unary_result_ne]
    · exact h65_main_v30
    · decide
  have h66_main_v31 : V66 (Proc.devRef .tc main_v31) = val_main_v31 (F := F) x0 x1 x2 := by
    rw [← hW, unary_result_ne]
    · exact h65_main_v31
    · decide
  have h66_main_v37 : V66 (Proc.devRef .tc main_v37) = val_main_v37 (F := F) := by
    rw [← hW, unary_result_ne]
    · exact h65_main_v37
    · decide
  have h66_main_v39 : V66 (Proc.devRef .tc main_v39) = val_main_v39 (F := F) := by
    rw [← hW, unary_result_ne]
    · exact h65_main_v39
    · decide
  clear hW h65_main_v30 h65_main_v31 h65_main_v37 h65_main_v39 h65_main_c_8
  clear V65
  -- 66: binary main_v30 main_v40 -> main_v41
  rw [after_cons]
  generalize hW : HloOp.result _ V66 = V67
  have h67_main_v41 : V67 (Proc.devRef .tc main_v41) = val_main_v41 (F := F) := by
    rw [← hW, binary_result, h66_main_v30, h66_main_v40] <;> rfl
  have h67_main_v30 : V67 (Proc.devRef .tc main_v30) = val_main_v30 (F := F) := by
    rw [← hW, binary_result_ne]
    · exact h66_main_v30
    · decide
  have h67_main_v31 : V67 (Proc.devRef .tc main_v31) = val_main_v31 (F := F) x0 x1 x2 := by
    rw [← hW, binary_result_ne]
    · exact h66_main_v31
    · decide
  have h67_main_v37 : V67 (Proc.devRef .tc main_v37) = val_main_v37 (F := F) := by
    rw [← hW, binary_result_ne]
    · exact h66_main_v37
    · decide
  have h67_main_v39 : V67 (Proc.devRef .tc main_v39) = val_main_v39 (F := F) := by
    rw [← hW, binary_result_ne]
    · exact h66_main_v39
    · decide
  clear hW h66_main_v30 h66_main_v31 h66_main_v37 h66_main_v39 h66_main_v40
  clear V66
  -- 67: ternary main_v39 main_v41 main_v30 -> main_v42
  rw [after_cons]
  generalize hW : HloOp.result _ V67 = V68
  have h68_main_v42 : V68 (Proc.devRef .tc main_v42) = val_main_v42 (F := F) := by
    rw [← hW, ternary_result, h67_main_v39, h67_main_v41, h67_main_v30] <;> rfl
  have h68_main_v31 : V68 (Proc.devRef .tc main_v31) = val_main_v31 (F := F) x0 x1 x2 := by
    rw [← hW, ternary_result_ne]
    · exact h67_main_v31
    · decide
  have h68_main_v37 : V68 (Proc.devRef .tc main_v37) = val_main_v37 (F := F) := by
    rw [← hW, ternary_result_ne]
    · exact h67_main_v37
    · decide
  clear hW h67_main_v30 h67_main_v31 h67_main_v37 h67_main_v39 h67_main_v41
  clear V67
  -- 68: unary main_v37 -> main_v43
  rw [after_cons]
  generalize hW : HloOp.result _ V68 = V69
  have h69_main_v43 : V69 (Proc.devRef .tc main_v43) = val_main_v43 (F := F) := by
    rw [← hW, unary_result, h68_main_v37] <;> rfl
  have h69_main_v31 : V69 (Proc.devRef .tc main_v31) = val_main_v31 (F := F) x0 x1 x2 := by
    rw [← hW, unary_result_ne]
    · exact h68_main_v31
    · decide
  have h69_main_v42 : V69 (Proc.devRef .tc main_v42) = val_main_v42 (F := F) := by
    rw [← hW, unary_result_ne]
    · exact h68_main_v42
    · decide
  clear hW h68_main_v31 h68_main_v37 h68_main_v42
  clear V68
  -- 69: unary main_v42 -> main_v44
  rw [after_cons]
  generalize hW : HloOp.result _ V69 = V70
  have h70_main_v44 : V70 (Proc.devRef .tc main_v44) = val_main_v44 (F := F) := by
    rw [← hW, unary_result, h69_main_v42] <;> rfl
  have h70_main_v31 : V70 (Proc.devRef .tc main_v31) = val_main_v31 (F := F) x0 x1 x2 := by
    rw [← hW, unary_result_ne]
    · exact h69_main_v31
    · decide
  have h70_main_v43 : V70 (Proc.devRef .tc main_v43) = val_main_v43 (F := F) := by
    rw [← hW, unary_result_ne]
    · exact h69_main_v43
    · decide
  clear hW h69_main_v31 h69_main_v42 h69_main_v43
  clear V69
  -- 70: binary main_v43 main_v44 -> main_v45
  rw [after_cons]
  generalize hW : HloOp.result _ V70 = V71
  have h71_main_v45 : V71 (Proc.devRef .tc main_v45) = val_main_v45 (F := F) := by
    rw [← hW, binary_result, h70_main_v43, h70_main_v44] <;> rfl
  have h71_main_v31 : V71 (Proc.devRef .tc main_v31) = val_main_v31 (F := F) x0 x1 x2 := by
    rw [← hW, binary_result_ne]
    · exact h70_main_v31
    · decide
  clear hW h70_main_v31 h70_main_v43 h70_main_v44
  clear V70
  -- 71: binary main_v31 main_v45 -> main_v46
  rw [after_cons]
  generalize hW : HloOp.result _ V71 = V72
  have h72_main_v46 : V72 (Proc.devRef .tc main_v46) = val_main_v46 (F := F) x0 x1 x2 := by
    rw [← hW, binary_result, h71_main_v31, h71_main_v45] <;> rfl
  clear hW h71_main_v31 h71_main_v45
  clear V71
  -- 72: nullary  -> main_cst_9
  rw [after_cons]
  generalize hW : HloOp.result _ V72 = V73
  have h73_main_cst_9 : V73 (Proc.devRef .tc main_cst_9) = val_main_cst_9 (F := F) := by
    rw [← hW, nullary_result] <;> rfl
  have h73_main_v46 : V73 (Proc.devRef .tc main_v46) = val_main_v46 (F := F) x0 x1 x2 := by
    rw [← hW, nullary_result_ne]
    · exact h72_main_v46
    · decide
  clear hW h72_main_v46
  clear V72
  -- 73: binary main_v46 main_cst_9 -> main_v47
  rw [after_cons]
  generalize hW : HloOp.result _ V73 = V74
  have h74_main_v47 : V74 (Proc.devRef .tc main_v47) = val_main_v47 (F := F) x0 x1 x2 := by
    rw [← hW, binary_result, h73_main_v46, h73_main_cst_9] <;> rfl
  clear hW h73_main_v46 h73_main_cst_9
  clear V73
  -- 74: nullary  -> main_cst_10
  rw [after_cons]
  generalize hW : HloOp.result _ V74 = V75
  have h75_main_cst_10 : V75 (Proc.devRef .tc main_cst_10) = val_main_cst_10 (F := F) := by
    rw [← hW, nullary_result] <;> rfl
  have h75_main_v47 : V75 (Proc.devRef .tc main_v47) = val_main_v47 (F := F) x0 x1 x2 := by
    rw [← hW, nullary_result_ne]
    · exact h74_main_v47
    · decide
  clear hW h74_main_v47
  clear V74
  -- 75: binary main_v47 main_cst_10 -> main_v48
  rw [after_cons]
  generalize hW : HloOp.result _ V75 = V76
  have h76_main_v48 : V76 (Proc.devRef .tc main_v48) = val_main_v48 (F := F) x0 x1 x2 := by
    rw [← hW, binary_result, h75_main_v47, h75_main_cst_10] <;> rfl
  clear hW h75_main_v47 h75_main_cst_10
  clear V75
  -- 76: unary main_v48 -> main_v49
  rw [after_cons]
  generalize hW : HloOp.result _ V76 = V77
  have h77_main_v49 : V77 (Proc.devRef .tc main_v49) = val_main_v49 (F := F) x0 x1 x2 := by
    rw [← hW, unary_result, h76_main_v48] <;> rfl
  clear hW h76_main_v48
  clear V76
  rw [after_nil]
  exact h77_main_v49

end Cert.ReferenceIdeal.RefValue

end
-- ==== Proof.RefLoss.lean ====
/-
  The reference program computes the rowwise contrastive loss of its arguments.

  Its 77 host operations are read one at a time. Three l2-normalisations give, at row b and column d, the row divided
  by its floored norm (`unit`); the two contractions give the inner products of normalised rows (`dot`); the
  concatenation and the division by the temperature word, which is multiplication by its reciprocal on every extended
  real, give row b of the 65792 logits (`row`); the outlined log-softmax gives, at (b, j), the logit less the row's
  maximum less the logarithm of the row's shifted sum of exponentials, the maximum being a fold from -inf and the sums
  starting from the reductions' zero initial values; the index arithmetic builds the pairs (b, b), which the gather
  reads unclamped since b is inside both extents; the last reduction, the division by the word for 256 and the negation
  are the mean and the sign. Composed with the run of the straight line of operations this is `run_ref`.
-/
import proofs.«156728_j4595615006903_2_alg».proof.Proof.RefStages
import proofs.«156728_j4595615006903_2_alg».proof.Proof.Spec

noncomputable section

namespace Cert.ReferenceIdeal.RefValue

open Cert.ReferenceIdeal Cert.ReferenceIdeal.Gen Cert.ReferenceIdeal.RefRead Idealize.ShloMosaic Idealize.ShloMosaic.TcCoe Idealize.SL.Sem Idealize.ShloMosaic.StableHlo Idealize.ShloMosaic.ValueIdx Cert.InfoNCE

/-- The first normalisation: the query row divided by its floored norm. -/
theorem v7_eq (x0 : (⟨S256x768, .f32⟩ : BufTy).Contents (Elt Ideal)) (b : Fin 256) (d : Fin 768) :
    val_main_v7 (F := Ideal) x0 (ix2 b d) = unit (fun d => x0 (ix2 b d)) d := by
  rw [val_main_v7_apply, val_main_v6_apply, val_main_v5_apply, val_main_v3_apply, val_main_v2_apply, val_main_v1_apply,
    val_main_v4_apply, val_main_cst_0_apply, val_main_cst_apply]
  simp only [val_main_v0_apply, Ideal.hostDivf_def, Ideal.maximumf_def, Ideal.hostUnary_sqrt_def, Ideal.ofBits_def, Ideal.mulf_def]
  have hidx : ∀ k, idx_main_v1 (idx_main_v2 (idx_main_v6 (ix2 b d))) k = ix2 b k := fun k =>
    funext fun a => Fin.ext (by match a with | ⟨0, _⟩ => rfl | ⟨1, _⟩ => rfl)
  simp only [hidx, Ideal.ofBits_zero_f32, zero_add]
  rfl

/-- The second normalisation: the key row divided by its floored norm. -/
theorem v15_eq (x1 : (⟨S256x768, .f32⟩ : BufTy).Contents (Elt Ideal)) (c : Fin 256) (d : Fin 768) :
    val_main_v15 (F := Ideal) x1 (ix2 c d) = unit (fun d => x1 (ix2 c d)) d := by
  rw [val_main_v15_apply, val_main_v14_apply, val_main_v13_apply, val_main_v11_apply, val_main_v10_apply, val_main_v9_apply,
    val_main_v12_apply, val_main_cst_2_apply, val_main_cst_1_apply]
  simp only [val_main_v8_apply, Ideal.hostDivf_def, Ideal.maximumf_def, Ideal.hostUnary_sqrt_def, Ideal.ofBits_def, Ideal.mulf_def]
  have hidx : ∀ k, idx_main_v9 (idx_main_v10 (idx_main_v14 (ix2 c d))) k = ix2 c k := fun k =>
    funext fun a => Fin.ext (by match a with | ⟨0, _⟩ => rfl | ⟨1, _⟩ => rfl)
  simp only [hidx, Ideal.ofBits_zero_f32, zero_add]
  rfl

/-- The queue [64, 1024, 768] as a family of extended reals. -/
abbrev queue (x2 : (⟨S64x1024x768, .f32⟩ : BufTy).Contents (Elt Ideal)) : Fin 64 → Fin 1024 → Fin 768 → EReal :=
  fun a r d => x2 (ix3 a r d)

/-- The reshape reads the queue at row r / 1024, r % 1024. -/
theorem v16_eq (x2 : (⟨S64x1024x768, .f32⟩ : BufTy).Contents (Elt Ideal)) (r : Fin 65536) (d : Fin 768) :
    val_main_v16 (F := Ideal) x2 (ix2 r d) = flat (queue x2) r d := by
  rw [val_main_v16_apply]
  have hr := r.isLt
  have hd := d.isLt
  refine congrArg x2 (funext fun a => Fin.ext ?_)
  match a with
  | ⟨0, _⟩ => show (r.val * 768 + d.val) / 786432 = r.val / 1024; omega
  | ⟨1, _⟩ => show (r.val * 768 + d.val) / 768 % 1024 = r.val % 1024; omega
  | ⟨2, _⟩ => show (r.val * 768 + d.val) % 768 = d.val; omega

/-- The third normalisation: the flattened queue's row divided by its floored norm. -/
theorem v24_eq (x2 : (⟨S64x1024x768, .f32⟩ : BufTy).Contents (Elt Ideal)) (r : Fin 65536) (d : Fin 768) :
    val_main_v24 (F := Ideal) x2 (ix2 r d) = unit (flat (queue x2) r) d := by
  rw [val_main_v24_apply, val_main_v23_apply, val_main_v22_apply, val_main_v20_apply, val_main_v19_apply, val_main_v18_apply,
    val_main_v21_apply, val_main_cst_4_apply, val_main_cst_3_apply]
  simp only [val_main_v17_apply, Ideal.hostDivf_def, Ideal.maximumf_def, Ideal.hostUnary_sqrt_def, Ideal.ofBits_def, Ideal.mulf_def]
  have hidx : ∀ k, idx_main_v18 (idx_main_v19 (idx_main_v23 (ix2 r d))) k = ix2 r k := fun k =>
    funext fun a => Fin.ext (by match a with | ⟨0, _⟩ => rfl | ⟨1, _⟩ => rfl)
  simp only [hidx, Ideal.ofBits_zero_f32, zero_add, v16_eq]
  rfl

/-- The positive inner products. -/
theorem v25_eq (x0 x1 : (⟨S256x768, .f32⟩ : BufTy).Contents (Elt Ideal)) (b c : Fin 256) :
    val_main_v25 (F := Ideal) x0 x1 (ix2 b c) = dot (unit fun d => x0 (ix2 b d)) (unit fun d => x1 (ix2 c d)) := by
  rw [val_main_v25_apply]
  unfold dot
  refine Finset.sum_congr rfl fun k _ => ?_
  have hl : lidx_main_v25 (ix2 b c) k = ix2 b k :=
    funext fun a => Fin.ext (by match a with | ⟨0, _⟩ => rfl | ⟨1, _⟩ => rfl)
  have hr : ridx_main_v25 (ix2 b c) k = ix2 c k :=
    funext fun a => Fin.ext (by match a with | ⟨0, _⟩ => rfl | ⟨1, _⟩ => rfl)
  rw [hl, hr, v7_eq, v15_eq]

/-- The negative inner products. -/
theorem v26_eq (x0 : (⟨S256x768, .f32⟩ : BufTy).Contents (Elt Ideal)) (x2 : (⟨S64x1024x768, .f32⟩ : BufTy).Contents (Elt Ideal))
    (b : Fin 256) (r : Fin 65536) :
    val_main_v26 (F := Ideal) x0 x2 (ix2 b r) = dot (unit fun d => x0 (ix2 b d)) (unit (flat (queue x2) r)) := by
  rw [val_main_v26_apply]
  unfold dot
  refine Finset.sum_congr rfl fun k _ => ?_
  have hl : lidx_main_v26 (ix2 b r) k = ix2 b k :=
    funext fun a => Fin.ext (by match a with | ⟨0, _⟩ => rfl | ⟨1, _⟩ => rfl)
  have hr : ridx_main_v26 (ix2 b r) k = ix2 r k :=
    funext fun a => Fin.ext (by match a with | ⟨0, _⟩ => rfl | ⟨1, _⟩ => rfl)
  rw [hl, hr, v7_eq, v24_eq]

/-- The concatenation along the second axis: the positives, then the negatives. -/
theorem v27_left (x0 x1 : (⟨S256x768, .f32⟩ : BufTy).Contents (Elt Ideal)) (x2 : (⟨S64x1024x768, .f32⟩ : BufTy).Contents (Elt Ideal))
    (b : Fin 256) (j : Fin 65792) (h : j.val < 256) :
    val_main_v27 (F := Ideal) x0 x1 x2 (ix2 b j) = val_main_v25 (F := Ideal) x0 x1 (ix2 b ⟨j.val, h⟩) := by
  unfold val_main_v27
  exact concatenate_pair_apply_left (s₁ := S256x256) (s₂ := S256x65536) (1 : Fin 2) _ _ _ (ix2 b j) rfl
    (ix2 b (⟨j.val, h⟩ : Fin 256)) (fun c => by match c with | ⟨0, _⟩ => rfl | ⟨1, _⟩ => rfl)

theorem v27_right (x0 x1 : (⟨S256x768, .f32⟩ : BufTy).Contents (Elt Ideal)) (x2 : (⟨S64x1024x768, .f32⟩ : BufTy).Contents (Elt Ideal))
    (b : Fin 256) (j : Fin 65792) (h : ¬ j.val < 256) :
    val_main_v27 (F := Ideal) x0 x1 x2 (ix2 b j) = val_main_v26 (F := Ideal) x0 x2 (ix2 b ⟨j.val - 256, by omega⟩) := by
  unfold val_main_v27
  exact concatenate_pair_apply_right (s₁ := S256x256) (s₂ := S256x65536) (1 : Fin 2) _ _ _ (ix2 b j) rfl rfl
    (ix2 b (⟨j.val - 256, by omega⟩ : Fin 65536))
    (fun c hc => by match c with | ⟨0, _⟩ => rfl | ⟨1, _⟩ => exact absurd rfl hc)
    (by show j.val - 256 + 256 = j.val; omega)

/-- The temperature word denotes 13421773 / 268435456. -/
theorem temp_real : Ideal.ofBits .f32 0x3D4CCCCD#32 = ((13421773 / 268435456 : ℝ) : EReal) := by
  have h1 : ((0x3D4CCCCD#32 : BitVec 32).extractLsb' 23 8).toNat = 122 := by decide
  have h2 : ((0x3D4CCCCD#32 : BitVec 32).extractLsb' (8 + 23) 1 == 1#1) = false := by decide
  have h3 : ((0x3D4CCCCD#32 : BitVec 32).extractLsb' 0 23).toNat = 5033165 := by decide
  unfold Ideal.ofBits Ideal.ieee
  simp only [h1, h2, h3]
  norm_num

/-- Dividing by the temperature word is multiplying by its reciprocal, on every extended real. -/
theorem div_temp (x : EReal) : Ideal.div x (Ideal.ofBits .f32 0x3D4CCCCD#32) = x * invTemp := by
  rw [temp_real, Ideal.div_coe (by norm_num)]
  unfold invTemp
  congr 2
  norm_num

/-- The logits: row b of the 65792 scaled inner products. -/
theorem v29_eq (x0 x1 : (⟨S256x768, .f32⟩ : BufTy).Contents (Elt Ideal)) (x2 : (⟨S64x1024x768, .f32⟩ : BufTy).Contents (Elt Ideal))
    (b : Fin 256) (j : Fin 65792) :
    val_main_v29 (F := Ideal) x0 x1 x2 (ix2 b j)
      = row (fun b d => x0 (ix2 b d)) (fun c d => x1 (ix2 c d)) (flat (queue x2)) b j := by
  rw [val_main_v29_apply, val_main_v28_apply, val_main_cst_5_apply]
  simp only [Ideal.hostDivf_def, Ideal.ofBits_def]
  rw [div_temp]
  unfold row
  by_cases h : j.val < 256
  · rw [dif_pos h, v27_left _ _ _ _ _ h, v25_eq]; rfl
  · rw [dif_neg h, v27_right _ _ _ _ _ h, v26_eq]; rfl

section Rows
variable (x0 x1 : (⟨S256x768, .f32⟩ : BufTy).Contents (Elt Ideal)) (x2 : (⟨S64x1024x768, .f32⟩ : BufTy).Contents (Elt Ideal))

/-- Row b of the logits, as the specification spells it. -/
abbrev rowOf (b : Fin 256) : Fin 65792 → EReal :=
  row (fun b d => x0 (ix2 b d)) (fun c d => x1 (ix2 c d)) (flat (queue x2)) b

/-- The word 0xFF800000 denotes -inf. -/
theorem neg_inf_word : Ideal.ofBits .f32 0xFF800000#32 = (⊥ : EReal) := by
  have h1 : ((0xFF800000#32 : BitVec 32).extractLsb' 23 8).toNat = 255 := by decide
  have h2 : ((0xFF800000#32 : BitVec 32).extractLsb' (8 + 23) 1 == 1#1) = true := by decide
  have h3 : ((0xFF800000#32 : BitVec 32).extractLsb' 0 23).toNat = 0 := by decide
  unfold Ideal.ofBits Ideal.ieee
  simp only [h1, h2, h3]
  norm_num

/-- The reduced index b with the coordinate k put back on the second axis is (b, k). -/
theorem lift_row (h : S256x65792.Reduces [1] S256) (b : Fin 256) (k : Fin (S256x65792.size 1)) :
    h.lift (ix1 b) k = ix2 b (⟨k.val, k.isLt⟩ : Fin 65792) := by
  funext c; apply Fin.ext
  fin_cases c <;> rfl

/-- The maximum-reduce over the second axis, from -inf, is the row's maximum. -/
theorem call0_v0_eq (b : Fin 256) :
    val_main_call0_v0 (F := Ideal) x0 x1 x2 (ix1 b) = rowMax (rowOf x0 x1 x2 b) := by
  have h : S256x65792.Reduces [1] S256 := by decide
  unfold val_main_call0_v0
  rw [Host.reduce_eq_fold_single FloatOps.maximumf _ _ reducesTo_S256x65792_S256_d1 h h_S_]
  have hinit : val_main_call0_cst (F := Ideal) (Shape.Idx.first h_S_) = (⊥ : EReal) := by
    rw [val_main_call0_cst_apply, Ideal.ofBits_def, neg_inf_word]
  have hf : (val_main_v29 (F := Ideal) x0 x1 x2 ∘ h.lift (ix1 b)) = rowOf x0 x1 x2 b := funext fun k => by
    show val_main_v29 (F := Ideal) x0 x1 x2 (h.lift (ix1 b) k) = _
    rw [lift_row, v29_eq]
    rfl
  rw [hinit, hf]
  rfl

/-- The maximum with the broadcast -inf changes nothing. -/
theorem call0_v2_eq (b : Fin 256) :
    val_main_call0_v2 (F := Ideal) x0 x1 x2 (ix1 b) = rowMax (rowOf x0 x1 x2 b) := by
  rw [val_main_call0_v2_apply, val_main_call0_v1_apply, val_main_call0_cst_0_apply, call0_v0_eq]
  simp only [Ideal.maximumf_def, Ideal.ofBits_def, neg_inf_word]
  exact max_eq_right bot_le

/-- The shifted logits. -/
theorem call0_v5_eq (b : Fin 256) (j : Fin 65792) :
    val_main_call0_v5 (F := Ideal) x0 x1 x2 (ix2 b j) = rowOf x0 x1 x2 b j - rowMax (rowOf x0 x1 x2 b) := by
  rw [val_main_call0_v5_apply, val_main_call0_v4_apply, val_main_call0_v3_apply, v29_eq]
  have hidx : idx_main_call0_v3 (idx_main_call0_v4 (ix2 b j)) = ix1 b :=
    funext fun a => Fin.ext (by match a with | ⟨0, _⟩ => rfl)
  rw [hidx, call0_v2_eq]
  rfl

/-- The logarithm of the row's shifted sum of exponentials. -/
theorem call0_v9_eq (i : S256x1.Idx) (b : Fin 256) (hi : idx_main_call0_v8 i = ix1 b) :
    val_main_call0_v9 (F := Ideal) x0 x1 x2 i
      = Ideal.log (0 + sumExp (rowOf x0 x1 x2 b) (rowMax (rowOf x0 x1 x2 b))) := by
  rw [val_main_call0_v9_apply, val_main_call0_v8_apply, hi, val_main_call0_v7_apply, val_main_call0_cst_1_apply]
  simp only [Ideal.hostUnary_log_def, Ideal.ofBits_def, Ideal.ofBits_zero_f32]
  unfold sumExp
  refine congrArg (fun s => Ideal.log (0 + s)) (Finset.sum_congr rfl fun k _ => ?_)
  have hk : idx_main_call0_v7 (ix1 b) k = ix2 b k :=
    funext fun a => Fin.ext (by match a with | ⟨0, _⟩ => rfl | ⟨1, _⟩ => rfl)
  rw [hk, val_main_call0_v6_apply, call0_v5_eq]
  rfl

/-- The log-softmax of row b at column j. -/
theorem v31_eq (b : Fin 256) (j : Fin 65792) :
    val_main_v31 (F := Ideal) x0 x1 x2 (ix2 b j)
      = (rowOf x0 x1 x2 b j - rowMax (rowOf x0 x1 x2 b))
        - Ideal.log (0 + sumExp (rowOf x0 x1 x2 b) (rowMax (rowOf x0 x1 x2 b))) := by
  rw [val_main_v31_apply, val_main_call0_v10_apply, call0_v5_eq,
    call0_v9_eq x0 x1 x2 _ b (funext fun a => Fin.ext (by match a with | ⟨0, _⟩ => rfl))]
  rfl

end Rows

/-! ### The index arithmetic and the gather -/

/-- A word below 256 is not negative as a signed 32-bit integer. -/
theorem slt_zero : ∀ b : Fin 256, IntOp.cmpi .slt (BitVec.ofNat 32 b.val) 0#32 = 0#1 := by decide

/-- A word below 256 read as a signed integer is itself. -/
theorem toNat_word : ∀ b : Fin 256, (BitVec.ofNat 32 b.val).toInt.toNat = b.val := by decide

/-- The row coordinate of the gather's index pair: the iota, unchanged since it is not negative. -/
theorem v37_eq (b : Fin 256) : val_main_v37 (F := Ideal) (ix1 b) = BitVec.ofNat 32 b.val := by
  rw [val_main_v37_apply, val_main_v34_apply, val_main_v32_apply, val_main_v33_apply, val_main_c_apply]
  show Scalar.select (IntOp.cmpi .slt (BitVec.ofNat 32 b.val) 0#32) _ (BitVec.ofNat 32 b.val) = _
  rw [slt_zero, select_zero]

/-- The column coordinate of the gather's index pair: the iota again. -/
theorem v42_eq (b : Fin 256) : val_main_v42 (F := Ideal) (ix1 b) = BitVec.ofNat 32 b.val := by
  rw [val_main_v42_apply, val_main_v39_apply, val_main_v30_apply, val_main_v38_apply, val_main_c_7_apply]
  show Scalar.select (IntOp.cmpi .slt (BitVec.ofNat 32 b.val) 0#32) _ (BitVec.ofNat 32 b.val) = _
  rw [slt_zero, select_zero]

/-- The index pairs (b, b): first component. -/
theorem v45_left (b : Fin 256) : val_main_v45 (F := Ideal) (ix2 b (0 : Fin 2)) = BitVec.ofNat 32 b.val := by
  unfold val_main_v45
  rw [concatenate_pair_apply_left (s₁ := S256x1) (s₂ := S256x1) (1 : Fin 2) _ _ _ (ix2 b (0 : Fin 2)) rfl
    (ix2 b (0 : Fin 1)) (fun c => by match c with | ⟨0, _⟩ => rfl | ⟨1, _⟩ => rfl), val_main_v43_apply]
  have hi : idx_main_v43 (ix2 b (0 : Fin 1)) = ix1 b := funext fun a => Fin.ext (by match a with | ⟨0, _⟩ => rfl)
  rw [hi, v37_eq]

/-- The index pairs (b, b): second component. -/
theorem v45_right (b : Fin 256) : val_main_v45 (F := Ideal) (ix2 b (1 : Fin 2)) = BitVec.ofNat 32 b.val := by
  unfold val_main_v45
  rw [concatenate_pair_apply_right (s₁ := S256x1) (s₂ := S256x1) (1 : Fin 2) _ _ _ (ix2 b (1 : Fin 2)) rfl rfl
    (ix2 b (0 : Fin 1)) (fun c hc => by match c with | ⟨0, _⟩ => rfl | ⟨1, _⟩ => exact absurd rfl hc) rfl,
    val_main_v44_apply]
  have hi : idx_main_v44 (ix2 b (0 : Fin 1)) = ix1 b := funext fun a => Fin.ext (by match a with | ⟨0, _⟩ => rfl)
  rw [hi, v42_eq]

section Gather
variable (x0 x1 : (⟨S256x768, .f32⟩ : BufTy).Contents (Elt Ideal)) (x2 : (⟨S64x1024x768, .f32⟩ : BufTy).Contents (Elt Ideal))

local notation "G" => gather_S256x65792_S256x2_S256_n_01_n_n_01_1_11

/-- The gather reads element (b, b): both start coordinates are b, inside the operand, and no axis is a batching or
    an offset axis. -/
theorem v46_eq (b : Fin 256) :
    val_main_v46 (F := Ideal) x0 x1 x2 (ix1 b)
      = val_main_v31 (F := Ideal) x0 x1 x2 (ix2 b (⟨b.val, by omega⟩ : Fin 65792)) := by
  have hb := b.isLt
  unfold val_main_v46 Host.gather
  refine congrArg (val_main_v31 (F := Ideal) x0 x1 x2) (funext fun a => Fin.ext ?_)
  show (G).start (ix1 b) (val_main_v45 (F := Ideal)) a + (G).batchCoord (ix1 b) a + (G).offCoord (ix1 b) a = _
  rw [GatherDims.batchCoord_eq_zero _ _ _ List.not_mem_nil]
  have k0 : ∀ a : Fin S256x65792.rank, a ∉ (G).sKept := by decide
  have m0 : ∀ a : Fin S256x65792.rank, a ∈ (G).startIndexMap := by decide
  match a with
  | ⟨0, _⟩ =>
    rw [GatherDims.offCoord_eq_zero _ _ _ (k0 _)]
    simp only [Nat.add_zero]
    unfold GatherDims.start
    rw [dif_pos (m0 _)]
    have hsi : (G).siIdx (ix1 b) ⟨List.idxOf (⟨0, by decide⟩ : Fin S256x65792.rank) (G).startIndexMap, by decide⟩
        = ix2 b (0 : Fin 2) := by
      funext c; refine Fin.ext ?_
      match c with
      | ⟨0, _⟩ => rfl
      | ⟨1, _⟩ => rfl
    rw [hsi, v45_left, toNat_word]
    show min b.val (256 - 1) = b.val
    omega
  | ⟨1, _⟩ =>
    rw [GatherDims.offCoord_eq_zero _ _ _ (k0 _)]
    simp only [Nat.add_zero]
    unfold GatherDims.start
    rw [dif_pos (m0 _)]
    have hsi : (G).siIdx (ix1 b) ⟨List.idxOf (⟨1, by decide⟩ : Fin S256x65792.rank) (G).startIndexMap, by decide⟩
        = ix2 b (1 : Fin 2) := by
      funext c; refine Fin.ext ?_
      match c with
      | ⟨0, _⟩ => rfl
      | ⟨1, _⟩ => rfl
    rw [hsi, v45_right, toNat_word]
    show min b.val (65792 - 1) = b.val
    omega

end Gather

/-! ### The mean and the sign -/

/-- The word 0x43800000 denotes 256. -/
theorem word_256 : Ideal.ofBits .f32 0x43800000#32 = (256 : EReal) := by
  have h1 : ((0x43800000#32 : BitVec 32).extractLsb' 23 8).toNat = 135 := by decide
  have h2 : ((0x43800000#32 : BitVec 32).extractLsb' (8 + 23) 1 == 1#1) = false := by decide
  have h3 : ((0x43800000#32 : BitVec 32).extractLsb' 0 23).toNat = 0 := by decide
  have h256 : (256 : EReal) = ((256 : ℝ) : EReal) := by norm_cast
  unfold Ideal.ofBits Ideal.ieee
  simp only [h1, h2, h3]
  rw [h256]
  norm_num

/-- A sum over the rank-1 index set is the sum over its coordinate. -/
theorem sum_idx1 {n : ℕ} (f : (⟨1, ![n]⟩ : Shape).Idx → EReal) : ∑ j, f j = ∑ b : Fin n, f (ix1 b) := by
  let e : (⟨1, ![n]⟩ : Shape).Idx ≃ Fin n :=
    ⟨fun j => j 0, ix1, fun j => (eq_ix1 j).symm, fun _ => rfl⟩
  exact (Equiv.sum_comp e.symm f).symm

/-- The reference's result is the rowwise loss of its arguments read as rows. -/
theorem val_main_v49_eq (x0 x1 : (⟨S256x768, .f32⟩ : BufTy).Contents (Elt Ideal))
    (x2 : (⟨S64x1024x768, .f32⟩ : BufTy).Contents (Elt Ideal)) :
    val_main_v49 (F := Ideal) x0 x1 x2
      = fun _ => refLoss (fun b d => x0 (ix2 b d)) (fun c d => x1 (ix2 c d)) (flat fun a r d => x2 (ix3 a r d)) := by
  funext i
  rw [val_main_v49_apply, val_main_v48_apply, val_main_v47_apply, val_main_cst_10_apply, val_main_cst_9_apply]
  simp only [Ideal.hostNegf_def, Ideal.negf_def, Ideal.hostDivf_def, Ideal.ofBits_def, Ideal.ofBits_zero_f32, word_256]
  unfold refLoss
  rw [sum_idx1]
  refine congrArg (fun s => -(Ideal.div (0 + s) 256)) (Finset.sum_congr rfl fun b _ => ?_)
  rw [v46_eq, v31_eq]

/-- On every device, from any memory with zero counters: every weakly fair execution of the reference's @main
    terminates with the result buffer holding the rowwise loss of the arguments' launch contents, read as rows, and
    the arguments unchanged. -/
theorem run_ref (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v49) = (fun _ => Cert.InfoNCE.refLoss (fun b d => m ((c.tc : Thread nD τ).loc main_arg0) (ix2 b d)) (fun b d => m ((c.tc : Thread nD τ).loc main_arg1) (ix2 b d)) (Cert.InfoNCE.flat fun a r d => m ((c.tc : Thread nD τ).loc main_arg2) (ix3 a r d)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (Cert.ReferenceIdeal.defs (F := Ideal)) _ _).mono (fun _ h c =>
      ⟨(h c).1.trans ((after_ops (F := Ideal) (launchContents m c)).trans
          (val_main_v49_eq (m ((c.tc : Thread nD τ).loc main_arg0)) (m ((c.tc : Thread nD τ).loc main_arg1))
            (m ((c.tc : Thread nD τ).loc main_arg2)))),
        (h c).2⟩)
    (run (F := Ideal) m ρ)

end Cert.ReferenceIdeal.RefValue

end
-- ==== Proof.Merge.lean ====
/-
  The blockwise and the rowwise arrangements of the contrastive loss agree on finite inputs.

  With finite inputs every logit is a real number.  For a real family g and a real shift s,
  the shifted sum of exponentials  ∑ exp (g j - s)  is  (∑ exp (g j)) · exp (-s).  So a running pair
  (m, l) of the blockwise arrangement always has the form  (m, E · exp (-m))  with m real and E the
  unshifted sum of the exponentials of the logits visited so far; whatever the real m is,
  m + log (E · exp (-m)) = log E.  Merging the three pairs at any common real shift gives
  (E0 + E1 + E2) · exp (-mf), and the rowwise arrangement gives  (∑ over the whole row) · exp (-M);
  the two unshifted sums are the same sum, rearranged.  Each row's term of one loss is therefore minus
  the row's term of the other, as reals, and the outer negation and the division by 256 commute.
-/
import proofs.«156728_j4595615006903_2_alg».proof.Proof.Spec

noncomputable section

namespace Cert.InfoNCE

open Idealize.ShloMosaic

/-! ### Extended reals that are reals -/

/-- The coercion of the reals into the extended reals commutes with finite sums. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The coercion commutes with the maximum of two reals. -/
theorem coe_max (a b : ℝ) : max (a : EReal) (b : EReal) = ((max a b : ℝ) : EReal) :=
  (EReal.coe_strictMono.monotone.map_max).symm

/-- The norm floor is a positive real: sign 0, exponent field 100, so (2^23 + fraction) · 2^(100 - 127 - 23). -/
theorem eps_real : ∃ e : ℝ, 0 < e ∧ eps = (e : EReal) := by
  have h1 : ((0x322BCC77#32 : BitVec 32).extractLsb' 23 8).toNat = 100 := by decide
  have h2 : ((0x322BCC77#32 : BitVec 32).extractLsb' (8 + 23) 1 == 1#1) = false := by decide
  refine ⟨((1 : ℝ) * ((2 ^ 23 + ((0x322BCC77#32 : BitVec 32).extractLsb' 0 23).toNat : ℕ) : ℝ)
      * (2 : ℝ) ^ (((100 : ℕ) : Int) - (2 ^ (8 - 1) - 1) - (23 : ℕ))), ?_, ?_⟩
  · positivity
  · unfold eps Ideal.ofBits Ideal.ieee
    simp only [h1, h2]
    norm_num

/-- The inner product of two real rows is real. -/
theorem dot_real {n : ℕ} (x y : Fin n → EReal) (hx : ∀ d, ∃ r : ℝ, x d = (r : EReal))
    (hy : ∀ d, ∃ r : ℝ, y d = (r : EReal)) : ∃ v : ℝ, dot x y = (v : EReal) := by
  choose r hr using hx
  choose s hs using hy
  refine ⟨∑ d, r d * s d, ?_⟩
  unfold dot
  rw [coe_sum]
  refine Finset.sum_congr rfl fun d _ => ?_
  rw [hr d, hs d, EReal.coe_mul]

/-- The floored norm of a real row is a positive real. -/
theorem nrm_real {n : ℕ} (x : Fin n → EReal) (hx : ∀ d, ∃ r : ℝ, x d = (r : EReal)) :
    ∃ v : ℝ, 0 < v ∧ nrm x = (v : EReal) := by
  choose r hr using hx
  obtain ⟨e, he, hee⟩ := eps_real
  refine ⟨max (Real.sqrt (∑ d, r d * r d)) e, lt_max_of_lt_right he, ?_⟩
  have hs : ∑ d, x d * x d = ((∑ d, r d * r d : ℝ) : EReal) := by
    rw [coe_sum]
    refine Finset.sum_congr rfl fun d _ => ?_
    rw [hr d, EReal.coe_mul]
  unfold nrm
  rw [hs, Ideal.sqrt_coe, if_neg (not_lt.mpr (Finset.sum_nonneg fun d _ => mul_self_nonneg _)), hee, coe_max]

/-- A real row divided by its floored norm is a real row. -/
theorem unit_real {n : ℕ} (x : Fin n → EReal) (hx : ∀ d, ∃ r : ℝ, x d = (r : EReal)) :
    ∀ d, ∃ u : ℝ, unit x d = (u : EReal) := by
  obtain ⟨v, hv, hnv⟩ := nrm_real x hx
  intro d
  obtain ⟨r, hr⟩ := hx d
  refine ⟨r * (1 / v), ?_⟩
  unfold unit
  rw [hnv, Ideal.div_coe hv.ne', hr, EReal.coe_mul]

/-- The logit of two real rows is real. -/
theorem logit_real {n : ℕ} (x y : Fin n → EReal) (hx : ∀ d, ∃ r : ℝ, x d = (r : EReal))
    (hy : ∀ d, ∃ r : ℝ, y d = (r : EReal)) : ∃ v : ℝ, logit x y = (v : EReal) := by
  obtain ⟨v, hv⟩ := dot_real (unit x) (unit y) (unit_real x hx) (unit_real y hy)
  refine ⟨v * (268435456 / 13421773), ?_⟩
  unfold logit logitU invTemp
  rw [hv, EReal.coe_mul]

/-! ### Maxima and shifted sums of exponentials of real families -/

/-- The maximum of a nonempty finite family is one of its members. -/
theorem fold_max_mem {ι : Type*} [DecidableEq ι] (f : ι → EReal) (s : Finset ι) (hs : s.Nonempty) :
    ∃ i, s.fold max ⊥ f = f i := by
  induction s using Finset.induction_on with
  | empty => exact absurd hs (by simp)
  | insert a s ha ih =>
    rw [Finset.fold_insert ha]
    rcases s.eq_empty_or_nonempty with h | h
    · subst h
      exact ⟨a, by simp⟩
    · obtain ⟨i, hi⟩ := ih h
      rw [hi]
      rcases max_choice (f a) (f i) with h' | h'
      · exact ⟨a, h'⟩
      · exact ⟨i, h'⟩

/-- The maximum of a nonempty family of reals is a real. -/
theorem rowMax_real {k : ℕ} (hk : 0 < k) (f : Fin k → EReal) (g : Fin k → ℝ)
    (hf : ∀ j, f j = (g j : EReal)) : ∃ m : ℝ, rowMax f = (m : EReal) := by
  obtain ⟨i, hi⟩ := fold_max_mem f Finset.univ ⟨⟨0, hk⟩, Finset.mem_univ _⟩
  exact ⟨g i, by rw [← hf i, ← hi]; rfl⟩

/-- The shifted sum of exponentials of a real family at a real shift is the unshifted sum times the
    exponential of minus the shift. -/
theorem sumExp_real {k : ℕ} (f : Fin k → EReal) (g : Fin k → ℝ) (hf : ∀ j, f j = (g j : EReal)) (s : ℝ) :
    sumExp f (s : EReal) = (((∑ j, Real.exp (g j)) * Real.exp (-s) : ℝ) : EReal) := by
  unfold sumExp
  rw [Finset.sum_mul, coe_sum]
  refine Finset.sum_congr rfl fun j _ => ?_
  rw [hf j, ← EReal.coe_sub, Ideal.exp_coe, sub_eq_add_neg, Real.exp_add]

/-- The first step, from (-inf, 0): exp (-inf) = 0 kills the carried sum, and the pair is the block's
    maximum with the block's sum shifted by it. -/
theorem step_first {k : ℕ} (hk : 0 < k) (f : Fin k → EReal) (g : Fin k → ℝ)
    (hf : ∀ j, f j = (g j : EReal)) :
    ∃ m : ℝ, step f (⊥, 0) = ((m : EReal), (((∑ j, Real.exp (g j)) * Real.exp (-m) : ℝ) : EReal)) := by
  obtain ⟨m, hm⟩ := rowMax_real hk f g hf
  refine ⟨m, ?_⟩
  unfold step
  simp only [hm, bot_le, max_eq_right]
  rw [sumExp_real f g hf m]
  simp

/-- A later step: a pair (m, E e^{-m}) becomes (m', (E + the block's unshifted sum) e^{-m'}). -/
theorem step_next {k : ℕ} (hk : 0 < k) (f : Fin k → EReal) (g : Fin k → ℝ)
    (hf : ∀ j, f j = (g j : EReal)) (m E : ℝ) :
    ∃ m' : ℝ, step f ((m : EReal), ((E * Real.exp (-m) : ℝ) : EReal)) =
      ((m' : EReal), (((E + ∑ j, Real.exp (g j)) * Real.exp (-m') : ℝ) : EReal)) := by
  obtain ⟨M, hM⟩ := rowMax_real hk f g hf
  refine ⟨max m M, ?_⟩
  unfold step
  simp only [hM, coe_max]
  rw [sumExp_real f g hf, ← EReal.coe_sub, Ideal.exp_coe, ← EReal.coe_mul, ← EReal.coe_add]
  congr 2
  rw [add_mul, ← mul_assoc, mul_comm (Real.exp _) E, mul_assoc, ← Real.exp_add]
  congr 3
  ring

/-- The logarithm of a positive unshifted sum shifted by m: log (E e^{-m}) = log E - m. -/
theorem log_shift (m E : ℝ) (hE : 0 < E) :
    Ideal.log ((E * Real.exp (-m) : ℝ) : EReal) = ((Real.log E - m : ℝ) : EReal) := by
  have hpos : 0 < E * Real.exp (-m) := mul_pos hE (Real.exp_pos _)
  rw [Ideal.log_coe, if_neg (not_le.mpr hpos), Real.log_mul hE.ne' (Real.exp_pos _).ne', Real.log_exp]
  rfl

/-! ### Rearranging sums over ranges -/

/-- A sum over K · T consecutive naturals is the sum over K tiles of T. -/
theorem sum_range_tiles (G : ℕ → ℝ) (T : ℕ) :
    ∀ K, ∑ r ∈ Finset.range (K * T), G r = ∑ t ∈ Finset.range K, ∑ j ∈ Finset.range T, G (t * T + j)
  | 0 => by simp
  | K + 1 => by
    rw [Nat.succ_mul, Finset.sum_range_add, sum_range_tiles G T K, Finset.sum_range_succ]

/-! ### The rows of logits as real families -/

/-- A real family on the queue rows, extended by zero to every natural. -/
def ext (n : Fin 65536 → ℝ) (r : ℕ) : ℝ := if h : r < 65536 then n ⟨r, h⟩ else 0

/-- The unshifted sum of exponentials of block t of 2048. -/
def blockE (n : Fin 65536 → ℝ) (t : ℕ) : ℝ := ∑ j : Fin 2048, Real.exp (ext n (t * 2048 + j.val))

/-- The unshifted sum over the first i + 1 blocks of half h. -/
def halfE (n : Fin 65536 → ℝ) (h i : ℕ) : ℝ := ∑ t ∈ Finset.range (i + 1), blockE n (16 * h + t)

/-- A whole real row on the naturals: 256 positives, then the negatives. -/
def rowN (p : Fin 256 → ℝ) (n : Fin 65536 → ℝ) (j : ℕ) : ℝ := if h : j < 256 then p ⟨j, h⟩ else ext n (j - 256)

/-- The unshifted sum of exponentials of a whole row. -/
def totE (p : Fin 256 → ℝ) (n : Fin 65536 → ℝ) : ℝ := (∑ c, Real.exp (p c)) + ∑ r, Real.exp (n r)

theorem totE_pos (p : Fin 256 → ℝ) (n : Fin 65536 → ℝ) : 0 < totE p n := by
  unfold totE
  refine add_pos_of_pos_of_nonneg ?_ (Finset.sum_nonneg fun r _ => (Real.exp_pos _).le)
  exact Finset.sum_pos (fun c _ => Real.exp_pos _) ⟨⟨0, by norm_num⟩, Finset.mem_univ _⟩

/-- The negatives' unshifted sum is the two halves' sums. -/
theorem sum_neg_halves (n : Fin 65536 → ℝ) :
    ∑ r, Real.exp (n r) = halfE n 0 15 + halfE n 1 15 := by
  have h0 : ∑ r : Fin 65536, Real.exp (n r) = ∑ r : Fin 65536, (fun r : ℕ => Real.exp (ext n r)) r.val := by
    refine Finset.sum_congr rfl fun r _ => ?_
    simp only [ext, dif_pos r.isLt]
  have hb : ∀ t, blockE n t = ∑ j ∈ Finset.range 2048, Real.exp (ext n (t * 2048 + j)) := fun t =>
    Fin.sum_univ_eq_sum_range (fun j : ℕ => Real.exp (ext n (t * 2048 + j))) 2048
  rw [h0, Fin.sum_univ_eq_sum_range (fun r : ℕ => Real.exp (ext n r)) 65536,
    show (65536 : ℕ) = 32 * 2048 from by norm_num, sum_range_tiles _ 2048 32,
    show (32 : ℕ) = 16 + 16 from by norm_num, Finset.sum_range_add]
  unfold halfE
  simp only [hb, Nat.mul_zero, Nat.zero_add, Nat.mul_one]

/-- The whole row's unshifted sum is the positives' plus the negatives'. -/
theorem sum_row (p : Fin 256 → ℝ) (n : Fin 65536 → ℝ) :
    ∑ j : Fin 65792, Real.exp (rowN p n j.val) = totE p n := by
  have h1 : ∑ j ∈ Finset.range 256, Real.exp (rowN p n j) = ∑ c, Real.exp (p c) := by
    rw [← Fin.sum_univ_eq_sum_range (fun j : ℕ => Real.exp (rowN p n j)) 256]
    refine Finset.sum_congr rfl fun c _ => ?_
    simp only [rowN, dif_pos c.isLt]
  have h2 : ∑ j ∈ Finset.range 65536, Real.exp (rowN p n (256 + j)) = ∑ r, Real.exp (n r) := by
    rw [← Fin.sum_univ_eq_sum_range (fun j : ℕ => Real.exp (rowN p n (256 + j))) 65536]
    refine Finset.sum_congr rfl fun r _ => ?_
    have h : ¬ (256 + r.val < 256) := by omega
    simp only [rowN, dif_neg h, Nat.add_sub_cancel_left, ext, dif_pos r.isLt]
  rw [Fin.sum_univ_eq_sum_range (fun j : ℕ => Real.exp (rowN p n j)) 65792,
    show (65792 : ℕ) = 256 + 65536 from by norm_num, Finset.sum_range_add, h1, h2]
  rfl

section
variable (Q K : Fin 256 → Fin 768 → EReal) (Z : Fin 65536 → Fin 768 → EReal)

/-- A block of negatives as a real family. -/
theorem negBlock_real (b : Fin 256) (n : Fin 65536 → ℝ) (hn : ∀ r, neg Q Z b r = (n r : EReal))
    (t : ℕ) (ht : t < 32) (j : Fin 2048) :
    negBlock Q Z b t ht j = ((ext n (t * 2048 + j.val) : ℝ) : EReal) := by
  have hj := j.isLt
  have h : t * 2048 + j.val < 65536 := by omega
  unfold negBlock ext
  rw [hn, dif_pos h]

/-- A whole row as a real family. -/
theorem row_real (b : Fin 256) (p : Fin 256 → ℝ) (n : Fin 65536 → ℝ)
    (hp : ∀ c, pos Q K b c = (p c : EReal)) (hn : ∀ r, neg Q Z b r = (n r : EReal)) (j : Fin 65792) :
    row Q K Z b j = ((rowN p n j.val : ℝ) : EReal) := by
  have hj := j.isLt
  unfold row rowN
  by_cases h : j.val < 256
  · rw [dif_pos h, dif_pos h, hp]
  · have h' : j.val - 256 < 65536 := by omega
    rw [dif_neg h, dif_neg h, hn, ext, dif_pos h']

/-- The running pair of a half after i + 1 blocks is (m, E e^{-m}) with m real and E the unshifted sum
    of the exponentials of the logits of those blocks. -/
theorem half_inv (b : Fin 256) (n : Fin 65536 → ℝ) (hn : ∀ r, neg Q Z b r = (n r : EReal))
    (h : ℕ) (hh : h < 2) : ∀ (i : ℕ) (hi : i < 16),
    ∃ m : ℝ, half Q Z b h hh i hi = ((m : EReal), ((halfE n h i * Real.exp (-m) : ℝ) : EReal))
  | 0, _ => by
    obtain ⟨m, hm⟩ := step_first (by norm_num) (negBlock Q Z b (16 * h) (by omega))
      (fun j => ext n (16 * h * 2048 + j.val)) (negBlock_real Q Z b n hn _ _)
    refine ⟨m, ?_⟩
    rw [half, hm]
    simp only [halfE, blockE, Nat.zero_add, Finset.sum_range_one, Nat.add_zero]
  | i + 1, hi => by
    obtain ⟨m, hm⟩ := half_inv b n hn h hh i (by omega)
    obtain ⟨m', hm'⟩ := step_next (by norm_num) (negBlock Q Z b (16 * h + (i + 1)) (by omega))
      (fun j => ext n ((16 * h + (i + 1)) * 2048 + j.val)) (negBlock_real Q Z b n hn _ _) m (halfE n h i)
    refine ⟨m', ?_⟩
    rw [half, hm, hm']
    simp only [halfE, blockE, Finset.sum_range_succ (n := i + 1)]

end

/-! ### The two losses, row by row -/

/-- Rescaling an unshifted sum from the shift m to the shift m'. -/
theorem rescale (E m m' : ℝ) : E * Real.exp (-m) * Real.exp (m - m') = E * Real.exp (-m') := by
  rw [mul_assoc, ← Real.exp_add]
  congr 2
  ring

section
variable (Q K : Fin 256 → Fin 768 → EReal) (Z : Fin 65536 → Fin 768 → EReal)

/-- Row b's term of the blockwise loss. -/
def kernRow (b : Fin 256) : EReal :=
  (let m0 := rowMax (pos Q K b)
   let l0 := sumExp (pos Q K b) m0
   let p := ∑ c : Fin 256, (if b = c then pos Q K b c else 0)
   let h1 := half Q Z b 0 (by omega) 15 (by omega)
   let h2 := half Q Z b 1 (by omega) 15 (by omega)
   let mf := max (max m0 h1.1) h2.1
   let lf := (l0 * Ideal.exp (m0 - mf) + h1.2 * Ideal.exp (h1.1 - mf)) + h2.2 * Ideal.exp (h2.1 - mf)
   ((mf + Ideal.log lf) - p))

theorem kernLoss_def : kernLoss Q K Z = Ideal.div (0 + ∑ b : Fin 256, kernRow Q K Z b) 256 := rfl

/-- Row b's term of the rowwise loss. -/
def refRow (b : Fin 256) : EReal :=
  (row Q K Z b ⟨b.val, by omega⟩ - rowMax (row Q K Z b))
    - Ideal.log (0 + sumExp (row Q K Z b) (rowMax (row Q K Z b)))

theorem refLoss_def : refLoss Q K Z = -(Ideal.div (0 + ∑ b : Fin 256, refRow Q K Z b) 256) := rfl

/-- Rowwise: the positive logit minus the logarithm of the row's unshifted sum. -/
theorem refRow_real (b : Fin 256) (p : Fin 256 → ℝ) (n : Fin 65536 → ℝ)
    (hp : ∀ c, pos Q K b c = (p c : EReal)) (hn : ∀ r, neg Q Z b r = (n r : EReal)) :
    refRow Q K Z b = ((p b - Real.log (totE p n) : ℝ) : EReal) := by
  have hrow := row_real Q K Z b p n hp hn
  obtain ⟨M, hM⟩ := rowMax_real (by norm_num) (row Q K Z b) (fun j => rowN p n j.val) hrow
  have hb : rowN p n b.val = p b := by simp only [rowN, dif_pos b.isLt]
  unfold refRow
  rw [hM, sumExp_real _ _ hrow M, zero_add, sum_row, log_shift M _ (totE_pos p n), hrow,
    ← EReal.coe_sub, ← EReal.coe_sub, hb]
  refine congrArg Real.toEReal ?_
  ring

/-- Blockwise: the logarithm of the row's unshifted sum minus the positive logit. -/
theorem kernRow_real (b : Fin 256) (p : Fin 256 → ℝ) (n : Fin 65536 → ℝ)
    (hp : ∀ c, pos Q K b c = (p c : EReal)) (hn : ∀ r, neg Q Z b r = (n r : EReal)) :
    kernRow Q K Z b = ((Real.log (totE p n) - p b : ℝ) : EReal) := by
  obtain ⟨m0, hm0⟩ := rowMax_real (by norm_num) (pos Q K b) p hp
  obtain ⟨m1, hm1⟩ := half_inv Q Z b n hn 0 (by omega) 15 (by omega)
  obtain ⟨m2, hm2⟩ := half_inv Q Z b n hn 1 (by omega) 15 (by omega)
  have hp' : (∑ c : Fin 256, (if b = c then pos Q K b c else 0)) = (p b : EReal) := by
    rw [Finset.sum_ite_eq, if_pos (Finset.mem_univ _), hp]
  have key : ∀ mf : ℝ, (∑ c, Real.exp (p c)) * Real.exp (-m0) * Real.exp (m0 - mf)
      + halfE n 0 15 * Real.exp (-m1) * Real.exp (m1 - mf)
      + halfE n 1 15 * Real.exp (-m2) * Real.exp (m2 - mf) = totE p n * Real.exp (-mf) := by
    intro mf
    rw [rescale, rescale, rescale, ← add_mul, ← add_mul, totE, sum_neg_halves, add_assoc]
  unfold kernRow
  simp only [hm0, hm1, hm2, hp', sumExp_real _ _ hp m0, coe_max, ← EReal.coe_sub, Ideal.exp_coe,
    ← EReal.coe_mul, ← EReal.coe_add, key, log_shift _ _ (totE_pos p n)]
  refine congrArg Real.toEReal ?_
  ring

end

/-- The blockwise and the rowwise losses agree on finite inputs. -/
theorem kernLoss_eq_refLoss (Q K : Fin 256 → Fin 768 → EReal) (Z : Fin 65536 → Fin 768 → EReal)
    (hQ : ∀ b d, ∃ r : ℝ, Q b d = (r : EReal)) (hK : ∀ b d, ∃ r : ℝ, K b d = (r : EReal))
    (hZ : ∀ r d, ∃ x : ℝ, Z r d = (x : EReal)) :
    kernLoss Q K Z = refLoss Q K Z := by
  choose p hp using fun b c => logit_real (Q b) (K c) (hQ b) (hK c)
  choose n hn using fun b r => logit_real (Q b) (Z r) (hQ b) (hZ r)
  have hk : ∀ b, kernRow Q K Z b = ((Real.log (totE (p b) (n b)) - p b b : ℝ) : EReal) :=
    fun b => kernRow_real Q K Z b (p b) (n b) (hp b) (hn b)
  have hr : ∀ b, refRow Q K Z b = ((p b b - Real.log (totE (p b) (n b)) : ℝ) : EReal) :=
    fun b => refRow_real Q K Z b (p b) (n b) (hp b) (hn b)
  have h256 : (256 : EReal) = ((256 : ℝ) : EReal) := by norm_cast
  have hne : (256 : ℝ) ≠ 0 := by norm_num
  rw [kernLoss_def, refLoss_def, Finset.sum_congr rfl (fun b _ => hk b),
    Finset.sum_congr rfl (fun b _ => hr b), ← coe_sum, ← coe_sum, zero_add, zero_add, h256,
    Ideal.div_coe hne, Ideal.div_coe hne, ← EReal.coe_mul, ← EReal.coe_mul, ← EReal.coe_neg]
  have hsum : ∑ b, (Real.log (totE (p b) (n b)) - p b b) = -∑ b, (p b b - Real.log (totE (p b) (n b))) := by
    rw [← Finset.sum_neg_distrib]
    exact Finset.sum_congr rfl fun b _ => (neg_sub _ _).symm
  rw [hsum, neg_mul]

end Cert.InfoNCE
-- ==== Proof.Finite.lean ====
/-
  Finite inputs are real numbers: the precondition compares the absolute value of every input entry with +inf
  and takes the conjunction over all entries, so under it every entry of the three arrays is a real number.
-/
import proofs.«156728_j4595615006903_2_alg».proof.Defs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx

instance : Subsingleton Cert.Pre_finite_inputs.S_.Idx := ⟨fun a b => funext fun d => d.elim0⟩

/-- An extended real whose absolute value is below +inf is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  have hlt : max x (-x) < ⊤ := by
    by_contra hn
    have e : Ideal.cmp .olt (max x (-x)) ⊤ = 0#1 := by simp [Ideal.cmp, hn]
    rw [e] at h
    exact absurd h (by decide)
  induction x using EReal.rec with
  | bot => simp at hlt
  | coe r => exact ⟨r, rfl⟩
  | top => simp at hlt

variable [Cert.Pre_finite_inputs.Facts]
open Cert.Pre_finite_inputs Cert.Pre_finite_inputs.Facts

/-- Under the precondition every entry of the three input arrays is a real number. -/
theorem real_of_pre (x0 x1 : FVec Ideal S256x768 .f32) (x2 : FVec Ideal S64x1024x768 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [Cert.Pre_finite_inputs.fn] at h0
  obtain ⟨h01, e2⟩ := IntOp.andi_eq_one.mp h0
  obtain ⟨e0, e1⟩ := IntOp.andi_eq_one.mp h01
  refine ⟨fun i => ?_, fun i => ?_, fun i => ?_⟩
  · exact real_of_abs_lt (x0 i) (Host.reduce_andi_all _ _ _ _ ix0 e0 i)
  · exact real_of_abs_lt (x1 i) (Host.reduce_andi_all _ _ _ _ ix0 e1 i)
  · exact real_of_abs_lt (x2 i) (Host.reduce_andi_all _ _ _ _ ix0 e2 i)

end Cert.Finite

end
-- ==== Proof.Claims.lean ====
/-
  The five claims. The frames of the two kernel programs are their runs with everything but the arguments
  forgotten; the reference's frame is its run likewise. The idealization names one constant, the scale of the
  logits, twice: the reciprocal of the temperature's single-precision value. At the ideal values the kernel
  program ends at the blockwise loss of its inputs and the reference at the rowwise loss of its own; on finite
  inputs the two losses are one number (the merge of running (max, sum) pairs is the logsumexp of the whole row),
  and the precondition makes the inputs finite.
-/
import proofs.«156728_j4595615006903_2_alg».proof.Defs
import proofs.«156728_j4595615006903_2_alg».proof.Proof.K.Run
import proofs.«156728_j4595615006903_2_alg».proof.Proof.KI.KV3
import proofs.«156728_j4595615006903_2_alg».proof.Proof.RefLoss
import proofs.«156728_j4595615006903_2_alg».proof.Proof.Merge
import proofs.«156728_j4595615006903_2_alg».proof.Proof.Finite
import proofs.«156728_j4595615006903_2_alg».proof.Proof.Gen.Kernel
import proofs.«156728_j4595615006903_2_alg».proof.Proof.Gen.KernelIdeal
import proofs.«156728_j4595615006903_2_alg».proof.Proof.Gen.ReferenceIdeal
import proofs.«156728_j4595615006903_2_alg».proof.Proof.Gen.Pre_finite_inputs

noncomputable section

namespace Cert.Proof.Claims

open Idealize.ShloMosaic Idealize.ShloMosaic.TcCoe Idealize.SL.Sem Idealize.ShloMosaic.ValueIdx

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.RefValue.run_ref m ρ)

/-- The ledger's two entries, one per kernel: the table gives the scale its exact value. -/
theorem preserves : Cert.preserves_Kernel_KernelIdeal :=
  ⟨IdealRules.named_const.statement Cert.KernelIdeal.κ "inv_temp" .f32 0x41A00000#32 ((268435456 / 13421773 : ℝ) : EReal) rfl,
   IdealRules.named_const.statement Cert.KernelIdeal.κ "inv_temp" .f32 0x41A00000#32 ((268435456 / 13421773 : ℝ) : EReal) rfl⟩

open Cert.KernelIdeal Cert.KernelIdeal.Fr Cert.KernelIdeal.KV in
theorem algebraic : Cert.algebraic_KernelIdeal_ReferenceIdeal := by
  intro m ρ m' ρ' hpre hagree
  refine ⟨fun c _ => Cert.InfoNCE.kernLoss (Qm m c) (Km m c) (Zm m c), ?_, ?_⟩
  · exact (θ_run Cert.KernelIdeal.defs _ _).mono (fun _ h c =>
      ⟨(h c _ (mem_uc main_v28 (by decide))).trans (result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩) (run_all m ρ)
  · refine (θ_run Cert.ReferenceIdeal.defs _ _).mono (fun _ h c => ⟨(h c).1.trans ?_, (h c).2⟩)
      (Cert.ReferenceIdeal.RefValue.run_ref m' ρ')
    obtain ⟨r0, r1, r2⟩ := Cert.Finite.real_of_pre _ _ _ (hpre c)
    rw [(hagree c).1, (hagree c).2.1, (hagree c).2.2]
    funext _
    exact (Cert.InfoNCE.kernLoss_eq_refLoss (Qm m c) (Km m c) (Zm m c)
      (fun b d => r0 (ix2 b d)) (fun b d => r1 (ix2 b d)) (fun r d => r2 (ix3 _ _ d))).symm

end Cert.Proof.Claims

end
-- ==== Proof.lean ====
/-
  The proof of the certificate's claim: a contrastive loss with a memory queue, computed by two kernels and a
  short host epilogue, against its plain reference.

  The kernel program normalises the query and key rows and reduces the 256 positive logits of each query row to a
  (max, sum of exponentials, diagonal) triple in a first kernel; a second kernel streams the 65536 queue rows in two
  halves of sixteen blocks of 2048, normalising each block and folding its logits into a running (max, sum) pair
  per query row and half; the host merges the three pairs at their common maximum and averages
  logsumexp - positive over the rows. The reference concatenates all 65792 logits of a row, divides by the
  temperature, takes log_softmax, gathers the positives and averages. At the ideal values the two are the same
  number for finite inputs: the scale both apply is the reciprocal of the temperature's single-precision value
  (the kernel's constant is named so), and rescaling a running sum when the running maximum grows keeps it equal
  to the sum of exponentials shifted by the current maximum.

  Modules: Spec (the two arrangements as mathematics), Merge (they agree on finite inputs), Payload and Tail (the
  kernels' and the epilogue's arithmetic read at an index), K/ and KI/ (each kernel program's run: the bodies'
  triples, the region invariant that carries the running pair between grid points, the regions chained with the
  host stretches; KI/KV* reads the result off the run), RefLoss (the reference's run read as the rowwise loss),
  Finite (the precondition makes every entry a real number), Claims (the five claims).
-/
import proofs.«156728_j4595615006903_2_alg».proof.Defs
import proofs.«156728_j4595615006903_2_alg».proof.Proof.Claims
import proofs.«156728_j4595615006903_2_alg».proof.Proof.Gen.Kernel
import proofs.«156728_j4595615006903_2_alg».proof.Proof.Gen.KernelIdeal
import proofs.«156728_j4595615006903_2_alg».proof.Proof.Gen.ReferenceIdeal
import proofs.«156728_j4595615006903_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
